-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S64x256 : Shape := ⟨2, ![64, 256]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S256x128 .f32) (main_arg3 : FVec F S256 .f32) (main_arg4 : FVec F S64x256 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S64x256 .f32 := Host.absf main_arg4
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S64x256 : Shape := ⟨2, ![64, 256]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S1968 : Shape := ⟨1, ![1968]⟩
abbrev S851968 : Shape := ⟨1, ![851968]⟩
abbrev S851968x1 : Shape := ⟨2, ![851968, 1]⟩
abbrev S851968x128 : Shape := ⟨2, ![851968, 128]⟩
abbrev S4096x128 : Shape := ⟨2, ![4096, 128]⟩
abbrev S4096 : Shape := ⟨1, ![4096]⟩
abbrev S1x4096 : Shape := ⟨2, ![1, 4096]⟩
abbrev S1x256 : Shape := ⟨2, ![1, 256]⟩
abbrev S50000x256 : Shape := ⟨2, ![50000, 256]⟩
abbrev S5000x128 : Shape := ⟨2, ![5000, 128]⟩
abbrev S5000x256 : Shape := ⟨2, ![5000, 256]⟩
abbrev S128x256 : Shape := ⟨2, ![128, 256]⟩
abbrev S851968x256 : Shape := ⟨2, ![851968, 256]⟩
abbrev S4096x256 : Shape := ⟨2, ![4096, 256]⟩
abbrev S1x64 : Shape := ⟨2, ![1, 64]⟩
abbrev S50000x64 : Shape := ⟨2, ![50000, 64]⟩
abbrev S5000x64 : Shape := ⟨2, ![5000, 64]⟩
abbrev S256x64 : Shape := ⟨2, ![256, 64]⟩
abbrev S5000 : Shape := ⟨1, ![5000]⟩
abbrev S5000x1 : Shape := ⟨2, ![5000, 1]⟩

abbrev nBuf : Space → Nat
  | .hbm => 73
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S64x256, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .i32⟩
  | .hbm, ⟨14, _⟩ => ⟨S1968, .i32⟩
  | .hbm, ⟨15, _⟩ => ⟨S851968, .i32⟩
  | .hbm, ⟨16, _⟩ => ⟨S851968, .i32⟩
  | .hbm, ⟨17, _⟩ => ⟨S_, .i32⟩
  | .hbm, ⟨18, _⟩ => ⟨S851968, .i32⟩
  | .hbm, ⟨19, _⟩ => ⟨S851968, .i1⟩
  | .hbm, ⟨20, _⟩ => ⟨S_, .i32⟩
  | .hbm, ⟨21, _⟩ => ⟨S851968, .i32⟩
  | .hbm, ⟨22, _⟩ => ⟨S851968, .i32⟩
  | .hbm, ⟨23, _⟩ => ⟨S851968, .i32⟩
  | .hbm, ⟨24, _⟩ => ⟨S851968x1, .i32⟩
  | .hbm, ⟨25, _⟩ => ⟨S851968x128, .f32⟩
  | .hbm, ⟨26, _⟩ => ⟨S_, .i32⟩
  | .hbm, ⟨27, _⟩ => ⟨S851968, .i32⟩
  | .hbm, ⟨28, _⟩ => ⟨S851968, .i1⟩
  | .hbm, ⟨29, _⟩ => ⟨S_, .i32⟩
  | .hbm, ⟨30, _⟩ => ⟨S851968, .i32⟩
  | .hbm, ⟨31, _⟩ => ⟨S851968, .i32⟩
  | .hbm, ⟨32, _⟩ => ⟨S851968, .i32⟩
  | .hbm, ⟨33, _⟩ => ⟨S851968x1, .i32⟩
  | .hbm, ⟨34, _⟩ => ⟨S851968x128, .f32⟩
  | .hbm, ⟨35, _⟩ => ⟨S851968, .f32⟩
  | .hbm, ⟨36, _⟩ => ⟨S851968x1, .f32⟩
  | .hbm, ⟨37, _⟩ => ⟨S851968x128, .f32⟩
  | .hbm, ⟨38, _⟩ => ⟨S851968x128, .f32⟩
  | .hbm, ⟨39, _⟩ => ⟨S_, .f32⟩
  | .hbm, ⟨40, _⟩ => ⟨S50000x128, .f32⟩
  | .hbm, ⟨41, _⟩ => ⟨S851968x1, .i32⟩
  | .hbm, ⟨42, _⟩ => ⟨S50000x128, .f32⟩
  | .hbm, ⟨43, _⟩ => ⟨S1x256, .f32⟩
  | .hbm, ⟨44, _⟩ => ⟨S50000x256, .f32⟩
  | .hbm, ⟨45, _⟩ => ⟨S_, .i32⟩
  | .hbm, ⟨46, _⟩ => ⟨S851968, .i32⟩
  | .hbm, ⟨47, _⟩ => ⟨S851968, .i1⟩
  | .hbm, ⟨48, _⟩ => ⟨S_, .i32⟩
  | .hbm, ⟨49, _⟩ => ⟨S851968, .i32⟩
  | .hbm, ⟨50, _⟩ => ⟨S851968, .i32⟩
  | .hbm, ⟨51, _⟩ => ⟨S851968, .i32⟩
  | .hbm, ⟨52, _⟩ => ⟨S851968x1, .i32⟩
  | .hbm, ⟨53, _⟩ => ⟨S851968x256, .f32⟩
  | .hbm, ⟨54, _⟩ => ⟨S_, .i32⟩
  | .hbm, ⟨55, _⟩ => ⟨S851968, .i32⟩
  | .hbm, ⟨56, _⟩ => ⟨S851968, .i1⟩
  | .hbm, ⟨57, _⟩ => ⟨S_, .i32⟩
  | .hbm, ⟨58, _⟩ => ⟨S851968, .i32⟩
  | .hbm, ⟨59, _⟩ => ⟨S851968, .i32⟩
  | .hbm, ⟨60, _⟩ => ⟨S851968, .i32⟩
  | .hbm, ⟨61, _⟩ => ⟨S851968x1, .i32⟩
  | .hbm, ⟨62, _⟩ => ⟨S851968x256, .f32⟩
  | .hbm, ⟨63, _⟩ => ⟨S851968, .f32⟩
  | .hbm, ⟨64, _⟩ => ⟨S851968x1, .f32⟩
  | .hbm, ⟨65, _⟩ => ⟨S851968x256, .f32⟩
  | .hbm, ⟨66, _⟩ => ⟨S851968x256, .f32⟩
  | .hbm, ⟨67, _⟩ => ⟨S_, .f32⟩
  | .hbm, ⟨68, _⟩ => ⟨S50000x256, .f32⟩
  | .hbm, ⟨69, _⟩ => ⟨S851968x1, .i32⟩
  | .hbm, ⟨70, _⟩ => ⟨S50000x256, .f32⟩
  | .hbm, ⟨71, _⟩ => ⟨S1x64, .f32⟩
  | .hbm, ⟨72, _⟩ => ⟨S50000x64, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096, .f32⟩
  | .local _ .vmem, ⟨5, _⟩ => ⟨S4096, .f32⟩
  | .local _ .vmem, ⟨6, _⟩ => ⟨S5000x128, .f32⟩
  | .local _ .vmem, ⟨7, _⟩ => ⟨S5000x128, .f32⟩
  | .local _ .vmem, ⟨8, _⟩ => ⟨S256x128, .f32⟩
  | .local _ .vmem, ⟨9, _⟩ => ⟨S1x256, .f32⟩
  | .local _ .vmem, ⟨10, _⟩ => ⟨S5000x256, .f32⟩
  | .local _ .vmem, ⟨11, _⟩ => ⟨S5000x256, .f32⟩
  | .local _ .vmem, ⟨12, _⟩ => ⟨S4096x256, .f32⟩
  | .local _ .vmem, ⟨13, _⟩ => ⟨S4096x256, .f32⟩
  | .local _ .vmem, ⟨14, _⟩ => ⟨S4096x256, .f32⟩
  | .local _ .vmem, ⟨15, _⟩ => ⟨S4096x256, .f32⟩
  | .local _ .vmem, ⟨16, _⟩ => ⟨S4096, .f32⟩
  | .local _ .vmem, ⟨17, _⟩ => ⟨S4096, .f32⟩
  | .local _ .vmem, ⟨18, _⟩ => ⟨S5000x256, .f32⟩
  | .local _ .vmem, ⟨19, _⟩ => ⟨S5000x256, .f32⟩
  | .local _ .vmem, ⟨20, _⟩ => ⟨S64x256, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_4 : Ref sig .tc := ⟨.hbm, 45, rfl⟩
abbrev main_v33 : Ref sig .tc := ⟨.hbm, 46, rfl⟩
abbrev main_v34 : Ref sig .tc := ⟨.hbm, 47, rfl⟩
abbrev main_c_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_6 : Ref sig .tc := ⟨.hbm, 54, rfl⟩
abbrev main_v40 : Ref sig .tc := ⟨.hbm, 55, rfl⟩
abbrev main_v41 : Ref sig .tc := ⟨.hbm, 56, rfl⟩
abbrev main_c_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_8 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![208], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![208], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  ![arg0.toNat]

abbrev stage2_0 : Fin 2 → Memref sig .tc .vmem S4096x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S1968 : S_.BroadcastsInDim S1968 (![] : Fin 0 → Fin S1968.rank)
  concatenates_S850000_S1968_S851968_d0 : Shape.Concatenates [S850000, S1968] S851968 0
  bcast_S_S851968 : S_.BroadcastsInDim S851968 (![] : Fin 0 → Fin S851968.rank)
  bcast_S851968_S851968x1_0 : S851968.BroadcastsInDim S851968x1 (![0] : Fin 1 → Fin S851968x1.rank)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S4096 : S4096x128.Reduces [1] S4096
  iota_S1x4096_d1_w32 : S1x4096.Iotas .tc 32 [1]
  shapeCasts_S1x4096_S4096 : S1x4096.ShapeCasts S4096
  natLt_1_32 : 1 < 32
  inb_S4096_S4096_0 : ∀ a, (![0] : Fin 1 → Nat) a + S4096.size a ≤ S4096.size a
  h_S4096 : 0 < S4096.numel
  bcast_S851968x1_S851968x128_0_1 : S851968x1.BroadcastsInDim S851968x128 (![0, 1] : Fin 2 → Fin S851968x128.rank)
  bcast_S_S50000x128 : S_.BroadcastsInDim S50000x128 (![] : Fin 0 → Fin S50000x128.rank)
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  transposes_S256x128_p1_0_S128x256 : S256x128.Transposes [1, 0] S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  reduces_S4096x256_S4096 : S4096x256.Reduces [1] S4096
  bcast_S851968x1_S851968x256_0_1 : S851968x1.BroadcastsInDim S851968x256 (![0, 1] : Fin 2 → Fin S851968x256.rank)
  bcast_S_S50000x256 : S_.BroadcastsInDim S50000x256 (![] : Fin 0 → Fin S50000x256.rank)
  shapeCasts_S64_S1x64 : S64.ShapeCasts S1x64
  shapeCasts_S5000x256_S5000x256 : S5000x256.ShapeCasts S5000x256
  inb_S64x256_S64x256_0_0 : ∀ a, (![0, 0] : Fin 2 → Nat) a + S64x256.size a ≤ S64x256.size a
  h_S64x256 : 0 < S64x256.numel
  transposes_S64x256_p1_0_S256x64 : S64x256.Transposes [1, 0] S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  gather_S50000x128_S851968x1_S851968x128_1_0_n_n_0_1_1128_wf : GatherDims.WF S50000x128 S851968x1 S851968x128 [1] [0] [] [0] [] 1 ![1, 128]
  scatter_S50000x128_S851968x1_S851968x128_1_0_0_1_wf : ScatterDims.WF S50000x128 S851968x1 S851968x128 [1] [0] [0] 1
  dot_S5000x128_S128x256_S5000x256_1_0_0_1_n_n_wf : DotDims.WF S5000x128 S128x256 S5000x256 [1] [0] [0] [1] [] []
  gather_S50000x256_S851968x1_S851968x256_1_0_n_n_0_1_1256_wf : GatherDims.WF S50000x256 S851968x1 S851968x256 [1] [0] [] [0] [] 1 ![1, 256]
  scatter_S50000x256_S851968x1_S851968x256_1_0_0_1_wf : ScatterDims.WF S50000x256 S851968x1 S851968x256 [1] [0] [0] 1
  dot_S5000x256_S256x64_S5000x64_1_0_0_1_n_n_wf : DotDims.WF S5000x256 S256x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S851968x128.size a
  hwx0_0 : ∀ i : grid0.Coords, EltTy.bits .f32 = 32 ∨ (Rect.block (s := S851968x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S851968x128.size a
  hwx0_1 : ∀ i : grid0.Coords, EltTy.bits .f32 = 32 ∨ (Rect.block (s := S851968x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S851968.size a
  hwx0_2 : ∀ i : grid0.Coords, EltTy.bits .f32 = 32 ∨ (Rect.block (s := S851968) S4096.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S50000x256.size a
  hwx1_3 : ∀ i : grid1.Coords, EltTy.bits .f32 = 32 ∨ (Rect.block (s := S50000x256) S5000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x256.size a ≤ S851968x256.size a
  hwx2_0 : ∀ i : grid2.Coords, EltTy.bits .f32 = 32 ∨ (Rect.block (s := S851968x256) S4096x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x256.size a ≤ S851968x256.size a
  hwx2_1 : ∀ i : grid2.Coords, EltTy.bits .f32 = 32 ∨ (Rect.block (s := S851968x256) S4096x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096.size a ≤ S851968.size a
  hwx2_2 : ∀ i : grid2.Coords, EltTy.bits .f32 = 32 ∨ (Rect.block (s := S851968) S4096.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x256.size a ≤ S64x256.size a
  hwx3_1 : ∀ i : grid3.Coords, EltTy.bits .f32 = 32 ∨ (Rect.block (s := S64x256) S64x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)

variable [Facts₀]

def gather_S50000x128_S851968x1_S851968x128_1_0_n_n_0_1_1128 : GatherDims S50000x128 S851968x1 S851968x128 where
  offsetDims := [1]
  collapsedSliceDims := [0]
  operandBatchingDims := []
  startIndicesBatchingDims := []
  startIndexMap := [0]
  indexVectorDim := 1
  sliceSizes := ![1, 128]
  wf := gather_S50000x128_S851968x1_S851968x128_1_0_n_n_0_1_1128_wf
def scatter_S50000x128_S851968x1_S851968x128_1_0_0_1 : ScatterDims S50000x128 S851968x1 S851968x128 where
  updateWindowDims := [1]
  insertedWindowDims := [0]
  scatterDimsToOperandDims := [0]
  indexVectorDim := 1
  wf := scatter_S50000x128_S851968x1_S851968x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S851968x1_S851968x256_1_0_n_n_0_1_1256 : GatherDims S50000x256 S851968x1 S851968x256 where
  offsetDims := [1]
  collapsedSliceDims := [0]
  operandBatchingDims := []
  startIndicesBatchingDims := []
  startIndexMap := [0]
  indexVectorDim := 1
  sliceSizes := ![1, 256]
  wf := gather_S50000x256_S851968x1_S851968x256_1_0_n_n_0_1_1256_wf
def scatter_S50000x256_S851968x1_S851968x256_1_0_0_1 : ScatterDims S50000x256 S851968x1 S851968x256 where
  updateWindowDims := [1]
  insertedWindowDims := [0]
  scatterDimsToOperandDims := [0]
  indexVectorDim := 1
  wf := scatter_S50000x256_S851968x1_S851968x256_1_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf

abbrev win0_0 : Pipeline.Window sig grid0 :=
  Pipeline.Window.ofSpec (Memref.whole main_v23) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v46) S4096x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S4096x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v47) S4096.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v53) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S64x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v54) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v55) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S64x256 : Shape := ⟨2, ![64, 256]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S128x256 : Shape := ⟨2, ![128, 256]⟩
abbrev S50000x256 : Shape := ⟨2, ![50000, 256]⟩
abbrev S1x256 : Shape := ⟨2, ![1, 256]⟩
abbrev S850000x256 : Shape := ⟨2, ![850000, 256]⟩
abbrev S256x64 : Shape := ⟨2, ![256, 64]⟩
abbrev S50000x64 : Shape := ⟨2, ![50000, 64]⟩
abbrev S1x64 : Shape := ⟨2, ![1, 64]⟩
abbrev S50000x1 : Shape := ⟨2, ![50000, 1]⟩

abbrev nBuf : Space → Nat
  | .hbm => 131
  | .vmem => 0
  | .smem => 0
  | _ => 0

abbrev hbmTy0_0 (i : Nat) : BufTy := match i % 128 with
  | 0 => ⟨S50000x128, .f32⟩
  | 1 => ⟨S2x800000, .i32⟩
  | 2 => ⟨S256x128, .f32⟩
  | 3 => ⟨S256, .f32⟩
  | 4 => ⟨S64x256, .f32⟩
  | 5 => ⟨S64, .f32⟩
  | 6 => ⟨S50000, .i32⟩
  | 7 => ⟨S1x800000, .i32⟩
  | 8 => ⟨S800000, .i32⟩
  | 9 => ⟨S850000, .i32⟩
  | 10 => ⟨S1x800000, .i32⟩
  | 11 => ⟨S800000, .i32⟩
  | 12 => ⟨S850000, .i32⟩
  | 13 => ⟨S_, .i32⟩
  | 14 => ⟨S850000, .i32⟩
  | 15 => ⟨S850000, .i1⟩
  | 16 => ⟨S_, .i32⟩
  | 17 => ⟨S850000, .i32⟩
  | 18 => ⟨S850000, .i32⟩
  | 19 => ⟨S850000, .i32⟩
  | 20 => ⟨S850000x1, .i32⟩
  | 21 => ⟨S850000x128, .f32⟩
  | 22 => ⟨S_, .i32⟩
  | 23 => ⟨S850000, .i32⟩
  | 24 => ⟨S850000, .i1⟩
  | 25 => ⟨S_, .i32⟩
  | 26 => ⟨S850000, .i32⟩
  | 27 => ⟨S850000, .i32⟩
  | 28 => ⟨S850000, .i32⟩
  | 29 => ⟨S850000x1, .i32⟩
  | 30 => ⟨S850000x128, .f32⟩
  | 31 => ⟨S850000x128, .f32⟩
  | 32 => ⟨S_, .f32⟩
  | 33 => ⟨S850000, .f32⟩
  | 34 => ⟨S850000x128, .f32⟩
  | 35 => ⟨S_, .f32⟩
  | 36 => ⟨S850000, .f32⟩
  | 37 => ⟨S850000, .f32⟩
  | 38 => ⟨S850000x128, .f32⟩
  | 39 => ⟨S_, .f32⟩
  | 40 => ⟨S850000, .f32⟩
  | 41 => ⟨S850000, .f32⟩
  | 42 => ⟨S850000, .f32⟩
  | 43 => ⟨S_, .f32⟩
  | 44 => ⟨S850000, .f32⟩
  | 45 => ⟨S850000, .f32⟩
  | 46 => ⟨S850000, .f32⟩
  | 47 => ⟨S_, .f32⟩
  | 48 => ⟨S850000, .f32⟩
  | 49 => ⟨S850000, .i1⟩
  | 50 => ⟨S850000, .f32⟩
  | 51 => ⟨S850000x1, .f32⟩
  | 52 => ⟨S850000x128, .f32⟩
  | 53 => ⟨S850000x128, .f32⟩
  | 54 => ⟨S_, .f32⟩
  | 55 => ⟨S50000x128, .f32⟩
  | 56 => ⟨S850000x1, .i32⟩
  | 57 => ⟨S50000x128, .f32⟩
  | 58 => ⟨S128x256, .f32⟩
  | 59 => ⟨S50000x256, .f32⟩
  | 60 => ⟨S1x256, .f32⟩
  | 61 => ⟨S50000x256, .f32⟩
  | 62 => ⟨S50000x256, .f32⟩
  | 63 => ⟨S_, .f32⟩
  | 64 => ⟨S50000x256, .f32⟩
  | 65 => ⟨S50000x256, .f32⟩
  | 66 => ⟨S_, .i32⟩
  | 67 => ⟨S850000, .i32⟩
  | 68 => ⟨S850000, .i1⟩
  | 69 => ⟨S_, .i32⟩
  | 70 => ⟨S850000, .i32⟩
  | 71 => ⟨S850000, .i32⟩
  | 72 => ⟨S850000, .i32⟩
  | 73 => ⟨S850000x1, .i32⟩
  | 74 => ⟨S850000x256, .f32⟩
  | 75 => ⟨S_, .i32⟩
  | 76 => ⟨S850000, .i32⟩
  | 77 => ⟨S850000, .i1⟩
  | 78 => ⟨S_, .i32⟩
  | 79 => ⟨S850000, .i32⟩
  | 80 => ⟨S850000, .i32⟩
  | 81 => ⟨S850000, .i32⟩
  | 82 => ⟨S850000x1, .i32⟩
  | 83 => ⟨S850000x256, .f32⟩
  | 84 => ⟨S850000x256, .f32⟩
  | 85 => ⟨S_, .f32⟩
  | 86 => ⟨S850000, .f32⟩
  | 87 => ⟨S850000x256, .f32⟩
  | 88 => ⟨S_, .f32⟩
  | 89 => ⟨S850000, .f32⟩
  | 90 => ⟨S850000, .f32⟩
  | 91 => ⟨S850000x256, .f32⟩
  | 92 => ⟨S_, .f32⟩
  | 93 => ⟨S850000, .f32⟩
  | 94 => ⟨S850000, .f32⟩
  | 95 => ⟨S850000, .f32⟩
  | 96 => ⟨S_, .f32⟩
  | 97 => ⟨S850000, .f32⟩
  | 98 => ⟨S850000, .f32⟩
  | 99 => ⟨S850000, .f32⟩
  | 100 => ⟨S_, .f32⟩
  | 101 => ⟨S850000, .f32⟩
  | 102 => ⟨S850000, .i1⟩
  | 103 => ⟨S850000, .f32⟩
  | 104 => ⟨S850000x1, .f32⟩
  | 105 => ⟨S850000x256, .f32⟩
  | 106 => ⟨S850000x256, .f32⟩
  | 107 => ⟨S_, .f32⟩
  | 108 => ⟨S50000x256, .f32⟩
  | 109 => ⟨S850000x1, .i32⟩
  | 110 => ⟨S50000x256, .f32⟩
  | 111 => ⟨S256x64, .f32⟩
  | 112 => ⟨S50000x64, .f32⟩
  | 113 => ⟨S1x64, .f32⟩
  | 114 => ⟨S50000x64, .f32⟩
  | 115 => ⟨S50000x64, .f32⟩
  | 116 => ⟨S_, .f32⟩
  | 117 => ⟨S50000, .f32⟩
  | 118 => ⟨S_, .f32⟩
  | 119 => ⟨S50000, .f32⟩
  | 120 => ⟨S50000, .f32⟩
  | 121 => ⟨S50000x1, .f32⟩
  | 122 => ⟨S50000x64, .f32⟩
  | 123 => ⟨S50000x64, .f32⟩
  | 124 => ⟨S50000x64, .f32⟩
  | 125 => ⟨S_, .f32⟩
  | 126 => ⟨S50000, .f32⟩
  | 127 => ⟨S50000x1, .f32⟩
  | _ => ⟨S50000x128, .f32⟩

abbrev hbmTy0_1 (i : Nat) : BufTy := match i % 128 with
  | 0 => ⟨S50000x1, .f32⟩
  | 1 => ⟨S50000x64, .f32⟩
  | 2 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst : Ref sig .tc := ⟨.hbm, 32, rfl⟩
abbrev main_v22 : Ref sig .tc := ⟨.hbm, 33, rfl⟩
abbrev main_call0_v0 : Ref sig .tc := ⟨.hbm, 34, rfl⟩
abbrev main_call0_cst : Ref sig .tc := ⟨.hbm, 35, rfl⟩
abbrev main_call0_v1 : Ref sig .tc := ⟨.hbm, 36, rfl⟩
abbrev main_v23 : Ref sig .tc := ⟨.hbm, 37, rfl⟩
abbrev main_call1_v0 : Ref sig .tc := ⟨.hbm, 38, rfl⟩
abbrev main_call1_cst : Ref sig .tc := ⟨.hbm, 39, rfl⟩
abbrev main_call1_v1 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call2_cst : Ref sig .tc := ⟨.hbm, 63, rfl⟩
abbrev main_call2_v0 : Ref sig .tc := ⟨.hbm, 64, rfl⟩
abbrev main_v43 : Ref sig .tc := ⟨.hbm, 65, rfl⟩
abbrev main_c_6 : Ref sig .tc := ⟨.hbm, 66, rfl⟩
abbrev main_v44 : Ref sig .tc := ⟨.hbm, 67, rfl⟩
abbrev main_v45 : Ref sig .tc := ⟨.hbm, 68, rfl⟩
abbrev main_c_7 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_8 : Ref sig .tc := ⟨.hbm, 75, rfl⟩
abbrev main_v51 : Ref sig .tc := ⟨.hbm, 76, rfl⟩
abbrev main_v52 : Ref sig .tc := ⟨.hbm, 77, rfl⟩
abbrev main_c_9 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_10 : Ref sig .tc := ⟨.hbm, 85, rfl⟩
abbrev main_v59 : Ref sig .tc := ⟨.hbm, 86, rfl⟩
abbrev main_call3_v0 : Ref sig .tc := ⟨.hbm, 87, rfl⟩
abbrev main_call3_cst : Ref sig .tc := ⟨.hbm, 88, rfl⟩
abbrev main_call3_v1 : Ref sig .tc := ⟨.hbm, 89, rfl⟩
abbrev main_v60 : Ref sig .tc := ⟨.hbm, 90, rfl⟩
abbrev main_call4_v0 : Ref sig .tc := ⟨.hbm, 91, rfl⟩
abbrev main_call4_cst : Ref sig .tc := ⟨.hbm, 92, rfl⟩
abbrev main_call4_v1 : Ref sig .tc := ⟨.hbm, 93, rfl⟩
abbrev main_v61 : Ref sig .tc := ⟨.hbm, 94, rfl⟩
abbrev main_v62 : Ref sig .tc := ⟨.hbm, 95, rfl⟩
abbrev main_cst_11 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_12 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_13 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_call5_cst : Ref sig .tc := ⟨.hbm, 116, rfl⟩
abbrev main_call5_v0 : Ref sig .tc := ⟨.hbm, 117, rfl⟩
abbrev main_call5_cst_0 : Ref sig .tc := ⟨.hbm, 118, rfl⟩
abbrev main_call5_v1 : Ref sig .tc := ⟨.hbm, 119, rfl⟩
abbrev main_call5_v2 : Ref sig .tc := ⟨.hbm, 120, rfl⟩
abbrev main_call5_v3 : Ref sig .tc := ⟨.hbm, 121, rfl⟩
abbrev main_call5_v4 : Ref sig .tc := ⟨.hbm, 122, rfl⟩
abbrev main_call5_v5 : Ref sig .tc := ⟨.hbm, 123, rfl⟩
abbrev main_call5_v6 : Ref sig .tc := ⟨.hbm, 124, rfl⟩
abbrev main_call5_cst_1 : Ref sig .tc := ⟨.hbm, 125, rfl⟩
abbrev main_call5_v7 : Ref sig .tc := ⟨.hbm, 126, rfl⟩
abbrev main_call5_v8 : Ref sig .tc := ⟨.hbm, 127, rfl⟩
abbrev main_call5_v9 : Ref sig .tc := ⟨.hbm, 128, rfl⟩
abbrev main_call5_v10 : Ref sig .tc := ⟨.hbm, 129, rfl⟩
abbrev main_v80 : Ref sig .tc := ⟨.hbm, 130, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S850000_S850000x1_0 : S850000.BroadcastsInDim S850000x1 (![0] : Fin 1 → Fin S850000x1.rank)
  reducesTo_S850000x128_S850000_d1 : S850000x128.ReducesTo [1] S850000
  h_S_ : 0 < S_.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  reducesTo_S850000x256_S850000_d1 : S850000x256.ReducesTo [1] S850000
  bcast_S850000x1_S850000x256_0_1 : S850000x1.BroadcastsInDim S850000x256 (![0, 1] : Fin 2 → Fin S850000x256.rank)
  transposes_S64x256_S256x64_1_0 : S64x256.Transposes [1, 0] S256x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x64_S50000x64_1_0_0_1_n_n_wf : DotDims.WF S50000x256 S256x64 S50000x64 [1] [0] [0] [1] [] []

variable [Facts₀]

def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.RefRunA.lean ====
/-
  The reference program's first seven operations — the edge words: the node numbers (an iota), rows 0 and 1 of the
  edge array each reshaped to a vector and followed by the node numbers (the self loops) — read over an arbitrary
  valuation `W` of the buffers: the two word vectors afterwards hold the generated stages `val_main_v3` and
  `val_main_v6` of the edge array held before, and the arguments the later operations read are left alone.
-/
import proofs.«168896_j5385888989441_2_alg».proof.Proof.ReferenceReadP
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- The first seven operations of @main, in order. -/
abbrev segA : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

variable (W : Valuation τ sig (Elt F))

/-- The source words after the seven operations. -/
theorem a_v3 : after (segA (F := F)) W (Proc.devRef .tc main_v3) = val_main_v3 (F := F) (W (Proc.devRef .tc main_arg1)) := by
  after_results; rfl

/-- The target words after the seven operations. -/
theorem a_v6 : after (segA (F := F)) W (Proc.devRef .tc main_v6) = val_main_v6 (F := F) (W (Proc.devRef .tc main_arg1)) := by
  after_results; rfl

theorem a_arg0 : after (segA (F := F)) W (Proc.devRef .tc main_arg0) = W (Proc.devRef .tc main_arg0) := by
  after_results_simp

theorem a_arg2 : after (segA (F := F)) W (Proc.devRef .tc main_arg2) = W (Proc.devRef .tc main_arg2) := by
  after_results_simp

theorem a_arg3 : after (segA (F := F)) W (Proc.devRef .tc main_arg3) = W (Proc.devRef .tc main_arg3) := by
  after_results_simp

theorem a_arg4 : after (segA (F := F)) W (Proc.devRef .tc main_arg4) = W (Proc.devRef .tc main_arg4) := by
  after_results_simp

theorem a_arg5 : after (segA (F := F)) W (Proc.devRef .tc main_arg5) = W (Proc.devRef .tc main_arg5) := by
  after_results_simp

end Cert.ReferenceIdeal.RefRun

end
-- ==== Proof.RefRunB.lean ====
/-
  The reference program's first message-passing layer (45 operations: both index vectors wrapped and laid out as
  columns, the two gathers, the cosine similarity of the gathered rows, the mask, the masked source rows scatter-added
  by the raw target words), read over an arbitrary valuation `W`: if the two word vectors hold the generated stages of
  an edge array `x1` and the feature buffer holds `x0`, the aggregate buffer afterwards holds the generated stage
  `val_main_v37 x0 x1`; the word vectors and the later arguments are left alone.
-/
import proofs.«168896_j5385888989441_2_alg».proof.Proof.ReferenceReadP
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- The operations of the first message-passing layer, in order. -/
abbrev segB : List (HloOp τ sig (Elt F)) :=
  [ nullary main_c (constantI S_ 32 0#32),
    unary main_c main_v7 (broadcastInDim S850000 ![] bcast_S_S850000 : (⟨S_, .i32⟩ : BufTy).Contents (Elt F) → (⟨S850000, .i32⟩ : BufTy).Contents (Elt F)),
    binary main_v3 main_v7 main_v8 (cmpi .slt : (⟨S850000, .i32⟩ : BufTy).Contents (Elt F) → (⟨S850000, .i32⟩ : BufTy).Contents (Elt F) → (⟨S850000, .i1⟩ : BufTy).Contents (Elt F)),
    nullary main_c_0 (constantI S_ 32 50000#32),
    unary main_c_0 main_v9 (broadcastInDim S850000 ![] bcast_S_S850000 : (⟨S_, .i32⟩ : BufTy).Contents (Elt F) → (⟨S850000, .i32⟩ : BufTy).Contents (Elt F)),
    binary main_v3 main_v9 main_v10 (addi : (⟨S850000, .i32⟩ : BufTy).Contents (Elt F) → (⟨S850000, .i32⟩ : BufTy).Contents (Elt F) → (⟨S850000, .i32⟩ : BufTy).Contents (Elt F)),
    ternary main_v8 main_v10 main_v3 main_v11 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v11 main_v12 (broadcastInDim S850000x1 ![0] bcast_S850000_S850000x1_0 : (⟨S850000, .i32⟩ : BufTy).Contents (Elt F) → (⟨S850000x1, .i32⟩ : BufTy).Contents (Elt F)),
    binary main_arg0 main_v12 main_v13 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    nullary main_c_1 (constantI S_ 32 0#32),
    unary main_c_1 main_v14 (broadcastInDim S850000 ![] bcast_S_S850000 : (⟨S_, .i32⟩ : BufTy).Contents (Elt F) → (⟨S850000, .i32⟩ : BufTy).Contents (Elt F)),
    binary main_v6 main_v14 main_v15 (cmpi .slt : (⟨S850000, .i32⟩ : BufTy).Contents (Elt F) → (⟨S850000, .i32⟩ : BufTy).Contents (Elt F) → (⟨S850000, .i1⟩ : BufTy).Contents (Elt F)),
    nullary main_c_2 (constantI S_ 32 50000#32),
    unary main_c_2 main_v16 (broadcastInDim S850000 ![] bcast_S_S850000 : (⟨S_, .i32⟩ : BufTy).Contents (Elt F) → (⟨S850000, .i32⟩ : BufTy).Contents (Elt F)),
    binary main_v6 main_v16 main_v17 (addi : (⟨S850000, .i32⟩ : BufTy).Contents (Elt F) → (⟨S850000, .i32⟩ : BufTy).Contents (Elt F) → (⟨S850000, .i32⟩ : BufTy).Contents (Elt F)),
    ternary main_v15 main_v17 main_v6 main_v18 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v18 main_v19 (broadcastInDim S850000x1 ![0] bcast_S850000_S850000x1_0 : (⟨S850000, .i32⟩ : BufTy).Contents (Elt F) → (⟨S850000x1, .i32⟩ : BufTy).Contents (Elt F)),
    binary main_arg0 main_v19 main_v20 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    binary main_v20 main_v13 main_v21 (mulf : (⟨S850000x128, .f32⟩ : BufTy).Contents (Elt F) → (⟨S850000x128, .f32⟩ : BufTy).Contents (Elt F) → (⟨S850000x128, .f32⟩ : BufTy).Contents (Elt F)),
    nullary main_cst (constant S_ .f32 0x00000000#32),
    binary main_v21 main_cst main_v22 ((fun x v => Host.reduceAdd x v reducesTo_S850000x128_S850000_d1 h_S_) : (⟨S850000x128, .f32⟩ : BufTy).Contents (Elt F) → (⟨S_, .f32⟩ : BufTy).Contents (Elt F) → (⟨S850000, .f32⟩ : BufTy).Contents (Elt F)),
    TRef.binary (TRef.of (T := ⟨S850000x128, .f32⟩) main_v20) (TRef.of (T := ⟨S850000x128, .f32⟩) main_v20) (TRef.of (T := ⟨S850000x128, .f32⟩) main_call0_v0) mulf,
    TRef.nullary (TRef.of (T := ⟨S_, .f32⟩) main_call0_cst) (constant S_ .f32 0x00000000#32),
    TRef.binary (TRef.of (T := ⟨S850000x128, .f32⟩) main_call0_v0) (TRef.of (T := ⟨S_, .f32⟩) main_call0_cst) (TRef.of (T := ⟨S850000, .f32⟩) main_call0_v1) (fun x v => Host.reduceAdd x v reducesTo_S850000x128_S850000_d1 h_S_),
    TRef.unary (TRef.of (T := ⟨S850000, .f32⟩) main_call0_v1) (TRef.of (T := ⟨S850000, .f32⟩) main_v23) Host.sqrt,
    TRef.binary (TRef.of (T := ⟨S850000x128, .f32⟩) main_v13) (TRef.of (T := ⟨S850000x128, .f32⟩) main_v13) (TRef.of (T := ⟨S850000x128, .f32⟩) main_call1_v0) mulf,
    TRef.nullary (TRef.of (T := ⟨S_, .f32⟩) main_call1_cst) (constant S_ .f32 0x00000000#32),
    TRef.binary (TRef.of (T := ⟨S850000x128, .f32⟩) main_call1_v0) (TRef.of (T := ⟨S_, .f32⟩) main_call1_cst) (TRef.of (T := ⟨S850000, .f32⟩) main_call1_v1) (fun x v => Host.reduceAdd x v reducesTo_S850000x128_S850000_d1 h_S_),
    TRef.unary (TRef.of (T := ⟨S850000, .f32⟩) main_call1_v1) (TRef.of (T := ⟨S850000, .f32⟩) main_v24) Host.sqrt,
    binary main_v23 main_v24 main_v25 (mulf : (⟨S850000, .f32⟩ : BufTy).Contents (Elt F) → (⟨S850000, .f32⟩ : BufTy).Contents (Elt F) → (⟨S850000, .f32⟩ : BufTy).Contents (Elt F)),
    nullary main_cst_3 (constant S_ .f32 0x322BCC77#32),
    unary main_cst_3 main_v26 (broadcastInDim S850000 ![] bcast_S_S850000 : (⟨S_, .f32⟩ : BufTy).Contents (Elt F) → (⟨S850000, .f32⟩ : BufTy).Contents (Elt F)),
    binary main_v25 main_v26 main_v27 (maximumf : (⟨S850000, .f32⟩ : BufTy).Contents (Elt F) → (⟨S850000, .f32⟩ : BufTy).Contents (Elt F) → (⟨S850000, .f32⟩ : BufTy).Contents (Elt F)),
    binary main_v22 main_v27 main_v28 (Host.divf : (⟨S850000, .f32⟩ : BufTy).Contents (Elt F) → (⟨S850000, .f32⟩ : BufTy).Contents (Elt F) → (⟨S850000, .f32⟩ : BufTy).Contents (Elt F)),
    nullary main_cst_4 (constant S_ .f32 0x3F000000#32),
    unary main_cst_4 main_v29 (broadcastInDim S850000 ![] bcast_S_S850000 : (⟨S_, .f32⟩ : BufTy).Contents (Elt F) → (⟨S850000, .f32⟩ : BufTy).Contents (Elt F)),
    binary main_v28 main_v29 main_v30 (cmpf .ogt : (⟨S850000, .f32⟩ : BufTy).Contents (Elt F) → (⟨S850000, .f32⟩ : BufTy).Contents (Elt F) → (⟨S850000, .i1⟩ : BufTy).Contents (Elt F)),
    unary main_v30 main_v31 (uitofp .f32 : (⟨S850000, .i1⟩ : BufTy).Contents (Elt F) → (⟨S850000, .f32⟩ : BufTy).Contents (Elt F)),
    unary main_v31 main_v32 (broadcastInDim S850000x1 ![0] bcast_S850000_S850000x1_0 : (⟨S850000, .f32⟩ : BufTy).Contents (Elt F) → (⟨S850000x1, .f32⟩ : BufTy).Contents (Elt F)),
    unary main_v32 main_v33 (broadcastInDim S850000x128 ![0, 1] bcast_S850000x1_S850000x128_0_1 : (⟨S850000x1, .f32⟩ : BufTy).Contents (Elt F) → (⟨S850000x128, .f32⟩ : BufTy).Contents (Elt F)),
    binary main_v13 main_v33 main_v34 (mulf : (⟨S850000x128, .f32⟩ : BufTy).Contents (Elt F) → (⟨S850000x128, .f32⟩ : BufTy).Contents (Elt F) → (⟨S850000x128, .f32⟩ : BufTy).Contents (Elt F)),
    nullary main_cst_5 (constant S_ .f32 0x00000000#32),
    unary main_cst_5 main_v35 (broadcastInDim S50000x128 ![] bcast_S_S50000x128 : (⟨S_, .f32⟩ : BufTy).Contents (Elt F) → (⟨S50000x128, .f32⟩ : BufTy).Contents (Elt F)),
    unary main_v6 main_v36 (broadcastInDim S850000x1 ![0] bcast_S850000_S850000x1_0 : (⟨S850000, .i32⟩ : BufTy).Contents (Elt F) → (⟨S850000x1, .i32⟩ : BufTy).Contents (Elt F)),
    ternary main_v35 main_v36 main_v34 main_v37 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]

variable (W : Valuation τ sig (Elt F))

set_option maxHeartbeats 4000000 in
/-- The aggregate after the layer: the layer's operations over the inputs are the generated stage, whose definition
    unfolds to the same operations over the stages of the words (never entering those). -/
theorem b_v37 (x0 : (⟨S50000x128, .f32⟩ : BufTy).Contents (Elt F)) (x1 : (⟨S2x800000, .i32⟩ : BufTy).Contents (Elt F))
    (h0 : W (Proc.devRef .tc main_arg0) = x0) (h3 : W (Proc.devRef .tc main_v3) = val_main_v3 (F := F) x1)
    (h6 : W (Proc.devRef .tc main_v6) = val_main_v6 (F := F) x1) :
    after (segB (F := F)) W (Proc.devRef .tc main_v37) = val_main_v37 (F := F) x0 x1 := by
  after_results_simp
  rw [h0, h3, h6]
  rfl

set_option maxHeartbeats 4000000 in
theorem b_v3 : after (segB (F := F)) W (Proc.devRef .tc main_v3) = W (Proc.devRef .tc main_v3) := by
  after_results_simp

set_option maxHeartbeats 4000000 in
theorem b_v6 : after (segB (F := F)) W (Proc.devRef .tc main_v6) = W (Proc.devRef .tc main_v6) := by
  after_results_simp

set_option maxHeartbeats 4000000 in
theorem b_arg2 : after (segB (F := F)) W (Proc.devRef .tc main_arg2) = W (Proc.devRef .tc main_arg2) := by
  after_results_simp

set_option maxHeartbeats 4000000 in
theorem b_arg3 : after (segB (F := F)) W (Proc.devRef .tc main_arg3) = W (Proc.devRef .tc main_arg3) := by
  after_results_simp

set_option maxHeartbeats 4000000 in
theorem b_arg4 : after (segB (F := F)) W (Proc.devRef .tc main_arg4) = W (Proc.devRef .tc main_arg4) := by
  after_results_simp

set_option maxHeartbeats 4000000 in
theorem b_arg5 : after (segB (F := F)) W (Proc.devRef .tc main_arg5) = W (Proc.devRef .tc main_arg5) := by
  after_results_simp

end Cert.ReferenceIdeal.RefRun

end
-- ==== Proof.RefRunC.lean ====
/-
  The reference program's first linear layer (8 operations: the weight transposed, the product, the bias broadcast
  and added, the maximum with zero), read over an arbitrary valuation `W`: if the aggregate buffer holds the generated
  stage `val_main_v37 x0 x1` and the weight and bias buffers hold `x2` and `x3`, the hidden-feature buffer afterwards
  holds the generated stage `val_main_v43 x0 x1 x2 x3`; the word vectors and the later arguments are left alone.
-/
import proofs.«168896_j5385888989441_2_alg».proof.Proof.ReferenceReadP
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- The operations of the first linear layer, in order. -/
abbrev segC : List (HloOp τ sig (Elt F)) :=
  [ unary main_arg2 main_v38 ((transpose S128x256 [1, 0] · transposes_S256x128_S128x256_1_0) : (⟨S256x128, .f32⟩ : BufTy).Contents (Elt F) → (⟨S128x256, .f32⟩ : BufTy).Contents (Elt F)),
    binary main_v37 main_v38 main_v39 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg3 main_v40 (broadcastInDim S1x256 ![1] bcast_S256_S1x256_1 : (⟨S256, .f32⟩ : BufTy).Contents (Elt F) → (⟨S1x256, .f32⟩ : BufTy).Contents (Elt F)),
    unary main_v40 main_v41 (broadcastInDim S50000x256 ![0, 1] bcast_S1x256_S50000x256_0_1 : (⟨S1x256, .f32⟩ : BufTy).Contents (Elt F) → (⟨S50000x256, .f32⟩ : BufTy).Contents (Elt F)),
    binary main_v39 main_v41 main_v42 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v42) (TRef.of (T := ⟨S50000x256, .f32⟩) main_call2_v0) (TRef.of (T := ⟨S50000x256, .f32⟩) main_v43) maximumf ]

variable (W : Valuation τ sig (Elt F))

set_option maxHeartbeats 4000000 in
/-- The hidden features after the layer. -/
theorem c_v43 (x0 : (⟨S50000x128, .f32⟩ : BufTy).Contents (Elt F)) (x1 : (⟨S2x800000, .i32⟩ : BufTy).Contents (Elt F)) (x2 : (⟨S256x128, .f32⟩ : BufTy).Contents (Elt F)) (x3 : (⟨S256, .f32⟩ : BufTy).Contents (Elt F))
    (h37 : W (Proc.devRef .tc main_v37) = val_main_v37 (F := F) x0 x1)
    (h2 : W (Proc.devRef .tc main_arg2) = x2) (h3 : W (Proc.devRef .tc main_arg3) = x3) :
    after (segC (F := F)) W (Proc.devRef .tc main_v43) = val_main_v43 (F := F) x0 x1 x2 x3 := by
  after_results_simp
  rw [h37, h2, h3]
  rfl

theorem c_v3 : after (segC (F := F)) W (Proc.devRef .tc main_v3) = W (Proc.devRef .tc main_v3) := by
  after_results_simp

theorem c_v6 : after (segC (F := F)) W (Proc.devRef .tc main_v6) = W (Proc.devRef .tc main_v6) := by
  after_results_simp

theorem c_arg4 : after (segC (F := F)) W (Proc.devRef .tc main_arg4) = W (Proc.devRef .tc main_arg4) := by
  after_results_simp

theorem c_arg5 : after (segC (F := F)) W (Proc.devRef .tc main_arg5) = W (Proc.devRef .tc main_arg5) := by
  after_results_simp

end Cert.ReferenceIdeal.RefRun

end
-- ==== Proof.RefRunD.lean ====
/-
  The reference program's second message-passing layer (45 operations, as the first over the hidden features), read
  over an arbitrary valuation `W`: if the two word vectors hold the generated stages of an edge array `x1` and the
  hidden-feature buffer holds the generated stage `val_main_v43 x0 x1 x2 x3`, the aggregate buffer afterwards holds the
  generated stage `val_main_v74 x0 x1 x2 x3`; the last two arguments are left alone.
-/
import proofs.«168896_j5385888989441_2_alg».proof.Proof.ReferenceReadP
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- The operations of the second message-passing layer, in order. -/
abbrev segD : List (HloOp τ sig (Elt F)) :=
  [ nullary main_c_6 (constantI S_ 32 0#32),
    unary main_c_6 main_v44 (broadcastInDim S850000 ![] bcast_S_S850000 : (⟨S_, .i32⟩ : BufTy).Contents (Elt F) → (⟨S850000, .i32⟩ : BufTy).Contents (Elt F)),
    binary main_v3 main_v44 main_v45 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v46 (broadcastInDim S850000 ![] bcast_S_S850000 : (⟨S_, .i32⟩ : BufTy).Contents (Elt F) → (⟨S850000, .i32⟩ : BufTy).Contents (Elt F)),
    binary main_v3 main_v46 main_v47 (addi : (⟨S850000, .i32⟩ : BufTy).Contents (Elt F) → (⟨S850000, .i32⟩ : BufTy).Contents (Elt F) → (⟨S850000, .i32⟩ : BufTy).Contents (Elt F)),
    ternary main_v45 main_v47 main_v3 main_v48 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v48 main_v49 (broadcastInDim S850000x1 ![0] bcast_S850000_S850000x1_0 : (⟨S850000, .i32⟩ : BufTy).Contents (Elt F) → (⟨S850000x1, .i32⟩ : BufTy).Contents (Elt F)),
    binary main_v43 main_v49 main_v50 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    nullary main_c_8 (constantI S_ 32 0#32),
    unary main_c_8 main_v51 (broadcastInDim S850000 ![] bcast_S_S850000 : (⟨S_, .i32⟩ : BufTy).Contents (Elt F) → (⟨S850000, .i32⟩ : BufTy).Contents (Elt F)),
    binary main_v6 main_v51 main_v52 (cmpi .slt : (⟨S850000, .i32⟩ : BufTy).Contents (Elt F) → (⟨S850000, .i32⟩ : BufTy).Contents (Elt F) → (⟨S850000, .i1⟩ : BufTy).Contents (Elt F)),
    nullary main_c_9 (constantI S_ 32 50000#32),
    unary main_c_9 main_v53 (broadcastInDim S850000 ![] bcast_S_S850000 : (⟨S_, .i32⟩ : BufTy).Contents (Elt F) → (⟨S850000, .i32⟩ : BufTy).Contents (Elt F)),
    binary main_v6 main_v53 main_v54 (addi : (⟨S850000, .i32⟩ : BufTy).Contents (Elt F) → (⟨S850000, .i32⟩ : BufTy).Contents (Elt F) → (⟨S850000, .i32⟩ : BufTy).Contents (Elt F)),
    ternary main_v52 main_v54 main_v6 main_v55 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v55 main_v56 (broadcastInDim S850000x1 ![0] bcast_S850000_S850000x1_0 : (⟨S850000, .i32⟩ : BufTy).Contents (Elt F) → (⟨S850000x1, .i32⟩ : BufTy).Contents (Elt F)),
    binary main_v43 main_v56 main_v57 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    binary main_v57 main_v50 main_v58 (mulf : (⟨S850000x256, .f32⟩ : BufTy).Contents (Elt F) → (⟨S850000x256, .f32⟩ : BufTy).Contents (Elt F) → (⟨S850000x256, .f32⟩ : BufTy).Contents (Elt F)),
    nullary main_cst_10 (constant S_ .f32 0x00000000#32),
    binary main_v58 main_cst_10 main_v59 ((fun x v => Host.reduceAdd x v reducesTo_S850000x256_S850000_d1 h_S_) : (⟨S850000x256, .f32⟩ : BufTy).Contents (Elt F) → (⟨S_, .f32⟩ : BufTy).Contents (Elt F) → (⟨S850000, .f32⟩ : BufTy).Contents (Elt F)),
    TRef.binary (TRef.of (T := ⟨S850000x256, .f32⟩) main_v57) (TRef.of (T := ⟨S850000x256, .f32⟩) main_v57) (TRef.of (T := ⟨S850000x256, .f32⟩) main_call3_v0) mulf,
    TRef.nullary (TRef.of (T := ⟨S_, .f32⟩) main_call3_cst) (constant S_ .f32 0x00000000#32),
    TRef.binary (TRef.of (T := ⟨S850000x256, .f32⟩) main_call3_v0) (TRef.of (T := ⟨S_, .f32⟩) main_call3_cst) (TRef.of (T := ⟨S850000, .f32⟩) main_call3_v1) (fun x v => Host.reduceAdd x v reducesTo_S850000x256_S850000_d1 h_S_),
    TRef.unary (TRef.of (T := ⟨S850000, .f32⟩) main_call3_v1) (TRef.of (T := ⟨S850000, .f32⟩) main_v60) Host.sqrt,
    TRef.binary (TRef.of (T := ⟨S850000x256, .f32⟩) main_v50) (TRef.of (T := ⟨S850000x256, .f32⟩) main_v50) (TRef.of (T := ⟨S850000x256, .f32⟩) main_call4_v0) mulf,
    TRef.nullary (TRef.of (T := ⟨S_, .f32⟩) main_call4_cst) (constant S_ .f32 0x00000000#32),
    TRef.binary (TRef.of (T := ⟨S850000x256, .f32⟩) main_call4_v0) (TRef.of (T := ⟨S_, .f32⟩) main_call4_cst) (TRef.of (T := ⟨S850000, .f32⟩) main_call4_v1) (fun x v => Host.reduceAdd x v reducesTo_S850000x256_S850000_d1 h_S_),
    TRef.unary (TRef.of (T := ⟨S850000, .f32⟩) main_call4_v1) (TRef.of (T := ⟨S850000, .f32⟩) main_v61) Host.sqrt,
    binary main_v60 main_v61 main_v62 (mulf : (⟨S850000, .f32⟩ : BufTy).Contents (Elt F) → (⟨S850000, .f32⟩ : BufTy).Contents (Elt F) → (⟨S850000, .f32⟩ : BufTy).Contents (Elt F)),
    nullary main_cst_11 (constant S_ .f32 0x322BCC77#32),
    unary main_cst_11 main_v63 (broadcastInDim S850000 ![] bcast_S_S850000 : (⟨S_, .f32⟩ : BufTy).Contents (Elt F) → (⟨S850000, .f32⟩ : BufTy).Contents (Elt F)),
    binary main_v62 main_v63 main_v64 (maximumf : (⟨S850000, .f32⟩ : BufTy).Contents (Elt F) → (⟨S850000, .f32⟩ : BufTy).Contents (Elt F) → (⟨S850000, .f32⟩ : BufTy).Contents (Elt F)),
    binary main_v59 main_v64 main_v65 (Host.divf : (⟨S850000, .f32⟩ : BufTy).Contents (Elt F) → (⟨S850000, .f32⟩ : BufTy).Contents (Elt F) → (⟨S850000, .f32⟩ : BufTy).Contents (Elt F)),
    nullary main_cst_12 (constant S_ .f32 0x3F000000#32),
    unary main_cst_12 main_v66 (broadcastInDim S850000 ![] bcast_S_S850000 : (⟨S_, .f32⟩ : BufTy).Contents (Elt F) → (⟨S850000, .f32⟩ : BufTy).Contents (Elt F)),
    binary main_v65 main_v66 main_v67 (cmpf .ogt : (⟨S850000, .f32⟩ : BufTy).Contents (Elt F) → (⟨S850000, .f32⟩ : BufTy).Contents (Elt F) → (⟨S850000, .i1⟩ : BufTy).Contents (Elt F)),
    unary main_v67 main_v68 (uitofp .f32 : (⟨S850000, .i1⟩ : BufTy).Contents (Elt F) → (⟨S850000, .f32⟩ : BufTy).Contents (Elt F)),
    unary main_v68 main_v69 (broadcastInDim S850000x1 ![0] bcast_S850000_S850000x1_0 : (⟨S850000, .f32⟩ : BufTy).Contents (Elt F) → (⟨S850000x1, .f32⟩ : BufTy).Contents (Elt F)),
    unary main_v69 main_v70 (broadcastInDim S850000x256 ![0, 1] bcast_S850000x1_S850000x256_0_1 : (⟨S850000x1, .f32⟩ : BufTy).Contents (Elt F) → (⟨S850000x256, .f32⟩ : BufTy).Contents (Elt F)),
    binary main_v50 main_v70 main_v71 (mulf : (⟨S850000x256, .f32⟩ : BufTy).Contents (Elt F) → (⟨S850000x256, .f32⟩ : BufTy).Contents (Elt F) → (⟨S850000x256, .f32⟩ : BufTy).Contents (Elt F)),
    nullary main_cst_13 (constant S_ .f32 0x00000000#32),
    unary main_cst_13 main_v72 (broadcastInDim S50000x256 ![] bcast_S_S50000x256 : (⟨S_, .f32⟩ : BufTy).Contents (Elt F) → (⟨S50000x256, .f32⟩ : BufTy).Contents (Elt F)),
    unary main_v6 main_v73 (broadcastInDim S850000x1 ![0] bcast_S850000_S850000x1_0 : (⟨S850000, .i32⟩ : BufTy).Contents (Elt F) → (⟨S850000x1, .i32⟩ : BufTy).Contents (Elt F)),
    ternary main_v72 main_v73 main_v71 main_v74 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)) ]

variable (W : Valuation τ sig (Elt F))

set_option maxHeartbeats 4000000 in
/-- The aggregate after the layer. -/
theorem d_v74 (x0 : (⟨S50000x128, .f32⟩ : BufTy).Contents (Elt F)) (x1 : (⟨S2x800000, .i32⟩ : BufTy).Contents (Elt F)) (x2 : (⟨S256x128, .f32⟩ : BufTy).Contents (Elt F)) (x3 : (⟨S256, .f32⟩ : BufTy).Contents (Elt F))
    (h43 : W (Proc.devRef .tc main_v43) = val_main_v43 (F := F) x0 x1 x2 x3)
    (h3 : W (Proc.devRef .tc main_v3) = val_main_v3 (F := F) x1)
    (h6 : W (Proc.devRef .tc main_v6) = val_main_v6 (F := F) x1) :
    after (segD (F := F)) W (Proc.devRef .tc main_v74) = val_main_v74 (F := F) x0 x1 x2 x3 := by
  after_results_simp
  rw [h43, h3, h6]
  rfl

set_option maxHeartbeats 4000000 in
theorem d_arg4 : after (segD (F := F)) W (Proc.devRef .tc main_arg4) = W (Proc.devRef .tc main_arg4) := by
  after_results_simp

set_option maxHeartbeats 4000000 in
theorem d_arg5 : after (segD (F := F)) W (Proc.devRef .tc main_arg5) = W (Proc.devRef .tc main_arg5) := by
  after_results_simp

end Cert.ReferenceIdeal.RefRun

end
-- ==== Proof.RefRunE.lean ====
/-
  The reference program's second linear layer (5 operations: the weight transposed, the product, the bias broadcast
  and added) and its log-softmax (15 operations of a called function: the row maximum, the shifted rows, their
  exponentials' row sums, the logarithms subtracted), read over an arbitrary valuation `W`: if the aggregate buffer
  holds the generated stage `val_main_v74 x0 x1 x2 x3` and the weight and bias buffers hold `x4` and `x5`, the logits
  buffer after the first five holds `val_main_v79 x0 … x5`; if the logits buffer holds that, the result buffer after the
  other fifteen holds `val_main_v80 x0 … x5`.

  A called function's operation reads and writes its buffers through the identity transport along "the buffer's type
  is the value's type". Here those transports are removed by rewriting (a transport back and forth is the identity for
  any typed reference; at a literal reference one transport is the identity on a variable), never by unfolding what
  they are applied to: the row maximum is a fold over the 3200000 positions of the logits, which must stay folded.
-/
import proofs.«168896_j5385888989441_2_alg».proof.Proof.ReferenceReadP
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- The operations of the second linear layer, in order. -/
abbrev segE1 : List (HloOp τ sig (Elt F)) :=
  [ unary main_arg4 main_v75 ((transpose S256x64 [1, 0] · transposes_S64x256_S256x64_1_0) : (⟨S64x256, .f32⟩ : BufTy).Contents (Elt F) → (⟨S256x64, .f32⟩ : BufTy).Contents (Elt F)),
    binary main_v74 main_v75 main_v76 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    unary main_arg5 main_v77 (broadcastInDim S1x64 ![1] bcast_S64_S1x64_1 : (⟨S64, .f32⟩ : BufTy).Contents (Elt F) → (⟨S1x64, .f32⟩ : BufTy).Contents (Elt F)),
    unary main_v77 main_v78 (broadcastInDim S50000x64 ![0, 1] bcast_S1x64_S50000x64_0_1 : (⟨S1x64, .f32⟩ : BufTy).Contents (Elt F) → (⟨S50000x64, .f32⟩ : BufTy).Contents (Elt F)),
    binary main_v76 main_v78 main_v79 (addf : (⟨S50000x64, .f32⟩ : BufTy).Contents (Elt F) → (⟨S50000x64, .f32⟩ : BufTy).Contents (Elt F) → (⟨S50000x64, .f32⟩ : BufTy).Contents (Elt F)) ]

/-- The operations of the log-softmax, in order. -/
abbrev segE2 : List (HloOp τ sig (Elt F)) :=
  [ TRef.nullary (TRef.of (T := ⟨S_, .f32⟩) main_call5_cst) (constant S_ .f32 0xFF800000#32),
    TRef.binary (TRef.of (T := ⟨S50000x64, .f32⟩) main_v79) (TRef.of (T := ⟨S_, .f32⟩) main_call5_cst) (TRef.of (T := ⟨S50000, .f32⟩) main_call5_v0) (fun x v => Host.reduce FloatOps.maximumf x v reducesTo_S50000x64_S50000_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S50000, .f32⟩) main_call5_v1) (broadcastInDim S50000 ![] bcast_S_S50000),
    TRef.binary (TRef.of (T := ⟨S50000, .f32⟩) main_call5_v1) (TRef.of (T := ⟨S50000, .f32⟩) main_call5_v0) (TRef.of (T := ⟨S50000, .f32⟩) main_call5_v2) maximumf,
    TRef.unary (TRef.of (T := ⟨S50000, .f32⟩) main_call5_v2) (TRef.of (T := ⟨S50000x1, .f32⟩) main_call5_v3) (broadcastInDim S50000x1 ![0] bcast_S50000_S50000x1_0),
    TRef.unary (TRef.of (T := ⟨S50000x1, .f32⟩) main_call5_v3) (TRef.of (T := ⟨S50000x64, .f32⟩) main_call5_v4) (broadcastInDim S50000x64 ![0, 1] bcast_S50000x1_S50000x64_0_1),
    TRef.binary (TRef.of (T := ⟨S50000x64, .f32⟩) main_v79) (TRef.of (T := ⟨S50000x64, .f32⟩) main_call5_v4) (TRef.of (T := ⟨S50000x64, .f32⟩) main_call5_v5) subf,
    TRef.unary (TRef.of (T := ⟨S50000x64, .f32⟩) main_call5_v5) (TRef.of (T := ⟨S50000x64, .f32⟩) main_call5_v6) Host.exp,
    TRef.nullary (TRef.of (T := ⟨S_, .f32⟩) main_call5_cst_1) (constant S_ .f32 0x00000000#32),
    TRef.binary (TRef.of (T := ⟨S50000x64, .f32⟩) main_call5_v6) (TRef.of (T := ⟨S_, .f32⟩) main_call5_cst_1) (TRef.of (T := ⟨S50000, .f32⟩) main_call5_v7) (fun x v => Host.reduceAdd x v reducesTo_S50000x64_S50000_d1 h_S_),
    TRef.unary (TRef.of (T := ⟨S50000, .f32⟩) main_call5_v7) (TRef.of (T := ⟨S50000x1, .f32⟩) main_call5_v8) (broadcastInDim S50000x1 ![0] bcast_S50000_S50000x1_0),
    TRef.unary (TRef.of (T := ⟨S50000x1, .f32⟩) main_call5_v8) (TRef.of (T := ⟨S50000x1, .f32⟩) main_call5_v9) Host.log,
    TRef.unary (TRef.of (T := ⟨S50000x1, .f32⟩) main_call5_v9) (TRef.of (T := ⟨S50000x64, .f32⟩) main_call5_v10) (broadcastInDim S50000x64 ![0, 1] bcast_S50000x1_S50000x64_0_1),
    TRef.binary (TRef.of (T := ⟨S50000x64, .f32⟩) main_call5_v5) (TRef.of (T := ⟨S50000x64, .f32⟩) main_call5_v10) (TRef.of (T := ⟨S50000x64, .f32⟩) main_v80) subf ]

/-- A value written through a typed reference and read back through it is the value. -/
theorem ofBuf_toBuf {T : BufTy} (x : TRef sig T) (v : T.Contents (Elt F)) : x.ofBuf (x.toBuf v) = v := by
  obtain ⟨r, rfl, _, _⟩ := x
  rfl

/-- Reading the logits buffer through its typed reference is the identity. -/
theorem ofBuf_v79 (Y : (⟨S50000x64, .f32⟩ : BufTy).Contents (Elt F)) :
    (TRef.of (T := ⟨S50000x64, .f32⟩) main_v79).ofBuf (Val := Elt F) Y = Y := rfl

/-- Writing the result buffer through its typed reference is the identity. -/
theorem toBuf_v80 (Y : (⟨S50000x64, .f32⟩ : BufTy).Contents (Elt F)) :
    (TRef.of (T := ⟨S50000x64, .f32⟩) main_v80).toBuf (Val := Elt F) Y = Y := rfl

variable (W : Valuation τ sig (Elt F))

set_option maxHeartbeats 4000000 in
/-- The logits after the linear layer. -/
theorem e1_v79 (x0 : (⟨S50000x128, .f32⟩ : BufTy).Contents (Elt F)) (x1 : (⟨S2x800000, .i32⟩ : BufTy).Contents (Elt F)) (x2 : (⟨S256x128, .f32⟩ : BufTy).Contents (Elt F)) (x3 : (⟨S256, .f32⟩ : BufTy).Contents (Elt F)) (x4 : (⟨S64x256, .f32⟩ : BufTy).Contents (Elt F)) (x5 : (⟨S64, .f32⟩ : BufTy).Contents (Elt F))
    (h74 : W (Proc.devRef .tc main_v74) = val_main_v74 (F := F) x0 x1 x2 x3)
    (h4 : W (Proc.devRef .tc main_arg4) = x4) (h5 : W (Proc.devRef .tc main_arg5) = x5) :
    after (segE1 (F := F)) W (Proc.devRef .tc main_v79) = val_main_v79 (F := F) x0 x1 x2 x3 x4 x5 := by
  after_results_simp
  rw [h74, h4, h5]
  rfl

set_option maxHeartbeats 4000000 in
/-- The result after the log-softmax. -/
theorem e2_v80 (x0 : (⟨S50000x128, .f32⟩ : BufTy).Contents (Elt F)) (x1 : (⟨S2x800000, .i32⟩ : BufTy).Contents (Elt F)) (x2 : (⟨S256x128, .f32⟩ : BufTy).Contents (Elt F)) (x3 : (⟨S256, .f32⟩ : BufTy).Contents (Elt F)) (x4 : (⟨S64x256, .f32⟩ : BufTy).Contents (Elt F)) (x5 : (⟨S64, .f32⟩ : BufTy).Contents (Elt F))
    (h79 : W (Proc.devRef .tc main_v79) = val_main_v79 (F := F) x0 x1 x2 x3 x4 x5) :
    after (segE2 (F := F)) W (Proc.devRef .tc main_v80) = val_main_v80 (F := F) x0 x1 x2 x3 x4 x5 := by
  after_results_simp
  rw [h79]
  simp only [ofBuf_toBuf, ofBuf_v79, toBuf_v80]
  unfold val_main_v80 val_main_call5_v10 val_main_call5_v9 val_main_call5_v8 val_main_call5_v7 val_main_call5_cst_1 val_main_call5_v6 val_main_call5_v5 val_main_call5_v4 val_main_call5_v3 val_main_call5_v2 val_main_call5_v1 val_main_call5_cst_0 val_main_call5_v0 val_main_call5_cst
  rfl

end Cert.ReferenceIdeal.RefRun

end
-- ==== Proof.RefRun.lean ====
/-
  THE REFERENCE PROGRAM'S WHOLE RUN. Its 125 operations are six consecutive stretches — the edge words, the first
  message-passing layer, the first linear layer, the second message-passing layer, the second linear layer, the
  log-softmax —; the valuation after a concatenation is the valuation after the second list over the valuation after
  the first, so the result buffer after all of them is read stretch by stretch: each stretch turns the generated
  stages its inputs hold into the generated stage of its output and leaves alone what later stretches read. Hence every
  weakly fair execution of @main terminates with the result buffer at the generated stage `val_main_v80` of the six
  arguments' launch contents, and the arguments unchanged.
-/
import proofs.«168896_j5385888989441_2_alg».proof.Proof.ReferenceReadP
import Idealize.ShloMosaic.Lib.StableHlo.Run
import proofs.«168896_j5385888989441_2_alg».proof.Proof.RefRunA
import proofs.«168896_j5385888989441_2_alg».proof.Proof.RefRunB
import proofs.«168896_j5385888989441_2_alg».proof.Proof.RefRunC
import proofs.«168896_j5385888989441_2_alg».proof.Proof.RefRunD
import proofs.«168896_j5385888989441_2_alg».proof.Proof.RefRunE

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

open Cert.ReferenceIdeal.ValueP

/-- The valuation after two lists of operations run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

set_option maxRecDepth 8192 in
/-- The 125 operations are the six stretches, in order. -/
theorem ops_eq : (ops (F := F)) = segA ++ (segB ++ (segC ++ (segD ++ (segE1 ++ segE2)))) := rfl

variable (W : Valuation τ sig (Elt F))

/-- The result buffer after the 125 operations, over any valuation: the generated last stage of the six argument
    buffers' contents. -/
theorem ops_v80 : after (ops (F := F)) W (Proc.devRef .tc main_v80) = val_main_v80 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  rw [ops_eq, after_append, after_append, after_append, after_append, after_append]
  -- after the edge words
  have a3 := a_v3 W
  have a6 := a_v6 W
  have a0 := a_arg0 W
  have a2 := a_arg2 W
  have a3' := a_arg3 W
  have a4 := a_arg4 W
  have a5 := a_arg5 W
  -- after the first message-passing layer
  have b37 := b_v37 (after segA W) _ _ a0 a3 a6
  have b3 := (b_v3 (after segA W)).trans a3
  have b6 := (b_v6 (after segA W)).trans a6
  have b2 := (b_arg2 (after segA W)).trans a2
  have b3' := (b_arg3 (after segA W)).trans a3'
  have b4 := (b_arg4 (after segA W)).trans a4
  have b5 := (b_arg5 (after segA W)).trans a5
  -- after the first linear layer
  have c43 := c_v43 (after segB (after segA W)) _ _ _ _ b37 b2 b3'
  have c3 := (c_v3 (after segB (after segA W))).trans b3
  have c6 := (c_v6 (after segB (after segA W))).trans b6
  have c4 := (c_arg4 (after segB (after segA W))).trans b4
  have c5 := (c_arg5 (after segB (after segA W))).trans b5
  -- after the second message-passing layer
  have d74 := d_v74 (after segC (after segB (after segA W))) _ _ _ _ c43 c3 c6
  have d4 := (d_arg4 (after segC (after segB (after segA W)))).trans c4
  have d5 := (d_arg5 (after segC (after segB (after segA W)))).trans c5
  -- after the second linear layer
  have e79 := e1_v79 (after segD (after segC (after segB (after segA W)))) _ _ _ _ _ _ d74 d4 d5
  -- the log-softmax
  exact e2_v80 (after segE1 (after segD (after segC (after segB (after segA W))))) _ _ _ _ _ _ e79

set_option maxRecDepth 8192 in
set_option maxHeartbeats 8000000 in
/-- No operation writes argument 0. -/
theorem ops_arg0 : after (ops (F := F)) W (Proc.devRef .tc main_arg0) = W (Proc.devRef .tc main_arg0) := by
  after_results_simp

set_option maxRecDepth 8192 in
set_option maxHeartbeats 8000000 in
/-- No operation writes argument 1. -/
theorem ops_arg1 : after (ops (F := F)) W (Proc.devRef .tc main_arg1) = W (Proc.devRef .tc main_arg1) := by
  after_results_simp

set_option maxRecDepth 8192 in
set_option maxHeartbeats 8000000 in
/-- No operation writes argument 2. -/
theorem ops_arg2 : after (ops (F := F)) W (Proc.devRef .tc main_arg2) = W (Proc.devRef .tc main_arg2) := by
  after_results_simp

set_option maxRecDepth 8192 in
set_option maxHeartbeats 8000000 in
/-- No operation writes argument 3. -/
theorem ops_arg3 : after (ops (F := F)) W (Proc.devRef .tc main_arg3) = W (Proc.devRef .tc main_arg3) := by
  after_results_simp

set_option maxRecDepth 8192 in
set_option maxHeartbeats 8000000 in
/-- No operation writes argument 4. -/
theorem ops_arg4 : after (ops (F := F)) W (Proc.devRef .tc main_arg4) = W (Proc.devRef .tc main_arg4) := by
  after_results_simp

set_option maxRecDepth 8192 in
set_option maxHeartbeats 8000000 in
/-- No operation writes argument 5. -/
theorem ops_arg5 : after (ops (F := F)) W (Proc.devRef .tc main_arg5) = W (Proc.devRef .tc main_arg5) := by
  after_results_simp

/-- On every device, for any float values, from any memory with zero counters: every weakly fair execution of @main
    terminates with the result buffer at the generated last stage of the arguments' launch contents and the arguments
    unchanged. -/
theorem runF (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v80) = val_main_v80 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v80).trans (ops_v80 (launchContents m c)),
      (h c main_arg0).trans (ops_arg0 (launchContents m c)),
      (h c main_arg1).trans (ops_arg1 (launchContents m c)),
      (h c main_arg2).trans (ops_arg2 (launchContents m c)),
      (h c main_arg3).trans (ops_arg3 (launchContents m c)),
      (h c main_arg4).trans (ops_arg4 (launchContents m c)),
      (h c main_arg5).trans (ops_arg5 (launchContents m c))⟩)
    (run_seq scopedRefs_eq scopedSems_eq defs main (fun _ => ops) main_eq (fun _ => ops_sub) m ρ)

/-- The run at the ideal instance (the extended reals). -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v80) = val_main_v80 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  runF m ρ

end Cert.ReferenceIdeal.RefRun

end
-- ==== Proof.KernelHost.lean ====
/-
  The idealized kernel's four stretches of host operations, each read over an arbitrary valuation `W` of the buffers
  it starts from: what the buffers a region stages hold after the stretch, as terms of `W`.

  Before the first region: the source and target words of the 850000 edges (the 800000 given ones, then one self
  loop per node), padded with 1968 zero words; each index wrapped once if negative and laid out as a column; the
  feature rows gathered by source and by target. After a mask region: the source rows scaled by the mask, scatter-added
  into a zero matrix by the raw target words; the bias laid out as a row. Before the third region the same gathers of
  the hidden features.
-/
import proofs.«168896_j5385888989441_2_alg».proof.Proof.KernelIdealLaunchP
import Idealize.ShloMosaic.Lib.StableHlo.Run
import Idealize.ShloMosaic.Lib.Tactic
import Idealize.ShloMosaic.PureOps.Ideal

noncomputable section

namespace Cert.KernelIdeal.KHost

open Cert.KernelIdeal Cert.KernelIdeal.Gen Cert.KernelIdeal.GenP
open Idealize.ShloMosaic Idealize.ShloMosaic.TcCoe Idealize.ShloMosaic.Tactic Idealize.SL.Sem Idealize.ShloMosaic.StableHlo

/-- The source words of the edge list: row 0 of the edge array, then the node numbers (the self loops). -/
def srcK (a1 : S2x800000.Idx → BitVec 32) : S850000.Idx → BitVec 32 :=
  concatenate S850000 0 [⟨S800000, shapeCast S800000 (extractStridedSlice S1x800000 ![0, 0] a1 slices_S2x800000_S1x800000_0_0) shapeCasts_S1x800000_S800000⟩,
    ⟨S50000, iotaInDim S50000 32 0⟩] concatenates_S800000_S50000_S850000_d0

/-- The target words of the edge list: row 1 of the edge array, then the node numbers. -/
def dstK (a1 : S2x800000.Idx → BitVec 32) : S850000.Idx → BitVec 32 :=
  concatenate S850000 0 [⟨S800000, shapeCast S800000 (extractStridedSlice S1x800000 ![1, 0] a1 slices_S2x800000_S1x800000_1_0) shapeCasts_S1x800000_S800000⟩,
    ⟨S50000, iotaInDim S50000 32 0⟩] concatenates_S800000_S50000_S850000_d0

/-- An index vector padded with 1968 zero words. -/
def padW (v : S850000.Idx → BitVec 32) : S851968.Idx → BitVec 32 :=
  concatenate S851968 0 [⟨S850000, v⟩, ⟨S1968, broadcastInDim S1968 ![] bcast_S_S1968 (constantI S_ 32 0#32)⟩] concatenates_S850000_S1968_S851968_d0

/-- A padded index vector, each word wrapped once by 50000 if negative, as a column. -/
def normCol (v : S851968.Idx → BitVec 32) : S851968x1.Idx → BitVec 32 :=
  broadcastInDim S851968x1 ![0] bcast_S851968_S851968x1_0
    (select (cmpi .slt v (broadcastInDim S851968 ![] bcast_S_S851968 (constantI S_ 32 0#32)))
      (addi v (broadcastInDim S851968 ![] bcast_S_S851968 (constantI S_ 32 50000#32))) v)

variable (W : Valuation τ sig (Elt Ideal))

/-! ## Before the first region -/

theorem h0_v8 : (StableHlo.after (hostOps0 (F := Ideal)) W (Proc.devRef .tc main_v8) : S851968.Idx → BitVec 32)
    = padW (srcK (W (Proc.devRef .tc main_arg1))) := by
  after_results; rfl

theorem h0_v9 : (StableHlo.after (hostOps0 (F := Ideal)) W (Proc.devRef .tc main_v9) : S851968.Idx → BitVec 32)
    = padW (dstK (W (Proc.devRef .tc main_arg1))) := by
  after_results; rfl

set_option maxHeartbeats 4000000 in
theorem h0_v16 : (StableHlo.after (hostOps0 (F := Ideal)) W (Proc.devRef .tc main_v16) : S851968x128.Idx → EReal)
    = Host.gather gather_S50000x128_S851968x1_S851968x128_1_0_n_n_0_1_1128 (W (Proc.devRef .tc main_arg0) : S50000x128.Idx → EReal)
        (normCol (padW (srcK (W (Proc.devRef .tc main_arg1))))) := by
  after_results_simp <;> rfl

set_option maxHeartbeats 4000000 in
theorem h0_v23 : (StableHlo.after (hostOps0 (F := Ideal)) W (Proc.devRef .tc main_v23) : S851968x128.Idx → EReal)
    = Host.gather gather_S50000x128_S851968x1_S851968x128_1_0_n_n_0_1_1128 (W (Proc.devRef .tc main_arg0) : S50000x128.Idx → EReal)
        (normCol (padW (dstK (W (Proc.devRef .tc main_arg1))))) := by
  after_results_simp <;> rfl

/-! ## Between the first mask region and the first linear region -/

theorem h1_v30 : (StableHlo.after (hostOps1 (F := Ideal)) W (Proc.devRef .tc main_v30) : S50000x128.Idx → EReal)
    = Host.scatterAdd scatter_S50000x128_S851968x1_S851968x128_1_0_0_1
        (broadcastInDim S50000x128 ![] bcast_S_S50000x128 (constant (F := Ideal) S_ .f32 0x00000000#32))
        (broadcastInDim S851968x1 ![0] bcast_S851968_S851968x1_0 (W (Proc.devRef .tc main_v9) : S851968.Idx → BitVec 32))
        (mulf (W (Proc.devRef .tc main_v16) : S851968x128.Idx → EReal)
          (broadcastInDim S851968x128 ![0, 1] bcast_S851968x1_S851968x128_0_1
            (broadcastInDim S851968x1 ![0] bcast_S851968_S851968x1_0 (W (Proc.devRef .tc main_v24) : S851968.Idx → EReal)))) := by
  after_results

theorem h1_v31 : (StableHlo.after (hostOps1 (F := Ideal)) W (Proc.devRef .tc main_v31) : S1x256.Idx → EReal)
    = shapeCast S1x256 (W (Proc.devRef .tc main_arg3) : S256.Idx → EReal) shapeCasts_S256_S1x256 := by
  after_results; rfl

/-! ## Between the first linear region and the second mask region -/

theorem h2_v39 : (StableHlo.after (hostOps2 (F := Ideal)) W (Proc.devRef .tc main_v39) : S851968x256.Idx → EReal)
    = Host.gather gather_S50000x256_S851968x1_S851968x256_1_0_n_n_0_1_1256 (W (Proc.devRef .tc main_v32) : S50000x256.Idx → EReal)
        (normCol (W (Proc.devRef .tc main_v8))) := by
  after_results; rfl

set_option maxHeartbeats 4000000 in
theorem h2_v46 : (StableHlo.after (hostOps2 (F := Ideal)) W (Proc.devRef .tc main_v46) : S851968x256.Idx → EReal)
    = Host.gather gather_S50000x256_S851968x1_S851968x256_1_0_n_n_0_1_1256 (W (Proc.devRef .tc main_v32) : S50000x256.Idx → EReal)
        (normCol (W (Proc.devRef .tc main_v9))) := by
  after_results_simp <;> rfl

/-! ## Between the second mask region and the second linear region -/

theorem h3_v53 : (StableHlo.after (hostOps3 (F := Ideal)) W (Proc.devRef .tc main_v53) : S50000x256.Idx → EReal)
    = Host.scatterAdd scatter_S50000x256_S851968x1_S851968x256_1_0_0_1
        (broadcastInDim S50000x256 ![] bcast_S_S50000x256 (constant (F := Ideal) S_ .f32 0x00000000#32))
        (broadcastInDim S851968x1 ![0] bcast_S851968_S851968x1_0 (W (Proc.devRef .tc main_v9) : S851968.Idx → BitVec 32))
        (mulf (W (Proc.devRef .tc main_v39) : S851968x256.Idx → EReal)
          (broadcastInDim S851968x256 ![0, 1] bcast_S851968x1_S851968x256_0_1
            (broadcastInDim S851968x1 ![0] bcast_S851968_S851968x1_0 (W (Proc.devRef .tc main_v47) : S851968.Idx → EReal)))) := by
  after_results

theorem h3_v54 : (StableHlo.after (hostOps3 (F := Ideal)) W (Proc.devRef .tc main_v54) : S1x64.Idx → EReal)
    = shapeCast S1x64 (W (Proc.devRef .tc main_arg5) : S64.Idx → EReal) shapeCasts_S64_S1x64 := by
  after_results; rfl

end Cert.KernelIdeal.KHost

end
-- ==== Proof.KernelPass.lean ====
/-
  What a stretch of host operations does not write it leaves alone: the buffers the later regions and stretches read
  (the padded index words, the weights and the biases) hold after each stretch what they held before it.
-/
import proofs.«168896_j5385888989441_2_alg».proof.Proof.KernelIdealLaunchP
import Idealize.ShloMosaic.Lib.StableHlo.Run
import Idealize.ShloMosaic.Lib.Tactic
import Idealize.ShloMosaic.PureOps.Ideal

noncomputable section

namespace Cert.KernelIdeal.KPass

open Cert.KernelIdeal Cert.KernelIdeal.Gen Cert.KernelIdeal.GenP
open Idealize.ShloMosaic Idealize.ShloMosaic.TcCoe Idealize.ShloMosaic.Tactic Idealize.SL.Sem Idealize.ShloMosaic.StableHlo

variable (W : Valuation τ sig (Elt Ideal))

set_option maxHeartbeats 2000000 in
theorem p0_arg2 : StableHlo.after (hostOps0 (F := Ideal)) W (Proc.devRef .tc main_arg2) = W (Proc.devRef .tc main_arg2) := by
  after_results_simp

set_option maxHeartbeats 2000000 in
theorem p0_arg3 : StableHlo.after (hostOps0 (F := Ideal)) W (Proc.devRef .tc main_arg3) = W (Proc.devRef .tc main_arg3) := by
  after_results_simp

set_option maxHeartbeats 2000000 in
theorem p0_arg4 : StableHlo.after (hostOps0 (F := Ideal)) W (Proc.devRef .tc main_arg4) = W (Proc.devRef .tc main_arg4) := by
  after_results_simp

set_option maxHeartbeats 2000000 in
theorem p0_arg5 : StableHlo.after (hostOps0 (F := Ideal)) W (Proc.devRef .tc main_arg5) = W (Proc.devRef .tc main_arg5) := by
  after_results_simp

set_option maxHeartbeats 2000000 in
theorem p1_v8 : StableHlo.after (hostOps1 (F := Ideal)) W (Proc.devRef .tc main_v8) = W (Proc.devRef .tc main_v8) := by
  after_results_simp

set_option maxHeartbeats 2000000 in
theorem p1_v9 : StableHlo.after (hostOps1 (F := Ideal)) W (Proc.devRef .tc main_v9) = W (Proc.devRef .tc main_v9) := by
  after_results_simp

set_option maxHeartbeats 2000000 in
theorem p1_arg2 : StableHlo.after (hostOps1 (F := Ideal)) W (Proc.devRef .tc main_arg2) = W (Proc.devRef .tc main_arg2) := by
  after_results_simp

set_option maxHeartbeats 2000000 in
theorem p1_arg4 : StableHlo.after (hostOps1 (F := Ideal)) W (Proc.devRef .tc main_arg4) = W (Proc.devRef .tc main_arg4) := by
  after_results_simp

set_option maxHeartbeats 2000000 in
theorem p1_arg5 : StableHlo.after (hostOps1 (F := Ideal)) W (Proc.devRef .tc main_arg5) = W (Proc.devRef .tc main_arg5) := by
  after_results_simp

set_option maxHeartbeats 2000000 in
theorem p2_v9 : StableHlo.after (hostOps2 (F := Ideal)) W (Proc.devRef .tc main_v9) = W (Proc.devRef .tc main_v9) := by
  after_results_simp

set_option maxHeartbeats 2000000 in
theorem p2_arg4 : StableHlo.after (hostOps2 (F := Ideal)) W (Proc.devRef .tc main_arg4) = W (Proc.devRef .tc main_arg4) := by
  after_results_simp

set_option maxHeartbeats 2000000 in
theorem p2_arg5 : StableHlo.after (hostOps2 (F := Ideal)) W (Proc.devRef .tc main_arg5) = W (Proc.devRef .tc main_arg5) := by
  after_results_simp

set_option maxHeartbeats 2000000 in
theorem p3_arg4 : StableHlo.after (hostOps3 (F := Ideal)) W (Proc.devRef .tc main_arg4) = W (Proc.devRef .tc main_arg4) := by
  after_results_simp

end Cert.KernelIdeal.KPass

end
-- ==== Proof.Spec.lean ====
/-
  The function both programs compute, stated once over the extended reals.

  A graph of 50000 nodes carries a feature matrix X. An edge list of E entries is two vectors of 32-bit words,
  the sources and the targets. One layer: gather the rows of X at the (wrapped, clamped) source and target of each
  edge; an edge is kept when the cosine similarity of its two rows exceeds one half; every node sums the source
  rows of the kept edges that point at it; an affine map follows. Two layers, a maximum with zero between them, a
  row-wise log-softmax at the end.

  The tiled program works on an edge list padded to 851968 entries whose pad entries are never kept; the padded
  and the unpadded sums agree because a dropped edge adds zero (`agg_pad`).
-/
import Idealize.ShloMosaic.PureOps.Ideal
import Idealize.ShloMosaic.Lib.ValueIdx

noncomputable section

namespace Cert.Graph

open Idealize.ShloMosaic Idealize.ShloMosaic.ValueIdx

/-- A matrix, a vector, and a vector of 32-bit words, over literal extents. -/
abbrev Mat (a b : ℕ) := (⟨2, ![a, b]⟩ : Shape).Idx → EReal
abbrev Vect (a : ℕ) := (⟨1, ![a]⟩ : Shape).Idx → EReal
abbrev Words (a : ℕ) := (⟨1, ![a]⟩ : Shape).Idx → BitVec 32

/-- A one-bit word as a number: 1 for the set bit, 0 otherwise. -/
def bitVal (b : BitVec 1) : EReal := if b = 1#1 then 1 else 0

/-- The cosine similarity of two rows: their inner product over the product of their norms, the denominator kept
    above the word 0x322BCC77 (the float nearest 1e-8). -/
def cosSim {D : ℕ} (xi xj : Fin D → EReal) : EReal :=
  Ideal.div (∑ k, xi k * xj k)
    (max (Ideal.sqrt (∑ k, xi k * xi k) * Ideal.sqrt (∑ k, xj k * xj k)) (Ideal.ofBits .f32 0x322BCC77#32))

/-- An edge is kept when the similarity of its rows is greater than one half (the word 0x3F000000). -/
def keep {D : ℕ} (xi xj : Fin D → EReal) : BitVec 1 :=
  Ideal.cmp .ogt (cosSim xi xj) (Ideal.ofBits .f32 0x3F000000#32)

/-- The mask of an edge list: per edge, 1 if kept and 0 if not, from the gathered target rows `Xi` and source rows `Xj`. -/
def maskOf {E D : ℕ} (Xi Xj : Mat E D) : Vect E :=
  fun j => bitVal (keep (fun k => Xi (ix2 (j 0) k)) (fun k => Xj (ix2 (j 0) k)))

/-- The mask of the padded edge list: the same, and 0 at every position from 850000 on. -/
def maskPad {E D : ℕ} (Xi Xj : Mat E D) : Vect E :=
  fun j => if (j 0).val < 850000 then maskOf Xi Xj j else 0

/-- A negative node index wraps once by the number of nodes. -/
def wrap (w : BitVec 32) : BitVec 32 := Scalar.select (IntOp.cmpi .slt w 0#32) (IntOp.addi w 50000#32) w

/-- The row a gather reads for the index word `w` (already wrapped): read signed, clamped into the matrix. -/
def rowAt (w : BitVec 32) : Fin 50000 := ⟨min w.toInt.toNat 49999, by omega⟩

/-- The rows of `X` at the wrapped, clamped entries of an index vector. -/
def gatherRows {D E : ℕ} (X : Mat 50000 D) (idx : Words E) : Mat E D :=
  fun j => X (ix2 (rowAt (wrap (idx (ix1 (j 0))))) (j 1))

/-- Every node's sum, over the edges whose target word read signed is that node, of the source row scaled by the mask. -/
def agg {E D : ℕ} (dst : Words E) (Xj : Mat E D) (mask : Vect E) : Mat 50000 D :=
  fun j => ∑ e : Fin E, if (dst (ix1 e)).toInt = ((j 0).val : ℤ) then Xj (ix2 e (j 1)) * mask (ix1 e) else 0

/-- One message-passing step over an edge list. -/
def conv {E D : ℕ} (X : Mat 50000 D) (src dst : Words E) : Mat 50000 D :=
  agg dst (gatherRows X src) (maskOf (gatherRows X dst) (gatherRows X src))

/-- The same step over a padded edge list, the pad entries masked out. -/
def convPad {E D : ℕ} (X : Mat 50000 D) (src dst : Words E) : Mat 50000 D :=
  agg dst (gatherRows X src) (maskPad (gatherRows X dst) (gatherRows X src))

/-- `A · Wᵀ + b`. -/
def affine {N K O : ℕ} (A : Mat N K) (W : Mat O K) (b : Fin O → EReal) : Mat N O :=
  fun j => (∑ k : Fin K, A (ix2 (j 0) k) * W (ix2 (j 1) k)) + b (j 1)

/-- `max (A · Wᵀ + b) 0`, the zero being the word 0x00000000. -/
def linRelu {N K O : ℕ} (A : Mat N K) (W : Mat O K) (b : Fin O → EReal) : Mat N O :=
  fun j => max (affine A W b j) (Ideal.ofBits .f32 0x00000000#32)

/-- The maximum of a row, folded from the word 0xFF800000 (minus infinity). -/
def rowMax {N O : ℕ} (Y : Mat N O) (p : Fin N) : EReal :=
  (Finset.univ : Finset (Fin O)).fold max (Ideal.ofBits .f32 0xFF800000#32) (fun o => Y (ix2 p o))

/-- Row-wise log-softmax: the row shifted by its maximum, less the logarithm of the sum of the exponentials of the shifted row. -/
def logSoftmax {N O : ℕ} (Y : Mat N O) : Mat N O :=
  fun j => (Y j - rowMax Y (j 0)) - Ideal.log (∑ o : Fin O, Ideal.exp (Y (ix2 (j 0) o) - rowMax Y (j 0)))

/-- The whole network over an edge list `src`, `dst`. -/
def net {E : ℕ} (x : Mat 50000 128) (src dst : Words E) (W1 : Mat 256 128) (b1 : Fin 256 → EReal)
    (W2 : Mat 64 256) (b2 : Fin 64 → EReal) : Mat 50000 64 :=
  logSoftmax (affine (conv (linRelu (conv x src dst) W1 b1) src dst) W2 b2)

/-- The network as the tiled program runs it: over a padded edge list, pad entries masked out. -/
def netPad {E : ℕ} (x : Mat 50000 128) (src dst : Words E) (W1 : Mat 256 128) (b1 : Fin 256 → EReal)
    (W2 : Mat 64 256) (b2 : Fin 64 → EReal) : Mat 50000 64 :=
  logSoftmax (affine (convPad (linRelu (convPad x src dst) W1 b1) src dst) W2 b2)

end Cert.Graph

end
-- ==== Proof.LibRowReduce.lean ====
/-
  Reductions along the rows of a matrix, read at one row.

  For an [n, d] matrix reduced over its second axis into an [n] vector, the entry at row p is the reduction of the
  entries (p, 0), …, (p, d-1): a sum for an add-reduction, the fold of `max` from the start value for a
  maximum-reduction.  Stated for the kernel's vector reductions and for the host's one-operand reduce, at the
  extended reals, for any extents and float format.
-/
import Idealize.ShloMosaic.PureOps.Ideal.Laws
import Idealize.ShloMosaic.Lib.ValueIdx

noncomputable section
namespace Cert.LibRowReduce
open Idealize.ShloMosaic Idealize.ShloMosaic.ValueIdx

variable {φ : FTy}

/-- Row p with the coordinate o put back on the reduced axis is the entry (p, o). -/
theorem lift_row {n d : ℕ} (h : (⟨2, ![n, d]⟩ : Shape).Reduces [1] ⟨1, ![n]⟩) (p : Fin n) (o : Fin d) :
    h.lift (ix1 p) o = ix2 p o :=
  funext fun a => Fin.ext (by
    match a with
    | ⟨0, _⟩ => rfl
    | ⟨1, _⟩ => rfl)

/-- A vector add-reduction along the rows: the row's sum. -/
theorem multiReduction_add_row {n d : ℕ} (src : FVec Ideal ⟨2, ![n, d]⟩ φ) (acc : BitVec φ.bits)
    (h : (⟨2, ![n, d]⟩ : Shape).Reduces [1] ⟨1, ![n]⟩) (hφ : FKind.Formats φ) (hacc : acc = FKind.add.neutral φ hφ) (p : Fin n) :
    multiReduction .add [1] ⟨1, ![n]⟩ src acc h hφ hacc (ix1 p) = ∑ o : Fin d, src (ix2 p o) :=
  (Ideal.multiReduction_add_single src acc h hφ hacc (ix1 p)).trans
    (Finset.sum_congr rfl fun o _ => congrArg src (lift_row h p o))

/-- A vector maximum-reduction along the rows: the fold of `max` over the row from the accumulator's value. -/
theorem multiReduction_max_row {n d : ℕ} (src : FVec Ideal ⟨2, ![n, d]⟩ φ) (acc : BitVec φ.bits)
    (h : (⟨2, ![n, d]⟩ : Shape).Reduces [1] ⟨1, ![n]⟩) (hφ : FKind.Formats φ) (hacc : acc = FKind.maximumf.neutral φ hφ) (p : Fin n) :
    multiReduction .maximumf [1] ⟨1, ![n]⟩ src acc h hφ hacc (ix1 p)
      = (Finset.univ : Finset (Fin d)).fold max (Ideal.ofBits φ acc) (fun o => src (ix2 p o)) :=
  (Ideal.multiReduction_maximumf_single src acc h hφ hacc (ix1 p)).trans
    (congrArg (Finset.fold max (Ideal.ofBits φ acc) · Finset.univ) (funext fun o => congrArg src (lift_row h p o)))

/-- The host's add-reduce along the rows: the start value plus the row's sum. -/
theorem hostReduceAdd_row {n d : ℕ} {u : Shape} (x : FVec Ideal ⟨2, ![n, d]⟩ φ) (init : u.Idx → Ideal φ)
    (h' : (⟨2, ![n, d]⟩ : Shape).ReducesTo [1] ⟨1, ![n]⟩) (h : (⟨2, ![n, d]⟩ : Shape).Reduces [1] ⟨1, ![n]⟩) (hu : 0 < u.numel) (p : Fin n) :
    Host.reduceAdd x init h' hu (ix1 p) = init (Shape.Idx.first hu) + ∑ o : Fin d, x (ix2 p o) :=
  (Ideal.hostReduceAdd_single h' h x (init (Shape.Idx.first hu)) (ix1 p)).trans
    (congrArg (init (Shape.Idx.first hu) + ·) (Finset.sum_congr rfl fun o _ => congrArg x (lift_row h p o)))

/-- The host's maximum-reduce along the rows: the fold of `max` over the row from the start value. -/
theorem hostReduce_max_row {n d : ℕ} {u : Shape} (x : FVec Ideal ⟨2, ![n, d]⟩ φ) (init : u.Idx → Ideal φ)
    (h' : (⟨2, ![n, d]⟩ : Shape).ReducesTo [1] ⟨1, ![n]⟩) (h : (⟨2, ![n, d]⟩ : Shape).Reduces [1] ⟨1, ![n]⟩) (hu : 0 < u.numel) (p : Fin n) :
    Host.reduce (FloatOps.maximumf (F := Ideal) (φ := φ)) x init h' hu (ix1 p)
      = (Finset.univ : Finset (Fin d)).fold max (init (Shape.Idx.first hu)) (fun o => x (ix2 p o)) :=
  (Host.reduce_eq_fold_single (FloatOps.maximumf (F := Ideal) (φ := φ)) x init h' h hu (ix1 p)).trans
    (congrArg (Finset.fold max (init (Shape.Idx.first hu)) · Finset.univ) (funext fun o => congrArg x (lift_row h p o)))

end Cert.LibRowReduce
end
-- ==== Proof.EdgeMaskPay.lean ====
/-
  The edge-mask block at a lane.

  One block of the edge mask holds 4096 lanes. Lane r of block t is the edge t * 4096 + r. Its value is 1 when the
  edge is below 850000 and the cosine similarity of its two rows exceeds one half, and 0 otherwise. The similarity is
  the rows' inner product over the product of their norms, the denominator kept above a small positive word. The lane
  number is computed in 32-bit words; with t < 208 and r < 4096 it does not wrap.
-/
import proofs.«168896_j5385888989441_2_alg».proof.Proof.Gen.KernelIdeal.Skeleton
import proofs.«168896_j5385888989441_2_alg».proof.Proof.Spec
import proofs.«168896_j5385888989441_2_alg».proof.Proof.LibRowReduce
import Idealize.ShloMosaic.Lib.Pipeline.Value

noncomputable section
namespace Cert.KernelIdeal.EdgeMask
open Idealize.ShloMosaic Idealize.ShloMosaic.ValueIdx Cert.KernelIdeal Cert.KernelIdeal.Gen Cert.Graph

/-- Lane t * 4096 + r, computed in 32-bit words and compared signed, is below 850000 exactly when the natural number is. -/
theorem lane_lt (t r : ℕ) (ht : t < 208) (hr : r < 4096) :
    IntOp.cmpi .slt (IntOp.addi (Scalar.muli (BitVec.ofNat 32 t) 4096#32) (BitVec.ofNat 32 r)) 850000#32
      = if t * 4096 + r < 850000 then 1#1 else 0#1 := by
  have e : IntOp.addi (Scalar.muli (BitVec.ofNat 32 t) 4096#32) (BitVec.ofNat 32 r) = BitVec.ofNat 32 (t * 4096 + r) := by
    show BitVec.ofNat 32 t * 4096#32 + BitVec.ofNat 32 r = _
    apply BitVec.eq_of_toNat_eq
    simp only [BitVec.toNat_add, BitVec.toNat_mul, BitVec.toNat_ofNat]
    omega
  rw [e]
  show BitVec.ofBool ((BitVec.ofNat 32 (t * 4096 + r)).slt 850000#32) = _
  have h2 : (BitVec.ofNat 32 (t * 4096 + r)).toInt = ((t * 4096 + r : ℕ) : ℤ) := by
    rw [BitVec.toInt_eq_toNat_cond, BitVec.toNat_ofNat]
    have : (t * 4096 + r) % 2 ^ 32 = t * 4096 + r := Nat.mod_eq_of_lt (by omega)
    rw [this, if_pos (by omega)]
  have h3 : (850000#32 : BitVec 32).toInt = 850000 := by decide
  rw [BitVec.slt, h2, h3]
  by_cases h : t * 4096 + r < 850000
  · rw [if_pos h, decide_eq_true (by omega)]; rfl
  · rw [if_neg h, decide_eq_false (by omega)]; rfl

/-- The lane counter of a [1, 4096] block viewed as a [4096] vector reads the lane. -/
theorem iota_lane (h : S1x4096.Iotas .tc 32 [1]) (h' : S1x4096.ShapeCasts S4096) (r : Fin 4096) :
    shapeCast S4096 (iota .tc S1x4096 32 [1] h) h' (ix1 r) = BitVec.ofNat 32 r.val := by
  refine (shapeCast_dropUnit_apply ![4096] _ h' (ix1 r)).trans ?_
  refine (iota_single_apply .tc S1x4096 32 1 h _).trans ?_
  rfl

/-- The block's validity bit at lane r of block t: set exactly when t * 4096 + r < 850000. -/
theorem valid_lane (t : Fin 208) (h : S1x4096.Iotas .tc 32 [1]) (h' : S1x4096.ShapeCasts S4096) (r : Fin 4096) :
    cmpi CmpIPredicate.slt
        (addi (broadcast S4096 (Scalar.muli (BitVec.ofNat 32 t.val) 4096#32)) (shapeCast S4096 (iota .tc S1x4096 32 [1] h) h'))
        (broadcast S4096 850000#32) (ix1 r)
      = if t.val * 4096 + r.val < 850000 then 1#1 else 0#1 := by
  have hl := lane_lt t.val r.val t.isLt r.isLt
  rw [← iota_lane h h' r] at hl
  exact hl

/-- The cosine similarity of row p, as the block's vector operations compute it: three row sums, two square roots,
    a product, a maximum with the small word, a quotient. -/
theorem cos_row {n d : ℕ} (x0 x1 : FVec Ideal ⟨2, ![n, d]⟩ .f32) (h : (⟨2, ![n, d]⟩ : Shape).Reduces [1] ⟨1, ![n]⟩)
    (hφ : FKind.Formats .f32) (hacc : (0x00000000#32 : BitVec 32) = FKind.add.neutral .f32 hφ) (p : Fin n) :
    divf (multiReduction .add [1] ⟨1, ![n]⟩ (mulf x0 x1) 0x00000000#32 h hφ hacc)
        (maximumf (mulf (sqrt (multiReduction .add [1] ⟨1, ![n]⟩ (mulf x0 x0) 0x00000000#32 h hφ hacc))
                        (sqrt (multiReduction .add [1] ⟨1, ![n]⟩ (mulf x1 x1) 0x00000000#32 h hφ hacc)))
                  (broadcast ⟨1, ![n]⟩ (FloatOps.ofBits .f32 0x322BCC77#32))) (ix1 p)
      = cosSim (fun k => x0 (ix2 p k)) (fun k => x1 (ix2 p k)) := by
  show Ideal.div (multiReduction .add [1] ⟨1, ![n]⟩ (mulf x0 x1) 0x00000000#32 h hφ hacc (ix1 p))
      (max (Ideal.sqrt (multiReduction .add [1] ⟨1, ![n]⟩ (mulf x0 x0) 0x00000000#32 h hφ hacc (ix1 p))
            * Ideal.sqrt (multiReduction .add [1] ⟨1, ![n]⟩ (mulf x1 x1) 0x00000000#32 h hφ hacc (ix1 p)))
        (Ideal.ofBits .f32 0x322BCC77#32)) = _
  rw [Cert.LibRowReduce.multiReduction_add_row, Cert.LibRowReduce.multiReduction_add_row, Cert.LibRowReduce.multiReduction_add_row]
  rfl

/-- A conjunction of two one-bit words, widened to 32 bits and read as a signed number: the first bit's value when
    the second is set, zero otherwise. -/
theorem bits_val (a b : BitVec 1) :
    (((BitVec.setWidth 32 (IntOp.andi a b)).toInt : ℝ) : EReal) = if b = 1#1 then bitVal a else 0 := by
  rcases BitVec.eq_zero_or_eq_one a with h | h <;> rcases BitVec.eq_zero_or_eq_one b with h' | h' <;> subst h <;> subst h' <;>
    simp [bitVal, IntOp.andi]

/-- Lane r of the first layer's mask block at grid position i, from the block's 4096 target rows x0 and source rows x1
    of width 128. -/
theorem pay0_apply (i : grid0.Coords) (x0 x1 : Vec Ideal S4096x128 .f32) (r : Fin 4096) :
    k0_pay1 (F := Ideal) i x0 x1 (ix1 r)
      = if (i 0).val * 4096 + r.val < 850000 then bitVal (keep (fun k => x0 (ix2 r k)) (fun k => x1 (ix2 r k))) else 0 := by
  unfold k0_pay1
  simp only [shapeCast_self]
  refine (bits_val _ _).trans ?_
  rw [valid_lane (i 0) iota_S1x4096_d1_w32 shapeCasts_S1x4096_S4096 r]
  by_cases h : (i 0).val * 4096 + r.val < 850000
  · rw [if_pos h, if_pos h, if_pos rfl]
    congr 1
    show Ideal.cmp .ogt _ _ = Ideal.cmp .ogt _ _
    congr 1
    exact cos_row x0 x1 _ _ _ r
  · rw [if_neg h, if_neg h, if_neg (by decide)]

/-- Lane r of the second layer's mask block at grid position i, from the block's 4096 target rows x0 and source rows x1
    of width 256. -/
theorem pay2_apply (i : grid2.Coords) (x0 x1 : Vec Ideal S4096x256 .f32) (r : Fin 4096) :
    k2_pay1 (F := Ideal) i x0 x1 (ix1 r)
      = if (i 0).val * 4096 + r.val < 850000 then bitVal (keep (fun k => x0 (ix2 r k)) (fun k => x1 (ix2 r k))) else 0 := by
  unfold k2_pay1
  simp only [shapeCast_self]
  refine (bits_val _ _).trans ?_
  rw [valid_lane (i 0) iota_S1x4096_d1_w32 shapeCasts_S1x4096_S4096 r]
  by_cases h : (i 0).val * 4096 + r.val < 850000
  · rw [if_pos h, if_pos h, if_pos rfl]
    congr 1
    show Ideal.cmp .ogt _ _ = Ideal.cmp .ogt _ _
    congr 1
    exact cos_row x0 x1 _ _ _ r
  · rw [if_neg h, if_neg h, if_neg (by decide)]

end Cert.KernelIdeal.EdgeMask
end
-- ==== Proof.EdgeMask.lean ====
/-
  The edge mask, from blocks to the whole array.

  Each of the two edge-mask regions runs over a grid of 208 points. Point t reads rows t * 4096 … t * 4096 + 4095 of
  the gathered target matrix and of the gathered source matrix, and writes lanes t * 4096 … t * 4096 + 4095 of the mask.
  Lane r of that block is the padded mask at edge t * 4096 + r: 1 when the edge is below 850000 and the cosine
  similarity of its two rows exceeds one half, 0 otherwise. The 208 blocks of 4096 lanes fill the 851968 lanes, the lane
  e lying in block e / 4096, so after the region the mask array is the padded mask of the two gathered matrices.
  The first region works on rows of width 128, the second on rows of width 256.
-/
import proofs.«168896_j5385888989441_2_alg».proof.Proof.KernelIdealFrameP
import proofs.«168896_j5385888989441_2_alg».proof.Proof.Spec
import proofs.«168896_j5385888989441_2_alg».proof.Proof.EdgeMaskPay
import Idealize.ShloMosaic.Lib.Pipeline.Value

set_option maxRecDepth 16384

noncomputable section
namespace Cert.KernelIdeal.EdgeMask
open Cert.KernelIdeal Cert.KernelIdeal.Gen Cert.KernelIdeal.GenP
open Idealize.ShloMosaic Idealize.ShloMosaic.TcCoe Idealize.SL.Sem Idealize.ShloMosaic.ValueIdx Cert.Graph
open Idealize.ShloMosaic.Pipeline (Dat)

variable (V : (c : Dev nD) → (b : Ref sig .tc) → Buf (Elt Ideal) ((c : Thread nD τ).loc b))

/-- The zero offsets of a whole-block access, of rank two and of rank one. -/
theorem hz2 : (![0, 0] : Fin 2 → Nat) = fun _ => 0 := funext fun a => by fin_cases a <;> rfl
theorem hz1 : (![0] : Fin 1 → Nat) = fun _ => 0 := funext fun a => by fin_cases a; rfl

/-! ## The first layer's mask: rows of width 128 -/

/-- The block index of each window at grid point t, and the point's coordinate: all three windows sit at block t. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 1) = t.val ∧ (grid0.coords t 0).val = t.val :=
  (by decide +kernel : ∀ t : Fin grid0.N, _)

/-- Row r of the target block at point t is row t * 4096 + r of the gathered target matrix. -/
theorem iblk0_0_apply (c : Dev nD) (t : Fin cfg0.N) (r : Fin 4096) (k : Fin 128) (e : Fin 851968) (he : e.val = t.val * 4096 + r.val) :
    (iblk0 V c 0 t : Vec Ideal S4096x128 .f32) (ix2 r k) = (V c main_v23 : S851968x128.Idx → EReal) (ix2 e k) := by
  obtain ⟨e00, e01, e10, e11, e2, ec⟩ := idx_facts0 t
  unfold iblk0
  rw [View.read_apply]
  show V c main_v23 _ = V c main_v23 _
  congr 1
  funext a
  apply Fin.ext
  match a with
  | ⟨0, _⟩ => show win0_0.index t 0 * 4096 + 1 * r.val = e.val; rw [e00, he]; omega
  | ⟨1, _⟩ => show win0_0.index t 1 * 128 + 1 * k.val = k.val; rw [e01]; omega

/-- Row r of the source block at point t is row t * 4096 + r of the gathered source matrix. -/
theorem iblk0_1_apply (c : Dev nD) (t : Fin cfg0.N) (r : Fin 4096) (k : Fin 128) (e : Fin 851968) (he : e.val = t.val * 4096 + r.val) :
    (iblk0 V c 1 t : Vec Ideal S4096x128 .f32) (ix2 r k) = (V c main_v16 : S851968x128.Idx → EReal) (ix2 e k) := by
  obtain ⟨e00, e01, e10, e11, e2, ec⟩ := idx_facts0 t
  unfold iblk0
  rw [View.read_apply]
  show V c main_v16 _ = V c main_v16 _
  congr 1
  funext a
  apply Fin.ext
  match a with
  | ⟨0, _⟩ => show win0_1.index t 0 * 4096 + 1 * r.val = e.val; rw [e10, he]; omega
  | ⟨1, _⟩ => show win0_1.index t 1 * 128 + 1 * k.val = k.val; rw [e11]; omega

/-- What point t writes back is block t of the padded mask of the two gathered matrices. -/
theorem flushed0_eq (c : Dev nD) (t : Fin cfg0.N) :
    (dat0 (F := Ideal) V c).flushed 2 t = ((cfg0.win 2).blk t).view.read (Elt Ideal)
      (maskPad (V c main_v23 : S851968x128.Idx → EReal) (V c main_v16 : S851968x128.Idx → EReal)) := by
  show (cfg0.win 2).cut (grid0.coords t) ((dat0 V c).after 2 t) = _
  rw [after0_2]
  unfold out0_2
  rw [View.canon_unit_zero hz1]
  simp only [View.ld_unit_zero (S := S4096x128) hz2]
  obtain ⟨e00, e01, e10, e11, e2, ec⟩ := idx_facts0 t
  funext j
  have hr : (j 0).val < 4096 := (j 0).isLt
  let r : Fin 4096 := ⟨(j 0).val, hr⟩
  have hj : (win0 2).xinj (grid0.coords t) j = ix1 r := funext fun a => Fin.ext (by
    match a with
    | ⟨0, _⟩ => rfl)
  show k0_pay1 (grid0.coords t) (iblk0 V c 0 t) (iblk0 V c 1 t) ((win0 2).xinj (grid0.coords t) j) = _
  rw [hj]
  refine (pay0_apply (grid0.coords t) (iblk0 V c 0 t) (iblk0 V c 1 t) r).trans ?_
  rw [View.read_apply]
  generalize hE : ((View.whole main_v24).slice ((win0 2).rect t)).emb j = E
  have hE0 : (E 0).val = t.val * 4096 + r.val := by
    rw [← hE]
    show win0_2.index t 0 * 4096 + 1 * (j 0).val = _
    rw [e2]; show _ = t.val * 4096 + (j 0).val; omega
  have hlt : (E 0).val < 851968 := (E 0).isLt
  let e : Fin 851968 := ⟨(E 0).val, hlt⟩
  have h0 : (fun k => (iblk0 V c 0 t : Vec Ideal S4096x128 .f32) (ix2 r k)) = fun k => (V c main_v23 : S851968x128.Idx → EReal) (ix2 e k) :=
    funext fun k => iblk0_0_apply V c t r k e hE0
  have h1 : (fun k => (iblk0 V c 1 t : Vec Ideal S4096x128 .f32) (ix2 r k)) = fun k => (V c main_v16 : S851968x128.Idx → EReal) (ix2 e k) :=
    funext fun k => iblk0_1_apply V c t r k e hE0
  rw [h0, h1]
  show _ = if (E 0).val < 850000 then bitVal (keep (fun k => (V c main_v23 : S851968x128.Idx → EReal) (ix2 e k)) (fun k => (V c main_v16 : S851968x128.Idx → EReal) (ix2 e k))) else 0
  rw [ec, hE0]

/-- An index of the mask is in point t's block iff it lies in the block's range. -/
theorem mem_blk0 (t : Fin cfg0.N) (i : S851968.Idx) :
    i ∈ ((cfg0.win 2).blk t).view.set ↔ ∀ a : Fin 1, win0_2.index t a * S4096.size a ≤ (i a).val ∧ (i a).val < win0_2.index t a * S4096.size a + S4096.size a := by
  show i ∈ ((View.whole main_v24).slice (win0_2.rect t)).set ↔ _
  rw [View.set_slice_whole, Rect.mem_set_unit]
  exact Iff.rfl

/-- Every lane e of the mask is in the block of point e / 4096: 208 blocks of 4096 lanes fill the 851968 lanes. -/
theorem cover0 (i : S851968.Idx) : ∃ t : Fin cfg0.N, (cfg0.win 2).flush t = true ∧ i ∈ ((cfg0.win 2).blk t).view.set := by
  have hi : (i 0).val < 851968 := (i 0).isLt
  have hN : cfg0.N = 208 := N_0
  let t : Fin cfg0.N := ⟨(i 0).val / 4096, by rw [hN]; omega⟩
  obtain ⟨e00, e01, e10, e11, e2, ec⟩ := idx_facts0 t
  refine ⟨t, flush0_2 t, ?_⟩
  rw [mem_blk0]
  intro a
  match a with
  | ⟨0, _⟩ =>
    show win0_2.index t 0 * 4096 ≤ (i 0).val ∧ (i 0).val < win0_2.index t 0 * 4096 + 4096
    rw [e2]
    show (i 0).val / 4096 * 4096 ≤ (i 0).val ∧ (i 0).val < (i 0).val / 4096 * 4096 + 4096
    omega

/-- After the first edge-mask region the mask array is the padded mask of the gathered target and source rows. -/
theorem final0 (c : Dev nD) :
    ((dat0 (F := Ideal) V c).arrAt 2 cfg0.N : S851968.Idx → EReal)
      = maskPad (V c main_v23 : S851968x128.Idx → EReal) (V c main_v16 : S851968x128.Idx → EReal) :=
  (dat0 (F := Ideal) V c).arrAt_eq_of_cover 2 _ (fun t _ => flushed0_eq V c t) cover0

/-! ## The second layer's mask: rows of width 256 -/

/-- The block index of each window at grid point t, and the point's coordinate: all three windows sit at block t. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 1) = t.val ∧ (grid2.coords t 0).val = t.val :=
  (by decide +kernel : ∀ t : Fin grid2.N, _)

/-- Row r of the target block at point t is row t * 4096 + r of the gathered target matrix. -/
theorem iblk2_0_apply (c : Dev nD) (t : Fin cfg2.N) (r : Fin 4096) (k : Fin 256) (e : Fin 851968) (he : e.val = t.val * 4096 + r.val) :
    (iblk2 V c 0 t : Vec Ideal S4096x256 .f32) (ix2 r k) = (V c main_v46 : S851968x256.Idx → EReal) (ix2 e k) := by
  obtain ⟨e00, e01, e10, e11, e2, ec⟩ := idx_facts2 t
  unfold iblk2
  rw [View.read_apply]
  show V c main_v46 _ = V c main_v46 _
  congr 1
  funext a
  apply Fin.ext
  match a with
  | ⟨0, _⟩ => show win2_0.index t 0 * 4096 + 1 * r.val = e.val; rw [e00, he]; omega
  | ⟨1, _⟩ => show win2_0.index t 1 * 256 + 1 * k.val = k.val; rw [e01]; omega

/-- Row r of the source block at point t is row t * 4096 + r of the gathered source matrix. -/
theorem iblk2_1_apply (c : Dev nD) (t : Fin cfg2.N) (r : Fin 4096) (k : Fin 256) (e : Fin 851968) (he : e.val = t.val * 4096 + r.val) :
    (iblk2 V c 1 t : Vec Ideal S4096x256 .f32) (ix2 r k) = (V c main_v39 : S851968x256.Idx → EReal) (ix2 e k) := by
  obtain ⟨e00, e01, e10, e11, e2, ec⟩ := idx_facts2 t
  unfold iblk2
  rw [View.read_apply]
  show V c main_v39 _ = V c main_v39 _
  congr 1
  funext a
  apply Fin.ext
  match a with
  | ⟨0, _⟩ => show win2_1.index t 0 * 4096 + 1 * r.val = e.val; rw [e10, he]; omega
  | ⟨1, _⟩ => show win2_1.index t 1 * 256 + 1 * k.val = k.val; rw [e11]; omega

/-- What point t writes back is block t of the padded mask of the two gathered matrices. -/
theorem flushed2_eq (c : Dev nD) (t : Fin cfg2.N) :
    (dat2 (F := Ideal) V c).flushed 2 t = ((cfg2.win 2).blk t).view.read (Elt Ideal)
      (maskPad (V c main_v46 : S851968x256.Idx → EReal) (V c main_v39 : S851968x256.Idx → EReal)) := by
  show (cfg2.win 2).cut (grid2.coords t) ((dat2 V c).after 2 t) = _
  rw [after2_2]
  unfold out2_2
  rw [View.canon_unit_zero hz1]
  simp only [View.ld_unit_zero (S := S4096x256) hz2]
  obtain ⟨e00, e01, e10, e11, e2, ec⟩ := idx_facts2 t
  funext j
  have hr : (j 0).val < 4096 := (j 0).isLt
  let r : Fin 4096 := ⟨(j 0).val, hr⟩
  have hj : (win2 2).xinj (grid2.coords t) j = ix1 r := funext fun a => Fin.ext (by
    match a with
    | ⟨0, _⟩ => rfl)
  show k2_pay1 (grid2.coords t) (iblk2 V c 0 t) (iblk2 V c 1 t) ((win2 2).xinj (grid2.coords t) j) = _
  rw [hj]
  refine (pay2_apply (grid2.coords t) (iblk2 V c 0 t) (iblk2 V c 1 t) r).trans ?_
  rw [View.read_apply]
  generalize hE : ((View.whole main_v47).slice ((win2 2).rect t)).emb j = E
  have hE0 : (E 0).val = t.val * 4096 + r.val := by
    rw [← hE]
    show win2_2.index t 0 * 4096 + 1 * (j 0).val = _
    rw [e2]; show _ = t.val * 4096 + (j 0).val; omega
  have hlt : (E 0).val < 851968 := (E 0).isLt
  let e : Fin 851968 := ⟨(E 0).val, hlt⟩
  have h0 : (fun k => (iblk2 V c 0 t : Vec Ideal S4096x256 .f32) (ix2 r k)) = fun k => (V c main_v46 : S851968x256.Idx → EReal) (ix2 e k) :=
    funext fun k => iblk2_0_apply V c t r k e hE0
  have h1 : (fun k => (iblk2 V c 1 t : Vec Ideal S4096x256 .f32) (ix2 r k)) = fun k => (V c main_v39 : S851968x256.Idx → EReal) (ix2 e k) :=
    funext fun k => iblk2_1_apply V c t r k e hE0
  rw [h0, h1]
  show _ = if (E 0).val < 850000 then bitVal (keep (fun k => (V c main_v46 : S851968x256.Idx → EReal) (ix2 e k)) (fun k => (V c main_v39 : S851968x256.Idx → EReal) (ix2 e k))) else 0
  rw [ec, hE0]

/-- An index of the mask is in point t's block iff it lies in the block's range. -/
theorem mem_blk2 (t : Fin cfg2.N) (i : S851968.Idx) :
    i ∈ ((cfg2.win 2).blk t).view.set ↔ ∀ a : Fin 1, win2_2.index t a * S4096.size a ≤ (i a).val ∧ (i a).val < win2_2.index t a * S4096.size a + S4096.size a := by
  show i ∈ ((View.whole main_v47).slice (win2_2.rect t)).set ↔ _
  rw [View.set_slice_whole, Rect.mem_set_unit]
  exact Iff.rfl

/-- Every lane e of the mask is in the block of point e / 4096: 208 blocks of 4096 lanes fill the 851968 lanes. -/
theorem cover2 (i : S851968.Idx) : ∃ t : Fin cfg2.N, (cfg2.win 2).flush t = true ∧ i ∈ ((cfg2.win 2).blk t).view.set := by
  have hi : (i 0).val < 851968 := (i 0).isLt
  have hN : cfg2.N = 208 := N_2
  let t : Fin cfg2.N := ⟨(i 0).val / 4096, by rw [hN]; omega⟩
  obtain ⟨e00, e01, e10, e11, e2, ec⟩ := idx_facts2 t
  refine ⟨t, flush2_2 t, ?_⟩
  rw [mem_blk2]
  intro a
  match a with
  | ⟨0, _⟩ =>
    show win2_2.index t 0 * 4096 ≤ (i 0).val ∧ (i 0).val < win2_2.index t 0 * 4096 + 4096
    rw [e2]
    show (i 0).val / 4096 * 4096 ≤ (i 0).val ∧ (i 0).val < (i 0).val / 4096 * 4096 + 4096
    omega

/-- After the second edge-mask region the mask array is the padded mask of the gathered target and source rows. -/
theorem final2 (c : Dev nD) :
    ((dat2 (F := Ideal) V c).arrAt 2 cfg2.N : S851968.Idx → EReal)
      = maskPad (V c main_v46 : S851968x256.Idx → EReal) (V c main_v39 : S851968x256.Idx → EReal) :=
  (dat2 (F := Ideal) V c).arrAt_eq_of_cover 2 _ (fun t _ => flushed2_eq V c t) cover2

end Cert.KernelIdeal.EdgeMask
end
-- ==== Proof.LibPlainDot.lean ====
/-
  A plain matrix product, read at one entry.

  A contraction with the dimension numbers of "rows of an [n, k] matrix against columns of a [k, d] matrix" (contract
  axis 1 of the left with axis 0 of the right, no batch axis) sums, at entry (p, o), the products of row p of the left
  operand with column o of the right: the sum over j of lhs(p, j) · rhs(j, o).  This holds for any record of those
  dimension numbers, whatever its extents and formats, and gives the same reading of a matrix unit's product into the
  zero accumulator and of the host's dot_general, on the extended reals.
-/
import Idealize.ShloMosaic.PureOps.Ideal.Laws
import Idealize.ShloMosaic.Lib.ValueIdx

noncomputable section

namespace Cert.LibPlainDot

open Idealize.ShloMosaic Idealize.ShloMosaic.ValueIdx

/-- The sum over the contraction index is the sum over the one contracted coordinate j, the left operand read at
    (p, j) and the right at (j, o). -/
theorem sum_contr_plain {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = [])
    (lhs : (⟨2, ![n, k]⟩ : Shape).Idx → EReal) (rhs : (⟨2, ![k, d]⟩ : Shape).Idx → EReal) (p : Fin n) (o : Fin d) :
    ∑ q : D.contr.Idx, lhs (D.lhsIdx (ix2 p o) q) * rhs (D.rhsIdx (ix2 p o) q) = ∑ j : Fin k, lhs (ix2 p j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) k rfl rfl).symm]
  refine Finset.sum_congr rfl fun j _ => ?_
  have hk := contrEquiv1_symm_val (DotDims.mk [1] [0] [0] [1] [] [] wf) k rfl rfl j
  have el : (DotDims.mk [1] [0] [0] [1] [] [] wf).lhsIdx (ix2 p o) ((contrEquiv1 (DotDims.mk [1] [0] [0] [1] [] [] wf) k rfl rfl).symm j) = ix2 p j :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p o) ((contrEquiv1 (DotDims.mk [1] [0] [0] [1] [] [] wf) k rfl rfl).symm j) = ix2 j o :=
    funext fun a => Fin.ext (by
      match a with
      | ⟨0, _⟩ => exact ((DotDims.mk [1] [0] [0] [1] [] [] wf).rhsIdx_val_of_single rfl _ _).trans hk
      | ⟨1, _⟩ => rfl)
  rw [el, er]

/-- A matrix unit's product into the zero accumulator, at (p, o). -/
theorem matmul_zero_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) (p : Fin n) (o : Fin d) :
    FloatOps.matmul D prec lhs rhs (constant ⟨2, ![n, d]⟩ .f32 0x00000000#32) (ix2 p o) = ∑ j : Fin k, lhs (ix2 p j) * rhs (ix2 j o) :=
  (Ideal.matmul_constant_zero_apply D prec lhs rhs (ix2 p o)).trans (sum_contr_plain D hlc hrc hln hrn hlb hrb lhs rhs p o)

/-- The host's dot_general, at (p, o). -/
theorem dotGeneral_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision) (sched : HostSchedule)
    (lhs : FVec Ideal ⟨2, ![n, k]⟩ φ₁) (rhs : FVec Ideal ⟨2, ![k, d]⟩ φ₂) (p : Fin n) (o : Fin d) :
    FloatOps.dotGeneral D prec sched lhs rhs (ix2 p o) = ∑ j : Fin k, lhs (ix2 p j) * rhs (ix2 j o) :=
  (Ideal.dotGeneral_apply D prec sched lhs rhs (ix2 p o)).trans (sum_contr_plain D hlc hrc hln hrn hlb hrb lhs rhs p o)

end Cert.LibPlainDot

end
-- ==== Proof.LibKeepdims.lean ====
/-
  Two layout operations of a "keep the reduced axis" column, read at an index: a vector [a] cast to a column [a, 1],
  and a column [a, 1] broadcast along a second axis to [a, b]. General in the extents and in the element type.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to the column `[a, 1]` reads, at `(i, 0)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Fin 1).val = if (1 : ℕ) = 1 then 0 else c.val
    rw [if_pos rfl]; rfl

end Cert.LibKeepdims

end
-- ==== Proof.LinearPay.lean ====
/-
  The two linear layers' blocks, index by index.

  Each linear kernel loads a block of 5000 rows of the features, the whole weight matrix and the bias row, and
  stores one block of 5000 rows. Read at the extended reals, where a format change is the identity, the product
  into the zero accumulator at (p, o) is the inner product of row p of the features with row o of the weights (the
  weight matrix is transposed before the product), the bias row is spread over the rows, and the first kernel ends
  with a maximum with zero, the second with the row-wise log-softmax: the row's maximum (folded from minus
  infinity) is taken off the row, and the logarithm of the sum of the exponentials of the shifted row is taken off
  again. So the stored block is the specification's layer applied to the loaded blocks; and since both layers work
  row by row, a row of the result is decided by the same row of the features.
-/
import proofs.«168896_j5385888989441_2_alg».proof.Proof.Gen.KernelIdeal.Skeleton
import proofs.«168896_j5385888989441_2_alg».proof.Proof.Spec
import proofs.«168896_j5385888989441_2_alg».proof.Proof.LibPlainDot
import proofs.«168896_j5385888989441_2_alg».proof.Proof.LibRowReduce
import proofs.«168896_j5385888989441_2_alg».proof.Proof.LibKeepdims
import Idealize.ShloMosaic.Lib.ValueLayout

noncomputable section

namespace Cert.KernelIdeal.Linear

open Idealize.ShloMosaic Idealize.ShloMosaic.ValueIdx Cert.KernelIdeal.Gen

/-! ## The first linear layer's block: max (A · Wᵀ + b) 0 -/

/-- The block the first linear kernel stores, at row p and column o: the inner product of row p of the feature
    block with row o of the weight matrix, plus the bias at o, and the maximum of that with zero. -/
theorem k1_pay1_apply (v0 : Vec Ideal S5000x128 .f32) (v3 : Vec Ideal S256x128 .f32) (v7 : Vec Ideal S1x256 .f32)
    (p : Fin 5000) (o : Fin 256) :
    k1_pay1 (F := Ideal) v0 v3 v7 (ix2 p o)
      = max ((∑ k : Fin 128, v0 (ix2 p k) * v3 (ix2 o k)) + v7 (ix2 (0 : Fin 1) o)) (Ideal.ofBits .f32 0x00000000#32) := by
  unfold k1_pay1
  dsimp only
  rw [maximumf_apply, addf_apply, broadcast_apply, shapeCast_self, shapeCast_self, shapeCast_self,
    broadcastTo_1b_ab_apply]
  refine congrArg₂ max (congrArg₂ (· + ·) ((Cert.LibPlainDot.matmul_zero_apply dot_S5000x128_S128x256_S5000x256_1_0_0_1_n_n rfl rfl rfl rfl rfl rfl none _ _ p o).trans ?_) rfl) rfl
  refine Finset.sum_congr rfl fun k _ => ?_
  rw [truncf_apply, transpose_ix2_apply, truncf_apply]

/-- The stored block is the specification's first layer of the loaded blocks. -/
theorem k1_pay1_eq (v0 : Vec Ideal S5000x128 .f32) (v3 : Vec Ideal S256x128 .f32) (v7 : Vec Ideal S1x256 .f32) :
    (k1_pay1 (F := Ideal) v0 v3 v7 : S5000x256.Idx → EReal)
      = Cert.Graph.linRelu (v0 : S5000x128.Idx → EReal) (v3 : S256x128.Idx → EReal) (fun o => (v7 : S1x256.Idx → EReal) (ix2 (0 : Fin 1) o)) := by
  funext j
  obtain ⟨p, o, rfl⟩ : ∃ (p : Fin 5000) (o : Fin 256), j = ix2 p o := ⟨j 0, j 1, eq_ix2 j⟩
  exact k1_pay1_apply v0 v3 v7 p o

/-! ## The second linear layer's block: the row-wise log-softmax of A · Wᵀ + b -/

/-- An exponential and a logarithm of a vector, at an index. -/
theorem exp_at {s : Shape} {φ : FTy} (a : FVec Ideal s φ) (i : s.Idx) : Idealize.ShloMosaic.exp a i = Ideal.exp (a i) := rfl
theorem log_at {s : Shape} {φ : FTy} (a : FVec Ideal s φ) (i : s.Idx) : Idealize.ShloMosaic.log a i = Ideal.log (a i) := rfl

/-- The column of row maxima, spread back over the columns, reads the row's maximum. -/
theorem rowMax_col (y : FVec Ideal S5000x64 .f32) (p : Fin 5000) (o : Fin 64) :
    broadcastTo S5000x64 (shapeCast S5000x1 (multiReduction (F := Ideal) .maximumf [1] S5000 y 0xFF800000#32 reduces_S5000x64_S5000 (.inl rfl) rfl) shapeCasts_S5000_S5000x1) broadcasts_S5000x1_S5000x64 (ix2 p o)
      = Cert.Graph.rowMax (y : S5000x64.Idx → EReal) p :=
  (Cert.LibKeepdims.broadcastTo_a1_ab_apply _ _ p o).trans
    ((Cert.LibKeepdims.shapeCast_a_a1_apply _ _ p 0).trans
      (Cert.LibRowReduce.multiReduction_max_row y _ _ _ _ p))

/-- The shifted row less the logarithm of the sum of its exponentials, for any block m that reads the row maxima. -/
theorem lsm_tail_apply (y m : FVec Ideal S5000x64 .f32) (hm : ∀ (p : Fin 5000) (o : Fin 64), m (ix2 p o) = Cert.Graph.rowMax (y : S5000x64.Idx → EReal) p)
    (p : Fin 5000) (o : Fin 64) :
    subf (subf y m) (broadcastTo S5000x64 (log (shapeCast S5000x1 (multiReduction (F := Ideal) .add [1] S5000 (exp (subf y m)) 0x00000000#32 reduces_S5000x64_S5000 (.inl rfl) rfl) shapeCasts_S5000_S5000x1)) broadcasts_S5000x1_S5000x64) (ix2 p o)
      = Cert.Graph.logSoftmax (y : S5000x64.Idx → EReal) (ix2 p o) := by
  show _ = (y (ix2 p o) - Cert.Graph.rowMax (y : S5000x64.Idx → EReal) p) - Ideal.log (∑ o' : Fin 64, Ideal.exp (y (ix2 p o') - Cert.Graph.rowMax (y : S5000x64.Idx → EReal) p))
  rw [subf_apply, subf_apply, hm, Cert.LibKeepdims.broadcastTo_a1_ab_apply, log_at, Cert.LibKeepdims.shapeCast_a_a1_apply]
  refine congrArg (fun z => (y (ix2 p o) - Cert.Graph.rowMax (y : S5000x64.Idx → EReal) p) - Ideal.log z) ?_
  refine (Cert.LibRowReduce.multiReduction_add_row _ _ _ _ _ p).trans ?_
  refine Finset.sum_congr rfl fun o' _ => ?_
  rw [exp_at, subf_apply, hm]

/-- The stored block is the specification's second layer of the loaded blocks: the log-softmax of the affine map. -/
theorem k3_pay1_eq (v0 : Vec Ideal S5000x256 .f32) (v3 : Vec Ideal S64x256 .f32) (v7 : Vec Ideal S1x64 .f32) :
    (k3_pay1 (F := Ideal) v0 v3 v7 : S5000x64.Idx → EReal)
      = Cert.Graph.logSoftmax (Cert.Graph.affine (v0 : S5000x256.Idx → EReal) (v3 : S64x256.Idx → EReal) (fun o => (v7 : S1x64.Idx → EReal) (ix2 (0 : Fin 1) o))) := by
  funext j
  obtain ⟨p, o, rfl⟩ : ∃ (p : Fin 5000) (o : Fin 64), j = ix2 p o := ⟨j 0, j 1, eq_ix2 j⟩
  unfold k3_pay1
  dsimp only
  refine (lsm_tail_apply _ _ (rowMax_col _) p o).trans ?_
  refine congrArg (fun Y : S5000x64.Idx → EReal => Cert.Graph.logSoftmax Y (ix2 p o)) (funext fun i => ?_)
  obtain ⟨q, r, rfl⟩ : ∃ (q : Fin 5000) (r : Fin 64), i = ix2 q r := ⟨i 0, i 1, eq_ix2 i⟩
  rw [addf_apply, shapeCast_self, shapeCast_self, shapeCast_self, broadcastTo_1b_ab_apply]
  refine congrArg₂ (· + ·) ((Cert.LibPlainDot.matmul_zero_apply dot_S5000x256_S256x64_S5000x64_1_0_0_1_n_n rfl rfl rfl rfl rfl rfl none _ _ q r).trans ?_) rfl
  refine Finset.sum_congr rfl fun k _ => ?_
  rw [truncf_apply, transpose_ix2_apply, truncf_apply]

/-! ## The layers are row-wise: a row of the result depends on the same row of the features only -/

open Cert.Graph in
/-- The affine map at row p of a matrix whose row p is row n of another is the affine map of the other at row n. -/
theorem affine_row {N N' K O : ℕ} (A : Mat N K) (A' : Mat N' K) (W : Mat O K) (b : Fin O → EReal) (n : Fin N) (p : Fin N')
    (h : ∀ k : Fin K, A' (ix2 p k) = A (ix2 n k)) (o : Fin O) : affine A' W b (ix2 p o) = affine A W b (ix2 n o) := by
  show (∑ k : Fin K, A' (ix2 p k) * W (ix2 o k)) + b o = (∑ k : Fin K, A (ix2 n k) * W (ix2 o k)) + b o
  simp only [h]

open Cert.Graph in
/-- The same for the first layer. -/
theorem linRelu_row {N N' K O : ℕ} (A : Mat N K) (A' : Mat N' K) (W : Mat O K) (b : Fin O → EReal) (n : Fin N) (p : Fin N')
    (h : ∀ k : Fin K, A' (ix2 p k) = A (ix2 n k)) (o : Fin O) : linRelu A' W b (ix2 p o) = linRelu A W b (ix2 n o) :=
  congrArg (max · (Ideal.ofBits .f32 0x00000000#32)) (affine_row A A' W b n p h o)

open Cert.Graph in
/-- The log-softmax at row p of a matrix whose row p is row n of another is the log-softmax of the other at row n. -/
theorem logSoftmax_row {N N' O : ℕ} (Y : Mat N O) (Y' : Mat N' O) (n : Fin N) (p : Fin N')
    (h : ∀ o : Fin O, Y' (ix2 p o) = Y (ix2 n o)) (o : Fin O) : logSoftmax Y' (ix2 p o) = logSoftmax Y (ix2 n o) := by
  have hmax : rowMax Y' p = rowMax Y n :=
    congrArg (fun f : Fin O → EReal => (Finset.univ : Finset (Fin O)).fold max (Ideal.ofBits .f32 0xFF800000#32) f) (funext h)
  show (Y' (ix2 p o) - rowMax Y' p) - Ideal.log (∑ o' : Fin O, Ideal.exp (Y' (ix2 p o') - rowMax Y' p))
     = (Y (ix2 n o) - rowMax Y n) - Ideal.log (∑ o' : Fin O, Ideal.exp (Y (ix2 n o') - rowMax Y n))
  simp only [h, hmax]

open Cert.Graph in
/-- The first layer's row lemma at any two indices that share their column. -/
theorem linRelu_row' {N N' K O : ℕ} (A : Mat N K) (A' : Mat N' K) (W : Mat O K) (b : Fin O → EReal)
    (i : (⟨2, ![N, O]⟩ : Shape).Idx) (y : (⟨2, ![N', O]⟩ : Shape).Idx) (h1 : (y 1 : Fin O) = (i 1 : Fin O))
    (h : ∀ k : Fin K, A' (ix2 (y 0 : Fin N') k) = A (ix2 (i 0 : Fin N) k)) : linRelu A' W b y = linRelu A W b i := by
  obtain ⟨p, o, rfl⟩ : ∃ (p : Fin N') (o : Fin O), y = ix2 p o := ⟨y 0, y 1, eq_ix2 y⟩
  obtain ⟨n, o', rfl⟩ : ∃ (n : Fin N) (o' : Fin O), i = ix2 n o' := ⟨i 0, i 1, eq_ix2 i⟩
  have ho : o = o' := h1
  subst ho
  exact linRelu_row A A' W b n p h o

open Cert.Graph in
/-- The log-softmax of the affine map, at any two indices that share their column. -/
theorem logSoftmax_affine_row' {N N' K O : ℕ} (A : Mat N K) (A' : Mat N' K) (W : Mat O K) (b : Fin O → EReal)
    (i : (⟨2, ![N, O]⟩ : Shape).Idx) (y : (⟨2, ![N', O]⟩ : Shape).Idx) (h1 : (y 1 : Fin O) = (i 1 : Fin O))
    (h : ∀ k : Fin K, A' (ix2 (y 0 : Fin N') k) = A (ix2 (i 0 : Fin N) k)) :
    logSoftmax (affine A' W b) y = logSoftmax (affine A W b) i := by
  obtain ⟨p, o, rfl⟩ : ∃ (p : Fin N') (o : Fin O), y = ix2 p o := ⟨y 0, y 1, eq_ix2 y⟩
  obtain ⟨n, o', rfl⟩ : ∃ (n : Fin N) (o' : Fin O), i = ix2 n o' := ⟨i 0, i 1, eq_ix2 i⟩
  have ho : o = o' := h1
  subst ho
  exact logSoftmax_row (affine A W b) (affine A' W b) n p (fun o'' => affine_row A A' W b n p h o'') o

end Cert.KernelIdeal.Linear

end
-- ==== Proof.Linear.lean ====
/-
  The two linear layers of the tiled program, from blocks to arrays.

  Each linear layer runs over a grid of ten points. Point t loads block t (5000 rows) of the feature array, the
  whole weight matrix and the whole bias row, and writes back block t (5000 rows) of the result array. The stored
  block is the specification's layer applied to the loaded blocks, and both layers work row by row: row p of the
  stored block is decided by row p of the feature block, which is row 5000 t + p of the feature array. So what point
  t writes back is block t of the specification's layer applied to the whole arrays; the ten blocks tile the 50000
  rows (row n lies in the block of point n / 5000), and the result array ends holding that layer.
-/
import proofs.«168896_j5385888989441_2_alg».proof.Proof.KernelIdealFrameP
import proofs.«168896_j5385888989441_2_alg».proof.Proof.Spec
import proofs.«168896_j5385888989441_2_alg».proof.Proof.LinearPay
import Idealize.ShloMosaic.Lib.Pipeline.Value

noncomputable section

namespace Cert.KernelIdeal.Linear

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The first linear layer -/

/-- The index maps of the four windows, decided over the ten grid points: the feature window and the result
    window sit at block (t, 0), the weight and bias windows at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The feature window's block at point t, at row p and column k, is the feature array at row 5000 t + p. -/
theorem iblk1_0_apply (c : Dev nD) (t : Fin cfg1.N) (x : S5000x128.Idx) (i : S50000x128.Idx)
    (h0 : (i 0).val = t.val * 5000 + (x 0).val) (h1 : (i 1).val = (x 1).val) :
    (GenP.iblk1 (F := Ideal) V c 0 t : S5000x128.Idx → EReal) x = (V c main_v30 : S50000x128.Idx → EReal) i := by
  obtain ⟨e0, e1, -⟩ := idx_facts1 t
  unfold GenP.iblk1
  rw [View.read_apply]
  show V c main_v30 _ = V c main_v30 _
  congr 1
  funext a
  apply Fin.ext
  match a with
  | ⟨0, _⟩ => show win1_0.index t 0 * 5000 + 1 * (x 0).val = (i 0).val; rw [e0, h0]; omega
  | ⟨1, _⟩ => show win1_0.index t 1 * 128 + 1 * (x 1).val = (i 1).val; rw [e1, h1]; omega

/-- The weight window's block is the whole weight matrix at every point. -/
theorem iblk1_1_eq (c : Dev nD) (t : Fin cfg1.N) :
    (GenP.iblk1 (F := Ideal) V c 1 t : S256x128.Idx → EReal) = (V c main_arg2 : S256x128.Idx → EReal) := by
  obtain ⟨-, -, e2, e3, -⟩ := idx_facts1 t
  funext x
  unfold GenP.iblk1
  rw [View.read_apply]
  show V c main_arg2 _ = V c main_arg2 _
  congr 1
  funext a
  apply Fin.ext
  match a with
  | ⟨0, _⟩ => show win1_1.index t 0 * 256 + 1 * (x 0).val = (x 0).val; rw [e2]; omega
  | ⟨1, _⟩ => show win1_1.index t 1 * 128 + 1 * (x 1).val = (x 1).val; rw [e3]; omega

/-- The bias window's block is the whole bias row at every point. -/
theorem iblk1_2_eq (c : Dev nD) (t : Fin cfg1.N) :
    (GenP.iblk1 (F := Ideal) V c 2 t : S1x256.Idx → EReal) = (V c main_v31 : S1x256.Idx → EReal) := by
  obtain ⟨-, -, -, -, e4, e5, -⟩ := idx_facts1 t
  funext x
  unfold GenP.iblk1
  rw [View.read_apply]
  show V c main_v31 _ = V c main_v31 _
  congr 1
  funext a
  apply Fin.ext
  match a with
  | ⟨0, _⟩ => show win1_2.index t 0 * 1 + 1 * (x 0).val = (x 0).val; rw [e4]; omega
  | ⟨1, _⟩ => show win1_2.index t 1 * 256 + 1 * (x 1).val = (x 1).val; rw [e5]; omega

/-- What the result array of the first linear layer holds: the specification's first layer of the feature array,
    the weight matrix and the bias row as the region finds them. -/
abbrev G1 (c : Dev nD) : S50000x256.Idx → EReal :=
  Cert.Graph.linRelu (V c main_v30 : S50000x128.Idx → EReal) (V c main_arg2 : S256x128.Idx → EReal)
    (fun o => (V c main_v31 : S1x256.Idx → EReal) (ix2 (0 : Fin 1) o))

/-- What point t writes back is block t of that array: row p of the stored block is decided by row p of the
    feature block, which is row 5000 t + p of the feature array. -/
theorem flushed1_eq (c : Dev nD) (t : Fin cfg1.N) :
    (GenP.dat1 (F := Ideal) V c).flushed 3 t = ((cfg1.win 3).blk t).view.read (Elt Ideal) (G1 V c) := by
  show (cfg1.win 3).cut (grid1.coords t) ((GenP.dat1 V c).after 3 t) = _
  rw [GenP.after1_3]
  unfold GenP.out1_3
  rw [View.canon_unit_zero hz]
  simp only [View.ld_unit_zero (S := S5000x128) hz, View.ld_unit_zero (S := S256x128) hz, View.ld_unit_zero (S := S1x256) hz]
  rw [k1_pay1_eq, iblk1_1_eq, iblk1_2_eq]
  obtain ⟨-, -, -, -, -, -, e6, e7⟩ := idx_facts1 t
  funext y
  rw [View.read_apply]
  refine linRelu_row' _ _ _ _ _ _ ?_ ?_
  · apply Fin.ext
    show (y 1).val = win1_3.index t 1 * 256 + 1 * (y 1).val
    rw [e7]; omega
  · intro k
    refine iblk1_0_apply V c t _ _ ?_ ?_
    · show win1_3.index t 0 * 5000 + 1 * (y 0).val = t.val * 5000 + (y 0).val
      rw [e6]; omega
    · rfl

/-- An index of the result array is in point t's block iff each coordinate is in the block's range on its axis. -/
theorem mem_blk1 (t : Fin cfg1.N) (i : S50000x256.Idx) :
    i ∈ ((cfg1.win 3).blk t).view.set ↔ ∀ a : Fin 2, win1_3.index t a * S5000x256.size a ≤ (i a).val ∧ (i a).val < win1_3.index t a * S5000x256.size a + S5000x256.size a := by
  show i ∈ ((View.whole main_v32).slice (win1_3.rect t)).set ↔ _
  rw [View.set_slice_whole, Rect.mem_set_unit]
  exact Iff.rfl

/-- Every row n of the result array is in the block of point n / 5000: ten blocks of 5000 rows tile 50000. -/
theorem cover1 (i : S50000x256.Idx) : ∃ t : Fin cfg1.N, (cfg1.win 3).flush t = true ∧ i ∈ ((cfg1.win 3).blk t).view.set := by
  have hi0 : (i 0).val < 50000 := (i 0).isLt
  have hi1 : (i 1).val < 256 := (i 1).isLt
  have hN : grid1.N = 10 := GenP.N_1
  have ht : (i 0).val / 5000 < grid1.N := by rw [hN]; omega
  obtain ⟨-, -, -, -, -, -, e6, e7⟩ := idx_facts1 ⟨(i 0).val / 5000, ht⟩
  refine ⟨⟨(i 0).val / 5000, ht⟩, flush1_3 _, ?_⟩
  rw [mem_blk1]
  intro a
  match a with
  | ⟨0, _⟩ =>
    show win1_3.index ⟨(i 0).val / 5000, ht⟩ 0 * 5000 ≤ (i 0).val ∧ (i 0).val < win1_3.index ⟨(i 0).val / 5000, ht⟩ 0 * 5000 + 5000
    rw [e6]; show (i 0).val / 5000 * 5000 ≤ (i 0).val ∧ (i 0).val < (i 0).val / 5000 * 5000 + 5000; omega
  | ⟨1, _⟩ =>
    show win1_3.index ⟨(i 0).val / 5000, ht⟩ 1 * 256 ≤ (i 1).val ∧ (i 1).val < win1_3.index ⟨(i 0).val / 5000, ht⟩ 1 * 256 + 256
    rw [e7]; omega

/-- After the ten points, the result array of the first linear layer is the specification's first layer. -/
theorem final1 (c : Dev nD) :
    ((GenP.dat1 (F := Ideal) V c).arrAt 3 cfg1.N : S50000x256.Idx → EReal)
      = Cert.Graph.linRelu (V c main_v30 : S50000x128.Idx → EReal) (V c main_arg2 : S256x128.Idx → EReal)
          (fun o => (V c main_v31 : S1x256.Idx → EReal) (ix2 (0 : Fin 1) o)) :=
  (GenP.dat1 V c).arrAt_eq_of_cover 3 (G1 V c) (fun t _ => flushed1_eq V c t) cover1

/-! ## The second linear layer -/

/-- The index maps of the four windows, decided over the ten grid points: the feature window and the result
    window sit at block (t, 0), the weight and bias windows at block (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The feature window's block at point t, at row p and column k, is the feature array at row 5000 t + p. -/
theorem iblk3_0_apply (c : Dev nD) (t : Fin cfg3.N) (x : S5000x256.Idx) (i : S50000x256.Idx)
    (h0 : (i 0).val = t.val * 5000 + (x 0).val) (h1 : (i 1).val = (x 1).val) :
    (GenP.iblk3 (F := Ideal) V c 0 t : S5000x256.Idx → EReal) x = (V c main_v53 : S50000x256.Idx → EReal) i := by
  obtain ⟨e0, e1, -⟩ := idx_facts3 t
  unfold GenP.iblk3
  rw [View.read_apply]
  show V c main_v53 _ = V c main_v53 _
  congr 1
  funext a
  apply Fin.ext
  match a with
  | ⟨0, _⟩ => show win3_0.index t 0 * 5000 + 1 * (x 0).val = (i 0).val; rw [e0, h0]; omega
  | ⟨1, _⟩ => show win3_0.index t 1 * 256 + 1 * (x 1).val = (i 1).val; rw [e1, h1]; omega

/-- The weight window's block is the whole weight matrix at every point. -/
theorem iblk3_1_eq (c : Dev nD) (t : Fin cfg3.N) :
    (GenP.iblk3 (F := Ideal) V c 1 t : S64x256.Idx → EReal) = (V c main_arg4 : S64x256.Idx → EReal) := by
  obtain ⟨-, -, e2, e3, -⟩ := idx_facts3 t
  funext x
  unfold GenP.iblk3
  rw [View.read_apply]
  show V c main_arg4 _ = V c main_arg4 _
  congr 1
  funext a
  apply Fin.ext
  match a with
  | ⟨0, _⟩ => show win3_1.index t 0 * 64 + 1 * (x 0).val = (x 0).val; rw [e2]; omega
  | ⟨1, _⟩ => show win3_1.index t 1 * 256 + 1 * (x 1).val = (x 1).val; rw [e3]; omega

/-- The bias window's block is the whole bias row at every point. -/
theorem iblk3_2_eq (c : Dev nD) (t : Fin cfg3.N) :
    (GenP.iblk3 (F := Ideal) V c 2 t : S1x64.Idx → EReal) = (V c main_v54 : S1x64.Idx → EReal) := by
  obtain ⟨-, -, -, -, e4, e5, -⟩ := idx_facts3 t
  funext x
  unfold GenP.iblk3
  rw [View.read_apply]
  show V c main_v54 _ = V c main_v54 _
  congr 1
  funext a
  apply Fin.ext
  match a with
  | ⟨0, _⟩ => show win3_2.index t 0 * 1 + 1 * (x 0).val = (x 0).val; rw [e4]; omega
  | ⟨1, _⟩ => show win3_2.index t 1 * 64 + 1 * (x 1).val = (x 1).val; rw [e5]; omega

/-- What the result array of the second linear layer holds: the row-wise log-softmax of the affine map of the
    feature array, the weight matrix and the bias row as the region finds them. -/
abbrev G3 (c : Dev nD) : S50000x64.Idx → EReal :=
  Cert.Graph.logSoftmax (Cert.Graph.affine (V c main_v53 : S50000x256.Idx → EReal) (V c main_arg4 : S64x256.Idx → EReal)
    (fun o => (V c main_v54 : S1x64.Idx → EReal) (ix2 (0 : Fin 1) o)))

/-- What point t writes back is block t of that array: a block holds whole rows, so the maximum and the sum of
    exponentials of a block's row are those of the array's row 5000 t + p. -/
theorem flushed3_eq (c : Dev nD) (t : Fin cfg3.N) :
    (GenP.dat3 (F := Ideal) V c).flushed 3 t = ((cfg3.win 3).blk t).view.read (Elt Ideal) (G3 V c) := by
  show (cfg3.win 3).cut (grid3.coords t) ((GenP.dat3 V c).after 3 t) = _
  rw [GenP.after3_3]
  unfold GenP.out3_3
  rw [View.canon_unit_zero hz]
  simp only [View.ld_unit_zero (S := S5000x256) hz, View.ld_unit_zero (S := S64x256) hz, View.ld_unit_zero (S := S1x64) hz]
  rw [k3_pay1_eq, iblk3_1_eq, iblk3_2_eq]
  obtain ⟨-, -, -, -, -, -, e6, e7⟩ := idx_facts3 t
  funext y
  rw [View.read_apply]
  refine logSoftmax_affine_row' _ _ _ _ _ _ ?_ ?_
  · apply Fin.ext
    show (y 1).val = win3_3.index t 1 * 64 + 1 * (y 1).val
    rw [e7]; omega
  · intro k
    refine iblk3_0_apply V c t _ _ ?_ ?_
    · show win3_3.index t 0 * 5000 + 1 * (y 0).val = t.val * 5000 + (y 0).val
      rw [e6]; omega
    · rfl

/-- An index of the result array is in point t's block iff each coordinate is in the block's range on its axis. -/
theorem mem_blk3 (t : Fin cfg3.N) (i : S50000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v55).slice (win3_3.rect t)).set ↔ _
  rw [View.set_slice_whole, Rect.mem_set_unit]
  exact Iff.rfl

/-- Every row n of the result array is in the block of point n / 5000: ten blocks of 5000 rows tile 50000. -/
theorem cover3 (i : S50000x64.Idx) : ∃ t : Fin cfg3.N, (cfg3.win 3).flush t = true ∧ i ∈ ((cfg3.win 3).blk t).view.set := by
  have hi0 : (i 0).val < 50000 := (i 0).isLt
  have hi1 : (i 1).val < 64 := (i 1).isLt
  have hN : grid3.N = 10 := GenP.N_3
  have ht : (i 0).val / 5000 < grid3.N := by rw [hN]; omega
  obtain ⟨-, -, -, -, -, -, e6, e7⟩ := idx_facts3 ⟨(i 0).val / 5000, ht⟩
  refine ⟨⟨(i 0).val / 5000, ht⟩, flush3_3 _, ?_⟩
  rw [mem_blk3]
  intro a
  match a with
  | ⟨0, _⟩ =>
    show win3_3.index ⟨(i 0).val / 5000, ht⟩ 0 * 5000 ≤ (i 0).val ∧ (i 0).val < win3_3.index ⟨(i 0).val / 5000, ht⟩ 0 * 5000 + 5000
    rw [e6]; show (i 0).val / 5000 * 5000 ≤ (i 0).val ∧ (i 0).val < (i 0).val / 5000 * 5000 + 5000; omega
  | ⟨1, _⟩ =>
    show win3_3.index ⟨(i 0).val / 5000, ht⟩ 1 * 64 ≤ (i 1).val ∧ (i 1).val < win3_3.index ⟨(i 0).val / 5000, ht⟩ 1 * 64 + 64
    rw [e7]; omega

/-- After the ten points, the result array of the second linear layer is the log-softmax of the affine map. -/
theorem final3 (c : Dev nD) :
    ((GenP.dat3 (F := Ideal) V c).arrAt 3 cfg3.N : S50000x64.Idx → EReal)
      = Cert.Graph.logSoftmax (Cert.Graph.affine (V c main_v53 : S50000x256.Idx → EReal) (V c main_arg4 : S64x256.Idx → EReal)
          (fun o => (V c main_v54 : S1x64.Idx → EReal) (ix2 (0 : Fin 1) o))) :=
  (GenP.dat3 V c).arrAt_eq_of_cover 3 (G3 V c) (fun t _ => flushed3_eq V c t) cover3

end Cert.KernelIdeal.Linear

end
-- ==== Proof.LibRowGather.lean ====
/-
  ROW GATHER READ AT AN INDEX. A gather of whole rows of a matrix `x : [N, D]` at a column of start indices
  `idx : [E, 1]` (offset axis 1, collapsed slice axis 0, start index map [0], index vector axis 1, slice sizes
  [1, D]): result element `(e, f)` is `x` at row `idx[e, 0]`, read as a signed integer and clamped into
  `[0, N - 1]`, and column `f`.
-/
import Idealize.ShloMosaic.Lib.ValueIdx
import Idealize.ShloMosaic.PureOps.ShapeOps

namespace Cert.LibRowGather

open Idealize.ShloMosaic Idealize.ShloMosaic.ValueIdx

/-- The row gather at `(e, f)`: the operand at row `min (idx[e, 0] read signed, negative as 0) (N - 1)` and column `f`.
    On axis 0 the operand index is the clamped start (the slice has one row, the axis is collapsed, so no offset); on
    axis 1 the start is 0 (the axis is not in the start index map) and the offset coordinate is `f`. -/
theorem rowGather_apply {α : Type} {N D E w : ℕ} (hN : 0 < N) (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (f : Fin D) :
    Host.gather d x idx (ix2 e f)
      = x (ix2 ⟨min (idx (ix2 e (0 : Fin 1))).toInt.toNat (N - 1), by omega⟩ f) := by
  obtain ⟨od, cs, ob, sb, sim, ivd, ss, wf⟩ := d
  simp only at h1 h2 h3 h4 h5 h6 h7
  subst h1 h2 h3 h4 h5 h6 h7
  unfold Host.gather
  congr 1
  funext a
  refine Fin.ext ?_
  match a with
  | ⟨0, _⟩ =>
    show GatherDims.start _ (ix2 e f) idx 0 + GatherDims.batchCoord _ (ix2 e f) 0 + GatherDims.offCoord _ (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[1], [0], [], [], [0], 1, ![1, D], wf⟩ :
          GatherDims ⟨2, ![N, D]⟩ ⟨2, ![E, 1]⟩ ⟨2, ![E, D]⟩) (ix2 e f)
        ⟨List.idxOf (0 : Fin 2) [0], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show GatherDims.start _ (ix2 e f) idx 1 + GatherDims.batchCoord _ (ix2 e f) 1 + GatherDims.offCoord _ (ix2 e f) 1 = _
    rw [GatherDims.batchCoord_eq_zero _ _ _ List.not_mem_nil]
    unfold GatherDims.start GatherDims.offCoord
    rw [dif_neg (show (1 : Fin 2) ∉ [0] by decide),
      dif_pos ((GatherDims.mem_sKept _ _).mpr ⟨(show (1 : Fin 2) ∉ [0] by decide), List.not_mem_nil⟩)]
    simp only [Nat.zero_add]
    rfl

end Cert.LibRowGather
-- ==== Proof.LibRowScatter.lean ====
/-
  ROW SCATTER-ADD READ AT AN INDEX. An accumulating scatter of whole rows into a matrix `x : [N, D]` at a column of
  scatter indices `idx : [E, 1]` with updates `upd : [E, D]` (update window axis 1, inserted window axis 0, scatter
  dims to operand dims [0], index vector axis 1), over the extended reals: element `(n, g)` of the result is
  `x[n, g]` plus the sum of `upd[e, g]` over the update rows `e` whose index `idx[e, 0]`, read as a signed integer,
  is `n`. An update row whose index is outside `[0, N)` contributes nowhere.
-/
import Idealize.ShloMosaic.Lib.ValueIdx
import Idealize.ShloMosaic.PureOps.Ideal

open scoped BigOperators

namespace Cert.LibRowScatter

open Idealize.ShloMosaic Idealize.ShloMosaic.ValueIdx

/-- For any scatter dimension numbers: update index `j` lands at operand index `i` exactly when, on every operand
    axis, the start (read signed, not clamped) plus the window coordinate is `i`'s coordinate. (The update is dropped
    exactly when some axis leaves the operand, and no index `i` of the operand has such a coordinate.) -/
theorem resultIdx?_eq_some_iff_forall {s si u : Shape} {w : ℕ} (d : ScatterDims s si u) (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some_inj]
    constructor
    · rintro rfl a
      have := (h a).1
      simp only [Int.toNat_of_nonneg this]
    · intro hh
      funext a
      refine Fin.ext ?_
      have := hh a
      show (d.start j idx a + (d.window j a : ℤ)).toNat = (i a).val
      omega
  · rename_i h
    constructor
    · intro hh; cases hh
    · intro hh
      exfalso
      apply h
      intro a
      have := hh a
      have := (i a).isLt
      omega

/-- The row scatter's dimension numbers, as a record over its well-formedness fact. -/
private abbrev rowDims {N D E : ℕ} (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ := ⟨[1], [0], [0], 1, wf⟩

section
variable {N D E w : ℕ} (wf : ScatterDims.WF ⟨2, ![N, D]⟩ ⟨2, ![E, 1]⟩ ⟨2, ![E, D]⟩ [1] [0] [0] 1)
  (idx : IVec ⟨2, ![E, 1]⟩ w) (e : Fin E) (f : Fin D)

/-- On the scattered axis the start is the row index `idx[e, 0]` read signed. -/
private theorem start0 : (rowDims wf).start (ix2 e f) idx 0 = (idx (ix2 e (0 : Fin 1))).toInt := by
  unfold ScatterDims.start
  rw [dif_pos (List.mem_singleton.mpr rfl)]
  have hsi : (rowDims wf).siIdx (ix2 e f)
      ⟨List.idxOf (0 : Fin 2) [0], List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The scattered axis is inserted: its window coordinate is 0. -/
private theorem window0 : (rowDims wf).window (ix2 e f) 0 = 0 := by
  unfold ScatterDims.window
  rw [dif_neg]
  show (0 : Fin 2) ∉ (List.finRange 2).filter (· ∉ [(0 : Fin 2)])
  decide

/-- The column axis is not scattered: its start is 0. -/
private theorem start1 : (rowDims wf).start (ix2 e f) idx 1 = 0 := by
  unfold ScatterDims.start
  rw [dif_neg]
  show (1 : Fin 2) ∉ [(0 : Fin 2)]
  decide

/-- The column axis is the window axis: its window coordinate is the update's column. -/
private theorem window1 : (rowDims wf).window (ix2 e f) 1 = f.val := by
  unfold ScatterDims.window
  rw [dif_pos]
  · rfl
  · show (1 : Fin 2) ∈ (List.finRange 2).filter (· ∉ [(0 : Fin 2)])
    decide

end

/-- Where update element `(e, f)` lands: at `(n, g)` exactly when the row index `idx[e, 0]`, read signed, is `n` and
    the columns agree. On axis 0 the result index is the start (not clamped) plus window coordinate 0 (the axis is
    inserted); on axis 1 it is start 0 (the axis is not scattered) plus the window coordinate `f`. -/
theorem resultIdx?_eq_some_iff {N D E w : ℕ} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1) (idx : IVec ⟨2, ![E, 1]⟩ w) (e : Fin E) (f g : Fin D) (n : Fin N) :
    d.resultIdx? (ix2 e f) idx = some (ix2 n g) ↔ (idx (ix2 e (0 : Fin 1))).toInt = (n.val : ℤ) ∧ f = g := by
  obtain ⟨uw, iw, sd, ivd, wf⟩ := d
  simp only at h1 h2 h3 h4
  subst h1 h2 h3 h4
  show (rowDims wf).resultIdx? (ix2 e f) idx = some (ix2 n g) ↔ _
  rw [resultIdx?_eq_some_iff_forall]
  constructor
  · intro hh
    have e0 : (rowDims wf).start (ix2 e f) idx 0 + ((rowDims wf).window (ix2 e f) 0 : ℤ) = (n.val : ℤ) := hh 0
    have e1 : (rowDims wf).start (ix2 e f) idx 1 + ((rowDims wf).window (ix2 e f) 1 : ℤ) = (g.val : ℤ) := hh 1
    rw [start0, window0] at e0
    rw [start1, window1] at e1
    refine ⟨by simpa using e0, Fin.ext ?_⟩
    have : (f.val : ℤ) = (g.val : ℤ) := by simpa using e1
    exact_mod_cast this
  · rintro ⟨hn, rfl⟩ a
    match a with
    | ⟨0, _⟩ =>
      show (rowDims wf).start (ix2 e f) idx 0 + ((rowDims wf).window (ix2 e f) 0 : ℤ) = (n.val : ℤ)
      rw [start0, window0, hn]; simp
    | ⟨1, _⟩ =>
      show (rowDims wf).start (ix2 e f) idx 1 + ((rowDims wf).window (ix2 e f) 1 : ℤ) = (f.val : ℤ)
      rw [start1, window1]; simp

/-- THE ROW SCATTER-ADD AT `(n, g)`: the operand's element plus the updates `upd[e, g]` of the rows `e` whose index,
    read signed, is `n`. The sum over the update elements landing at `(n, g)` is a double sum over rows and columns; in
    row `e` only column `g` can land there, and it does exactly when `idx[e, 0] = n`. -/
theorem rowScatterAdd_apply {N D E w : ℕ} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : (⟨2, ![N, D]⟩ : Shape).Idx → EReal) (idx : IVec ⟨2, ![E, 1]⟩ w) (upd : (⟨2, ![E, D]⟩ : Shape).Idx → EReal)
    (n : Fin N) (g : Fin D) :
    Host.scatterAdd (F := Ideal) (φ := .f32) d x idx upd (ix2 n g)
      = x (ix2 n g) + ∑ e : Fin E, if (idx (ix2 e (0 : Fin 1))).toInt = (n.val : ℤ) then upd (ix2 e g) else 0 := by
  show x (ix2 n g) + ∑ j ∈ Finset.univ.filter (fun j => d.resultIdx? j idx = some (ix2 n g)), upd j = _
  congr 1
  rw [Finset.sum_filter, sum_idx2]
  refine Finset.sum_congr rfl fun e _ => ?_
  simp only [resultIdx?_eq_some_iff d h1 h2 h3 h4]
  by_cases hc : (idx (ix2 e (0 : Fin 1))).toInt = (n.val : ℤ)
  · simp only [hc, true_and, if_true]
    rw [Finset.sum_ite_eq' Finset.univ g (fun f => upd (ix2 e f))]
    simp
  · simp only [hc, false_and, if_false]
    exact Finset.sum_const_zero

end Cert.LibRowScatter
-- ==== Proof.LibBroadcastInDim.lean ====
/-
  THREE BROADCASTS READ AT AN INDEX. A vector `[E]` laid as a column `[E, 1]` reads the vector at the row; a column
  `[E, 1]` spread over `D` columns reads the column at the row, whatever the column; a scalar spread over any shape
  reads the scalar. Each is the library's `broadcastInDim_apply` with the operand index named and its coordinates
  discharged axis by axis (the scalar has no axis; the library's `broadcastInDim_scalar_apply` is the same fact at
  the empty vector literal for `dims`).
-/
import Idealize.ShloMosaic.Lib.ValueIdx
import Idealize.ShloMosaic.Lib.Pipeline.Value

namespace Cert.LibBroadcastInDim

open Idealize.ShloMosaic Idealize.ShloMosaic.ValueIdx

/-- A vector as a column: element `(e, u)` of the column is element `e` of the vector (also when `E = 1`, where the
    operand's one axis is a unit axis read at `0 = e`). -/
theorem vec_col_apply {α : Type} {E : ℕ} (h : (⟨1, ![E]⟩ : Shape).BroadcastsInDim ⟨2, ![E, 1]⟩ ![0])
    (v : (⟨1, ![E]⟩ : Shape).Idx → α) (e : Fin E) (u : Fin 1) :
    broadcastInDim ⟨2, ![E, 1]⟩ ![0] h v (ix2 e u) = v (ix1 e) :=
  broadcastInDim_apply ![0] h v (ix2 e u) (ix1 e) (fun a => by
    match a with
    | ⟨0, _⟩ =>
      show e.val = if E = 1 then 0 else e.val
      split
      · have := e.isLt; omega
      · rfl)

/-- A column spread over `D` columns: element `(e, f)` is the column's element `(e, 0)` (the operand's second axis is a
    unit axis; its first is read at the row, also when `E = 1`). -/
theorem col_mat_apply {α : Type} {E D : ℕ} (h : (⟨2, ![E, 1]⟩ : Shape).BroadcastsInDim ⟨2, ![E, D]⟩ ![0, 1])
    (v : (⟨2, ![E, 1]⟩ : Shape).Idx → α) (e : Fin E) (f : Fin D) :
    broadcastInDim ⟨2, ![E, D]⟩ ![0, 1] h v (ix2 e f) = v (ix2 e (0 : Fin 1)) :=
  broadcastInDim_apply ![0, 1] h v (ix2 e f) (ix2 e (0 : Fin 1)) (fun a => by
    match a with
    | ⟨0, _⟩ =>
      show e.val = if E = 1 then 0 else e.val
      split
      · have := e.isLt; omega
      · rfl
    | ⟨1, _⟩ => rfl)

/-- A scalar spread over any shape reads the scalar: there is one map from no axes, so `dims` is the empty one. -/
theorem scalar_apply {α : Type} {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 (fun a => a.elim0)

end Cert.LibBroadcastInDim
-- ==== Proof.LayerRead.lean ====
/-
  The two host idioms of a message-passing step, read as the specification's functions, for any number of edges.

  The gather: an index vector, each word wrapped once by 50000 if negative (compare with zero, add, select), laid out
  as a column, gathers the rows of a matrix at the clamped words — the specification's `gatherRows`.
  The scatter-add: the gathered source rows, each scaled by its edge's mask entry, summed into a zero matrix at the row
  the target word names read signed (an entry outside the matrix is dropped) — the specification's `agg`.
-/
import proofs.«168896_j5385888989441_2_alg».proof.Proof.Spec
import proofs.«168896_j5385888989441_2_alg».proof.Proof.LibRowGather
import proofs.«168896_j5385888989441_2_alg».proof.Proof.LibRowScatter
import proofs.«168896_j5385888989441_2_alg».proof.Proof.LibBroadcastInDim
import Idealize.ShloMosaic.PureOps.Ideal.Laws

noncomputable section

namespace Cert.Graph

open Idealize.ShloMosaic Idealize.ShloMosaic.ValueIdx

/-- Gathering the rows of `X` at a wrapped index column is `gatherRows`. -/
theorem gatherRows_read {D E : ℕ} (d : GatherDims ⟨2, ![50000, D]⟩ ⟨2, ![E, 1]⟩ ⟨2, ![E, D]⟩)
    (h1 : d.offsetDims = [1]) (h2 : d.collapsedSliceDims = [0]) (h3 : d.operandBatchingDims = []) (h4 : d.startIndicesBatchingDims = [])
    (h5 : d.startIndexMap = [0]) (h6 : d.indexVectorDim = 1) (h7 : d.sliceSizes = ![1, D])
    (hb : (⟨1, ![E]⟩ : Shape).BroadcastsInDim ⟨2, ![E, 1]⟩ ![0]) (hz : (⟨0, ![]⟩ : Shape).BroadcastsInDim ⟨1, ![E]⟩ ![])
    (X : Mat 50000 D) (v : Words E) :
    Host.gather d X (broadcastInDim ⟨2, ![E, 1]⟩ ![0] hb
        (select (cmpi .slt v (broadcastInDim ⟨1, ![E]⟩ ![] hz (constantI ⟨0, ![]⟩ 32 0#32)))
          (addi v (broadcastInDim ⟨1, ![E]⟩ ![] hz (constantI ⟨0, ![]⟩ 32 50000#32))) v))
      = gatherRows X v := by
  funext j
  obtain ⟨e, f, rfl⟩ : ∃ (e : Fin E) (f : Fin D), j = ix2 e f := ⟨j 0, j 1, eq_ix2 j⟩
  rw [Cert.LibRowGather.rowGather_apply (by norm_num) d h1 h2 h3 h4 h5 h6 h7]
  have hc0 : broadcastInDim ⟨1, ![E]⟩ ![] hz (constantI ⟨0, ![]⟩ 32 0#32) (ix1 e) = 0#32 :=
    Cert.LibBroadcastInDim.scalar_apply _ hz _ _
  have hc1 : broadcastInDim ⟨1, ![E]⟩ ![] hz (constantI ⟨0, ![]⟩ 32 50000#32) (ix1 e) = 50000#32 :=
    Cert.LibBroadcastInDim.scalar_apply _ hz _ _
  show X (ix2 _ f) = X (ix2 (rowAt (wrap (v (ix1 e)))) f)
  refine congrArg (fun r => X (ix2 r f)) (Fin.ext ?_)
  show min (broadcastInDim ⟨2, ![E, 1]⟩ ![0] hb
      (select (cmpi .slt v (broadcastInDim ⟨1, ![E]⟩ ![] hz (constantI ⟨0, ![]⟩ 32 0#32)))
        (addi v (broadcastInDim ⟨1, ![E]⟩ ![] hz (constantI ⟨0, ![]⟩ 32 50000#32))) v) (ix2 e (0 : Fin 1))).toInt.toNat (50000 - 1)
    = min (wrap (v (ix1 e))).toInt.toNat 49999
  rw [Cert.LibBroadcastInDim.vec_col_apply]
  show min (Scalar.select (IntOp.cmpi .slt (v (ix1 e)) (broadcastInDim ⟨1, ![E]⟩ ![] hz (constantI ⟨0, ![]⟩ 32 0#32) (ix1 e)))
      (IntOp.addi (v (ix1 e)) (broadcastInDim ⟨1, ![E]⟩ ![] hz (constantI ⟨0, ![]⟩ 32 50000#32) (ix1 e))) (v (ix1 e))).toInt.toNat (50000 - 1)
    = min (wrap (v (ix1 e))).toInt.toNat 49999
  rw [hc0, hc1]
  rfl

/-- Scatter-adding the masked source rows into a zero matrix by the target words is `agg`. -/
theorem agg_read {D E : ℕ} (d : ScatterDims ⟨2, ![50000, D]⟩ ⟨2, ![E, 1]⟩ ⟨2, ![E, D]⟩)
    (h1 : d.updateWindowDims = [1]) (h2 : d.insertedWindowDims = [0]) (h3 : d.scatterDimsToOperandDims = [0]) (h4 : d.indexVectorDim = 1)
    (hz : (⟨0, ![]⟩ : Shape).BroadcastsInDim ⟨2, ![50000, D]⟩ ![]) (hb : (⟨1, ![E]⟩ : Shape).BroadcastsInDim ⟨2, ![E, 1]⟩ ![0])
    (hm : (⟨2, ![E, 1]⟩ : Shape).BroadcastsInDim ⟨2, ![E, D]⟩ ![0, 1])
    (dst : Words E) (Xj : Mat E D) (mask : Vect E) :
    Host.scatterAdd (F := Ideal) (φ := .f32) d
        (broadcastInDim ⟨2, ![50000, D]⟩ ![] hz (constant (F := Ideal) ⟨0, ![]⟩ .f32 0x00000000#32))
        (broadcastInDim ⟨2, ![E, 1]⟩ ![0] hb dst)
        (mulf (F := Ideal) (φ := .f32) Xj (broadcastInDim ⟨2, ![E, D]⟩ ![0, 1] hm (broadcastInDim ⟨2, ![E, 1]⟩ ![0] hb mask)))
      = agg dst Xj mask := by
  funext j
  obtain ⟨n, g, rfl⟩ : ∃ (n : Fin 50000) (g : Fin D), j = ix2 n g := ⟨j 0, j 1, eq_ix2 j⟩
  rw [Cert.LibRowScatter.rowScatterAdd_apply d h1 h2 h3 h4, Cert.LibBroadcastInDim.scalar_apply]
  show Ideal.ofBits .f32 0x00000000#32 + _ = _
  rw [Ideal.ofBits_zero_f32, zero_add]
  refine Finset.sum_congr rfl fun e _ => ?_
  rw [Cert.LibBroadcastInDim.vec_col_apply]
  show (if (dst (ix1 e)).toInt = (n.val : ℤ)
      then Xj (ix2 e g) * broadcastInDim ⟨2, ![E, D]⟩ ![0, 1] hm (broadcastInDim ⟨2, ![E, 1]⟩ ![0] hb mask) (ix2 e g) else 0) = _
  rw [Cert.LibBroadcastInDim.col_mat_apply, Cert.LibBroadcastInDim.vec_col_apply]
  rfl

end Cert.Graph

end
-- ==== Proof.KernelValue1.lean ====
/-
  The idealized kernel's first layer, boundary by boundary. From the launch memory: the padded source and target
  words; the feature rows gathered by each; the first mask region leaves the padded mask of the two gathered matrices;
  the stretch after it scatter-adds the masked source rows, which is one message-passing step over the padded edge
  list; the first linear region leaves the maximum with zero of the affine map of that. The index words, the second
  layer's weights and biases pass through untouched.
-/
import proofs.«168896_j5385888989441_2_alg».proof.Proof.KernelIdealFrameP
import proofs.«168896_j5385888989441_2_alg».proof.Proof.KernelHost
import proofs.«168896_j5385888989441_2_alg».proof.Proof.KernelPass
import proofs.«168896_j5385888989441_2_alg».proof.Proof.EdgeMask
import proofs.«168896_j5385888989441_2_alg».proof.Proof.Linear
import proofs.«168896_j5385888989441_2_alg».proof.Proof.LayerRead
import proofs.«168896_j5385888989441_2_alg».proof.Proof.Spec
import Idealize.ShloMosaic.Lib.Pipeline.Value

set_option maxRecDepth 16384

noncomputable section

namespace Cert.KernelIdeal.KValue

open Cert.KernelIdeal Cert.KernelIdeal.Gen Cert.KernelIdeal.GenP Cert.Graph
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- The launch contents of the node features, the edge array, and the padded source and target words. -/
abbrev X0 : Mat 50000 128 := (W0 m ρ c (Proc.devRef .tc main_arg0) : S50000x128.Idx → EReal)
abbrev A1 : S2x800000.Idx → BitVec 32 := W0 m ρ c (Proc.devRef .tc main_arg1)
abbrev srcP : Words 851968 := KHost.padW (KHost.srcK (A1 m ρ c))
abbrev dstP : Words 851968 := KHost.padW (KHost.dstK (A1 m ρ c))

/-! ## At the first region's entry -/

theorem w1_v8 : (W1 m ρ c (Proc.devRef .tc main_v8) : S851968.Idx → BitVec 32) = srcP m ρ c := KHost.h0_v8 (W0 m ρ c)
theorem w1_v9 : (W1 m ρ c (Proc.devRef .tc main_v9) : S851968.Idx → BitVec 32) = dstP m ρ c := KHost.h0_v9 (W0 m ρ c)

theorem w1_v16 : (W1 m ρ c (Proc.devRef .tc main_v16) : S851968x128.Idx → EReal) = gatherRows (X0 m ρ c) (srcP m ρ c) :=
  (KHost.h0_v16 (W0 m ρ c)).trans
    (gatherRows_read gather_S50000x128_S851968x1_S851968x128_1_0_n_n_0_1_1128 rfl rfl rfl rfl rfl rfl rfl
      bcast_S851968_S851968x1_0 bcast_S_S851968 (X0 m ρ c) (srcP m ρ c))

theorem w1_v23 : (W1 m ρ c (Proc.devRef .tc main_v23) : S851968x128.Idx → EReal) = gatherRows (X0 m ρ c) (dstP m ρ c) :=
  (KHost.h0_v23 (W0 m ρ c)).trans
    (gatherRows_read gather_S50000x128_S851968x1_S851968x128_1_0_n_n_0_1_1128 rfl rfl rfl rfl rfl rfl rfl
      bcast_S851968_S851968x1_0 bcast_S_S851968 (X0 m ρ c) (dstP m ρ c))

/-! ## At the first region's exit -/

theorem w2_v24 : (W2 m ρ c (Proc.devRef .tc main_v24) : S851968.Idx → EReal)
    = maskPad (gatherRows (X0 m ρ c) (dstP m ρ c)) (gatherRows (X0 m ρ c) (srcP m ρ c)) := by
  refine (W2_arr m ρ c 2).trans ((EdgeMask.final0 (V1 m ρ) c).trans ?_)
  rw [show (V1 m ρ c main_v23 : S851968x128.Idx → EReal) = _ from w1_v23 m ρ c,
    show (V1 m ρ c main_v16 : S851968x128.Idx → EReal) = _ from w1_v16 m ρ c]

theorem w2_v9 : (W2 m ρ c (Proc.devRef .tc main_v9) : S851968.Idx → BitVec 32) = dstP m ρ c :=
  (W2_of_ne m ρ c main_v9 (by decide)).trans (w1_v9 m ρ c)
theorem w2_v8 : (W2 m ρ c (Proc.devRef .tc main_v8) : S851968.Idx → BitVec 32) = srcP m ρ c :=
  (W2_of_ne m ρ c main_v8 (by decide)).trans (w1_v8 m ρ c)
theorem w2_v16 : (W2 m ρ c (Proc.devRef .tc main_v16) : S851968x128.Idx → EReal) = gatherRows (X0 m ρ c) (srcP m ρ c) :=
  ((W2_arr m ρ c 1).trans (((dat0 (V1 m ρ) c).arrAt_in 1 rfl cfg0.N).trans (A_eq0 (V1 m ρ) c 1))).trans (w1_v16 m ρ c)

/-! ## At the second region's entry -/

theorem w3_v30 : (W3 m ρ c (Proc.devRef .tc main_v30) : S50000x128.Idx → EReal) = convPad (X0 m ρ c) (srcP m ρ c) (dstP m ρ c) := by
  refine (KHost.h1_v30 (W2 m ρ c)).trans ?_
  rw [w2_v9 m ρ c, w2_v16 m ρ c, w2_v24 m ρ c]
  exact agg_read scatter_S50000x128_S851968x1_S851968x128_1_0_0_1 rfl rfl rfl rfl bcast_S_S50000x128 bcast_S851968_S851968x1_0
    bcast_S851968x1_S851968x128_0_1 (dstP m ρ c) (gatherRows (X0 m ρ c) (srcP m ρ c)) _

theorem w3_v8 : (W3 m ρ c (Proc.devRef .tc main_v8) : S851968.Idx → BitVec 32) = srcP m ρ c :=
  (KPass.p1_v8 (W2 m ρ c)).trans (w2_v8 m ρ c)
theorem w3_v9 : (W3 m ρ c (Proc.devRef .tc main_v9) : S851968.Idx → BitVec 32) = dstP m ρ c :=
  (KPass.p1_v9 (W2 m ρ c)).trans (w2_v9 m ρ c)

/-- An argument the first two stretches and the first region do not write: at the second region's entry it holds its launch contents. -/
theorem w3_arg2 : W3 m ρ c (Proc.devRef .tc main_arg2) = W0 m ρ c (Proc.devRef .tc main_arg2) :=
  (KPass.p1_arg2 (W2 m ρ c)).trans ((W2_of_ne m ρ c main_arg2 (by decide)).trans (KPass.p0_arg2 (W0 m ρ c)))
theorem w3_arg4 : W3 m ρ c (Proc.devRef .tc main_arg4) = W0 m ρ c (Proc.devRef .tc main_arg4) :=
  (KPass.p1_arg4 (W2 m ρ c)).trans ((W2_of_ne m ρ c main_arg4 (by decide)).trans (KPass.p0_arg4 (W0 m ρ c)))
theorem w3_arg5 : W3 m ρ c (Proc.devRef .tc main_arg5) = W0 m ρ c (Proc.devRef .tc main_arg5) :=
  (KPass.p1_arg5 (W2 m ρ c)).trans ((W2_of_ne m ρ c main_arg5 (by decide)).trans (KPass.p0_arg5 (W0 m ρ c)))

/-- A vector laid out as a one-row matrix reads, at (0, o), the vector at o. -/
theorem row_of_vec {n : ℕ} (v : (⟨1, ![n]⟩ : Shape).Idx → EReal) (h : (⟨1, ![n]⟩ : Shape).ShapeCasts ⟨2, ![1, n]⟩) (o : Fin n) :
    shapeCast ⟨2, ![1, n]⟩ v h (ix2 (0 : Fin 1) o) = v (ix1 o) := by
  refine (shapeCast_addUnit_apply ![n] v h (ix2 (0 : Fin 1) o)).trans (congrArg v ?_)
  funext a
  match a with
  | ⟨0, _⟩ => rfl

theorem w3_v31 (o : Fin 256) : (W3 m ρ c (Proc.devRef .tc main_v31) : S1x256.Idx → EReal) (ix2 (0 : Fin 1) o)
    = (W0 m ρ c (Proc.devRef .tc main_arg3) : S256.Idx → EReal) (ix1 o) := by
  rw [show (W3 m ρ c (Proc.devRef .tc main_v31) : S1x256.Idx → EReal) = _ from KHost.h1_v31 (W2 m ρ c),
    show W2 m ρ c (Proc.devRef .tc main_arg3) = W0 m ρ c (Proc.devRef .tc main_arg3) from
      (W2_of_ne m ρ c main_arg3 (by decide)).trans (KPass.p0_arg3 (W0 m ρ c))]
  exact row_of_vec _ _ o

/-! ## At the second region's exit -/

/-- The hidden features: the first layer's output. -/
abbrev H1 : Mat 50000 256 :=
  linRelu (convPad (X0 m ρ c) (srcP m ρ c) (dstP m ρ c)) (W0 m ρ c (Proc.devRef .tc main_arg2) : S256x128.Idx → EReal)
    (fun o => (W0 m ρ c (Proc.devRef .tc main_arg3) : S256.Idx → EReal) (ix1 o))

theorem w4_v32 : (W4 m ρ c (Proc.devRef .tc main_v32) : S50000x256.Idx → EReal) = H1 m ρ c := by
  refine (W4_arr m ρ c 3).trans ((Linear.final1 (V3 m ρ) c).trans ?_)
  rw [show (V3 m ρ c main_v30 : S50000x128.Idx → EReal) = _ from w3_v30 m ρ c,
    show (V3 m ρ c main_arg2 : S256x128.Idx → EReal) = _ from w3_arg2 m ρ c,
    show (fun o => (V3 m ρ c main_v31 : S1x256.Idx → EReal) (ix2 (0 : Fin 1) o)) = _ from funext (w3_v31 m ρ c)]

theorem w4_v8 : (W4 m ρ c (Proc.devRef .tc main_v8) : S851968.Idx → BitVec 32) = srcP m ρ c :=
  (W4_of_ne m ρ c main_v8 (by decide)).trans (w3_v8 m ρ c)
theorem w4_v9 : (W4 m ρ c (Proc.devRef .tc main_v9) : S851968.Idx → BitVec 32) = dstP m ρ c :=
  (W4_of_ne m ρ c main_v9 (by decide)).trans (w3_v9 m ρ c)
theorem w4_arg4 : W4 m ρ c (Proc.devRef .tc main_arg4) = W0 m ρ c (Proc.devRef .tc main_arg4) :=
  (W4_of_ne m ρ c main_arg4 (by decide)).trans (w3_arg4 m ρ c)
theorem w4_arg5 : W4 m ρ c (Proc.devRef .tc main_arg5) = W0 m ρ c (Proc.devRef .tc main_arg5) :=
  (W4_of_ne m ρ c main_arg5 (by decide)).trans (w3_arg5 m ρ c)

end Cert.KernelIdeal.KValue

end
-- ==== Proof.KernelRun.lean ====
/-
  The idealized kernel's whole run with its result named: every weakly fair execution of @main terminates without a
  fault, the result array ends at the last boundary's contents (the fourth region's write-backs folded over what the
  host operations before it left) and the six argument arrays end as launched.
-/
import proofs.«168896_j5385888989441_2_alg».proof.Proof.KernelIdealFrameP

set_option maxRecDepth 16384

noncomputable section

namespace Cert.KernelIdeal.KRun

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over @main's eight segments: four stretches of host operations and four regions. At the end every
    unscoped buffer holds the last boundary's contents; the result and the arguments are read off that. -/
theorem run_main : θ_run defs (onTc (τ := τ) (main (F := F))) ⟨m, fun _ => 0, ρ⟩ (fun r => ∀ c : Dev nD,
      r.2.mem ((c.tc : Thread nD τ).loc main_v55) = W8 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v55 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.KRun

end
-- ==== Proof.KernelValue.lean ====
/-
  The idealized kernel's second layer and its whole run. From the first layer's output: its rows gathered by the
  padded source and target words; the second mask region leaves the padded mask of the two gathered matrices; the
  stretch after it is one message-passing step of the hidden features over the padded edge list; the last region
  leaves the row-wise log-softmax of the affine map of that. So the result array ends at the network over the padded
  edge list, as a function of the six argument arrays, and the arguments end as launched.
-/
import proofs.«168896_j5385888989441_2_alg».proof.Proof.KernelValue1
import proofs.«168896_j5385888989441_2_alg».proof.Proof.KernelRun

set_option maxRecDepth 16384

noncomputable section

namespace Cert.KernelIdeal.KValue

open Cert.KernelIdeal Cert.KernelIdeal.Gen Cert.KernelIdeal.GenP Cert.Graph
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## At the third region's entry -/

theorem w5_v39 : (W5 m ρ c (Proc.devRef .tc main_v39) : S851968x256.Idx → EReal) = gatherRows (H1 m ρ c) (srcP m ρ c) := by
  refine (KHost.h2_v39 (W4 m ρ c)).trans ?_
  rw [w4_v32 m ρ c, w4_v8 m ρ c]
  exact gatherRows_read gather_S50000x256_S851968x1_S851968x256_1_0_n_n_0_1_1256 rfl rfl rfl rfl rfl rfl rfl
    bcast_S851968_S851968x1_0 bcast_S_S851968 (H1 m ρ c) (srcP m ρ c)

theorem w5_v46 : (W5 m ρ c (Proc.devRef .tc main_v46) : S851968x256.Idx → EReal) = gatherRows (H1 m ρ c) (dstP m ρ c) := by
  refine (KHost.h2_v46 (W4 m ρ c)).trans ?_
  rw [w4_v32 m ρ c, w4_v9 m ρ c]
  exact gatherRows_read gather_S50000x256_S851968x1_S851968x256_1_0_n_n_0_1_1256 rfl rfl rfl rfl rfl rfl rfl
    bcast_S851968_S851968x1_0 bcast_S_S851968 (H1 m ρ c) (dstP m ρ c)

theorem w5_v9 : (W5 m ρ c (Proc.devRef .tc main_v9) : S851968.Idx → BitVec 32) = dstP m ρ c :=
  (KPass.p2_v9 (W4 m ρ c)).trans (w4_v9 m ρ c)
theorem w5_arg4 : W5 m ρ c (Proc.devRef .tc main_arg4) = W0 m ρ c (Proc.devRef .tc main_arg4) :=
  (KPass.p2_arg4 (W4 m ρ c)).trans (w4_arg4 m ρ c)
theorem w5_arg5 : W5 m ρ c (Proc.devRef .tc main_arg5) = W0 m ρ c (Proc.devRef .tc main_arg5) :=
  (KPass.p2_arg5 (W4 m ρ c)).trans (w4_arg5 m ρ c)

/-! ## At the third region's exit -/

theorem w6_v47 : (W6 m ρ c (Proc.devRef .tc main_v47) : S851968.Idx → EReal)
    = maskPad (gatherRows (H1 m ρ c) (dstP m ρ c)) (gatherRows (H1 m ρ c) (srcP m ρ c)) := by
  refine (W6_arr m ρ c 2).trans ((EdgeMask.final2 (V5 m ρ) c).trans ?_)
  rw [show (V5 m ρ c main_v46 : S851968x256.Idx → EReal) = _ from w5_v46 m ρ c,
    show (V5 m ρ c main_v39 : S851968x256.Idx → EReal) = _ from w5_v39 m ρ c]

theorem w6_v39 : (W6 m ρ c (Proc.devRef .tc main_v39) : S851968x256.Idx → EReal) = gatherRows (H1 m ρ c) (srcP m ρ c) :=
  ((W6_arr m ρ c 1).trans (((dat2 (V5 m ρ) c).arrAt_in 1 rfl cfg2.N).trans (A_eq2 (V5 m ρ) c 1))).trans (w5_v39 m ρ c)
theorem w6_v9 : (W6 m ρ c (Proc.devRef .tc main_v9) : S851968.Idx → BitVec 32) = dstP m ρ c :=
  (W6_of_ne m ρ c main_v9 (by decide)).trans (w5_v9 m ρ c)
theorem w6_arg4 : W6 m ρ c (Proc.devRef .tc main_arg4) = W0 m ρ c (Proc.devRef .tc main_arg4) :=
  (W6_of_ne m ρ c main_arg4 (by decide)).trans (w5_arg4 m ρ c)
theorem w6_arg5 : W6 m ρ c (Proc.devRef .tc main_arg5) = W0 m ρ c (Proc.devRef .tc main_arg5) :=
  (W6_of_ne m ρ c main_arg5 (by decide)).trans (w5_arg5 m ρ c)

/-! ## At the fourth region's entry -/

theorem w7_v53 : (W7 m ρ c (Proc.devRef .tc main_v53) : S50000x256.Idx → EReal) = convPad (H1 m ρ c) (srcP m ρ c) (dstP m ρ c) := by
  refine (KHost.h3_v53 (W6 m ρ c)).trans ?_
  rw [w6_v9 m ρ c, w6_v39 m ρ c, w6_v47 m ρ c]
  exact agg_read scatter_S50000x256_S851968x1_S851968x256_1_0_0_1 rfl rfl rfl rfl bcast_S_S50000x256 bcast_S851968_S851968x1_0
    bcast_S851968x1_S851968x256_0_1 (dstP m ρ c) (gatherRows (H1 m ρ c) (srcP m ρ c)) _

theorem w7_arg4 : W7 m ρ c (Proc.devRef .tc main_arg4) = W0 m ρ c (Proc.devRef .tc main_arg4) :=
  (KPass.p3_arg4 (W6 m ρ c)).trans (w6_arg4 m ρ c)

theorem w7_v54 (o : Fin 64) : (W7 m ρ c (Proc.devRef .tc main_v54) : S1x64.Idx → EReal) (ix2 (0 : Fin 1) o)
    = (W0 m ρ c (Proc.devRef .tc main_arg5) : S64.Idx → EReal) (ix1 o) := by
  rw [show (W7 m ρ c (Proc.devRef .tc main_v54) : S1x64.Idx → EReal) = _ from KHost.h3_v54 (W6 m ρ c), w6_arg5 m ρ c]
  exact row_of_vec _ _ o

/-! ## At the end -/

theorem w8_v55 : (W8 m ρ c (Proc.devRef .tc main_v55) : S50000x64.Idx → EReal)
    = netPad (X0 m ρ c) (srcP m ρ c) (dstP m ρ c) (W0 m ρ c (Proc.devRef .tc main_arg2) : S256x128.Idx → EReal)
        (fun o => (W0 m ρ c (Proc.devRef .tc main_arg3) : S256.Idx → EReal) (ix1 o))
        (W0 m ρ c (Proc.devRef .tc main_arg4) : S64x256.Idx → EReal)
        (fun o => (W0 m ρ c (Proc.devRef .tc main_arg5) : S64.Idx → EReal) (ix1 o)) := by
  refine (W8_arr m ρ c 3).trans ((Linear.final3 (V7 m ρ) c).trans ?_)
  rw [show (V7 m ρ c main_v53 : S50000x256.Idx → EReal) = _ from w7_v53 m ρ c,
    show (V7 m ρ c main_arg4 : S64x256.Idx → EReal) = _ from w7_arg4 m ρ c,
    show (fun o => (V7 m ρ c main_v54 : S1x64.Idx → EReal) (ix2 (0 : Fin 1) o)) = _ from funext (w7_v54 m ρ c)]
  rfl

/-- The idealized kernel's run: it terminates without a fault with the result array at the network over the padded
    edge list, a function of the six argument arrays as launched, and those arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v55)
        = netPad (m ((c.tc : Thread nD τ).loc main_arg0)) (KHost.padW (KHost.srcK (m ((c.tc : Thread nD τ).loc main_arg1))))
            (KHost.padW (KHost.dstK (m ((c.tc : Thread nD τ).loc main_arg1)))) (m ((c.tc : Thread nD τ).loc main_arg2))
            (fun o => m ((c.tc : Thread nD τ).loc main_arg3) (ix1 o)) (m ((c.tc : Thread nD τ).loc main_arg4))
            (fun o => m ((c.tc : Thread nD τ).loc main_arg5) (ix1 o))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun r h c => ⟨(h c).1.trans (w8_v55 m ρ c), (h c).2⟩) (KRun.run_main m ρ)

end Cert.KernelIdeal.KValue

end
-- ==== Proof.LibConcatLeft.lean ====
/-
  A TWO-PIECE CONCATENATION OF VECTORS READ IN ITS FIRST PIECE. The concatenation of `x : [a]` and `y : [b]` along
  their one axis, read at a position `i` below `a`, is `x` at `i`. (The library's two-piece lemma for any rank,
  `concatenate_pair_apply_left`, at rank 1 with the index named by its coordinate.)
-/
import Idealize.ShloMosaic.Lib.ValueIdx
import Idealize.ShloMosaic.Lib.Pipeline.Value

namespace Cert.LibConcatLeft

open Idealize.ShloMosaic Idealize.ShloMosaic.ValueIdx

/-- `concatenate [x, y]` at `i < a` is `x i`: the position falls in the first piece, at the same coordinate. -/
theorem concat2_left_apply {α : Type} {a b c : ℕ} (x : (⟨1, ![a]⟩ : Shape).Idx → α) (y : (⟨1, ![b]⟩ : Shape).Idx → α)
    (h : Shape.Concatenates (([⟨⟨1, ![a]⟩, x⟩, ⟨⟨1, ![b]⟩, y⟩] : List ((s : Shape) × (s.Idx → α))).map (·.1))
      ⟨1, ![c]⟩ 0) (i : Fin c) (hi : i.val < a) :
    concatenate ⟨1, ![c]⟩ 0 [⟨⟨1, ![a]⟩, x⟩, ⟨⟨1, ![b]⟩, y⟩] h (ix1 i) = x (ix1 ⟨i.val, hi⟩) := by
  have h' : Shape.Concatenates [(⟨1, ![a]⟩ : Shape), ⟨1, ![b]⟩] ⟨1, ![c]⟩ 0 := h
  exact concatenate_pair_apply_left (t := ⟨1, ![c]⟩) (s₁ := ⟨1, ![a]⟩) (s₂ := ⟨1, ![b]⟩) (0 : Fin 1) x y h' (ix1 i) rfl
    (ix1 ⟨i.val, hi⟩) (fun b => by
      match b with
      | ⟨0, _⟩ => rfl)

end Cert.LibConcatLeft
-- ==== Proof.Pad.lean ====
/-
  Padding an edge list changes nothing. A sum over `c` terms of which all from position `a` on are zero is the sum of
  the first `a`; the padded edge list agrees with the edge list on its first 850000 entries and its mask is zero on
  the rest, and a masked-out edge adds the source row times zero. So each message-passing step over the padded list
  is the step over the list, and the two networks are one function.
-/
import proofs.«168896_j5385888989441_2_alg».proof.Proof.Spec

noncomputable section

namespace Cert.Graph

open Idealize.ShloMosaic Idealize.ShloMosaic.ValueIdx

/-- A sum over `Fin c` whose terms agree with `g` below `a` and vanish from `a` on is the sum of `g` over `Fin a`. -/
theorem sum_pad {M : Type*} [AddCommMonoid M] {a c : ℕ} (hac : a ≤ c) (f : Fin c → M) (g : Fin a → M)
    (h1 : ∀ (i : Fin c) (hi : i.val < a), f i = g ⟨i.val, hi⟩) (h0 : ∀ i : Fin c, a ≤ i.val → f i = 0) :
    ∑ i, f i = ∑ i, g i := by
  let F : ℕ → M := fun i => if h : i < a then g ⟨i, h⟩ else 0
  have hf : ∀ i : Fin c, f i = F i.val := fun i => by
    by_cases hi : i.val < a
    · simp only [F, dif_pos hi]; exact h1 i hi
    · simp only [F, dif_neg hi]; exact h0 i (Nat.le_of_not_lt hi)
  have hg : ∀ i : Fin a, g i = F i.val := fun i => by simp only [F, dif_pos i.isLt]
  rw [Finset.sum_congr rfl (fun i _ => hf i), Finset.sum_congr rfl (fun i _ => hg i),
    Fin.sum_univ_eq_sum_range F c, Fin.sum_univ_eq_sum_range F a]
  refine (Finset.sum_subset (Finset.range_mono hac) (fun i _ hi => ?_)).symm
  have hlt : ¬ i < a := fun h => hi (Finset.mem_range.2 h)
  simp only [F, dif_neg hlt]

/-- One step over the padded edge list is the step over the edge list it extends. -/
theorem convPad_eq {D : ℕ} (X : Mat 50000 D) (srcP dstP : Words 851968) (src dst : Words 850000)
    (hs : ∀ (e : Fin 851968) (he : e.val < 850000), srcP (ix1 e) = src (ix1 ⟨e.val, he⟩))
    (hd : ∀ (e : Fin 851968) (he : e.val < 850000), dstP (ix1 e) = dst (ix1 ⟨e.val, he⟩)) :
    convPad X srcP dstP = conv X src dst := by
  funext j
  unfold convPad conv agg
  refine sum_pad (by norm_num) _ _ (fun e he => ?_) (fun e he => ?_)
  · have g1 : ∀ k, gatherRows X srcP (ix2 e k) = gatherRows X src (ix2 ⟨e.val, he⟩ k) := fun k => by
      show X (ix2 (rowAt (wrap (srcP (ix1 e)))) k) = X (ix2 (rowAt (wrap (src (ix1 ⟨e.val, he⟩)))) k)
      rw [hs e he]
    have g2 : ∀ k, gatherRows X dstP (ix2 e k) = gatherRows X dst (ix2 ⟨e.val, he⟩ k) := fun k => by
      show X (ix2 (rowAt (wrap (dstP (ix1 e)))) k) = X (ix2 (rowAt (wrap (dst (ix1 ⟨e.val, he⟩)))) k)
      rw [hd e he]
    have hm : maskPad (gatherRows X dstP) (gatherRows X srcP) (ix1 e)
        = maskOf (gatherRows X dst) (gatherRows X src) (ix1 ⟨e.val, he⟩) := by
      show (if e.val < 850000 then maskOf (gatherRows X dstP) (gatherRows X srcP) (ix1 e) else 0) = _
      rw [if_pos he]
      show bitVal (keep (fun k => gatherRows X dstP (ix2 e k)) (fun k => gatherRows X srcP (ix2 e k)))
        = bitVal (keep (fun k => gatherRows X dst (ix2 ⟨e.val, he⟩ k)) (fun k => gatherRows X src (ix2 ⟨e.val, he⟩ k)))
      simp only [g1, g2]
    show (if (dstP (ix1 e)).toInt = ((j 0).val : ℤ)
        then gatherRows X srcP (ix2 e (j 1)) * maskPad (gatherRows X dstP) (gatherRows X srcP) (ix1 e) else 0)
      = (if (dst (ix1 ⟨e.val, he⟩)).toInt = ((j 0).val : ℤ)
        then gatherRows X src (ix2 ⟨e.val, he⟩ (j 1)) * maskOf (gatherRows X dst) (gatherRows X src) (ix1 ⟨e.val, he⟩) else 0)
    rw [hd e he, g1 (j 1), hm]
  · have hm : maskPad (gatherRows X dstP) (gatherRows X srcP) (ix1 e) = 0 := by
      show (if e.val < 850000 then maskOf (gatherRows X dstP) (gatherRows X srcP) (ix1 e) else 0) = 0
      rw [if_neg (Nat.not_lt.2 he)]
    show (if (dstP (ix1 e)).toInt = ((j 0).val : ℤ)
        then gatherRows X srcP (ix2 e (j 1)) * maskPad (gatherRows X dstP) (gatherRows X srcP) (ix1 e) else 0) = 0
    rw [hm, mul_zero, ite_self]

/-- The network over the padded edge list is the network over the edge list it extends. -/
theorem netPad_eq (x : Mat 50000 128) (srcP dstP : Words 851968) (src dst : Words 850000)
    (W1 : Mat 256 128) (b1 : Fin 256 → EReal) (W2 : Mat 64 256) (b2 : Fin 64 → EReal)
    (hs : ∀ (e : Fin 851968) (he : e.val < 850000), srcP (ix1 e) = src (ix1 ⟨e.val, he⟩))
    (hd : ∀ (e : Fin 851968) (he : e.val < 850000), dstP (ix1 e) = dst (ix1 ⟨e.val, he⟩)) :
    netPad x srcP dstP W1 b1 W2 b2 = net x src dst W1 b1 W2 b2 := by
  unfold netPad net
  rw [convPad_eq x srcP dstP src dst hs hd, convPad_eq _ srcP dstP src dst hs hd]

end Cert.Graph

end
-- ==== Proof.RefConv.lean ====
/-
  One message-passing step of the reference, read one operation at a time: the wrapped index words, the gathered source
  and target rows, the cosine-similarity mask of an edge, the masked source rows, and their scatter-add into the nodes.
  First for the input features (128 columns), then for the first layer's output (256 columns).
-/
import proofs.«168896_j5385888989441_2_alg».proof.Proof.ReferenceReadP
import proofs.«168896_j5385888989441_2_alg».proof.Proof.Spec
import proofs.«168896_j5385888989441_2_alg».proof.Proof.LibRowGather
import proofs.«168896_j5385888989441_2_alg».proof.Proof.LibRowScatter

noncomputable section

namespace Cert.ReferenceIdeal.RefConv

open Cert.ReferenceIdeal Cert.ReferenceIdeal.Gen Cert.ReferenceIdeal.ReadP Idealize.ShloMosaic Idealize.ShloMosaic.ValueIdx

/-- A one-bit word converted to a float is 1 for the set bit and 0 otherwise. -/
theorem uitofp_bit (b : BitVec 1) : FloatOps.uitofp (F := Ideal) .f32 b = Cert.Graph.bitVal b := by
  show ((b.toNat : ℝ) : EReal) = Cert.Graph.bitVal b
  rcases BitVec.eq_zero_or_eq_one b with h | h <;> subst h <;> simp [Cert.Graph.bitVal]

/-- The gathered rows at one entry. -/
theorem gatherRows_apply {D E : ℕ} (X : Cert.Graph.Mat 50000 D) (idx : Cert.Graph.Words E) (e : Fin E) (f : Fin D) :
    Cert.Graph.gatherRows X idx (ix2 e f) = X (ix2 (Cert.Graph.rowAt (Cert.Graph.wrap (idx (ix1 e)))) f) := rfl

/-! ## The first step: 128 columns, over the input features -/

/-- The wrapped source word of an edge. -/
theorem wrapSrc1 (x1 : (⟨S2x800000, .i32⟩ : BufTy).Contents (Elt Ideal)) (e : Fin 850000) :
    val_main_v11 (F := Ideal) x1 (ix1 e) = Cert.Graph.wrap (val_main_v3 (F := Ideal) x1 (ix1 e)) := by
  rw [val_main_v11_apply, val_main_v8_apply, val_main_v10_apply, val_main_v7_apply, val_main_v9_apply, val_main_c_apply,
    val_main_c_0_apply]
  generalize val_main_v3 (F := Ideal) x1 (ix1 e) = w
  rfl

/-- The wrapped target word of an edge. -/
theorem wrapDst1 (x1 : (⟨S2x800000, .i32⟩ : BufTy).Contents (Elt Ideal)) (e : Fin 850000) :
    val_main_v18 (F := Ideal) x1 (ix1 e) = Cert.Graph.wrap (val_main_v6 (F := Ideal) x1 (ix1 e)) := by
  rw [val_main_v18_apply, val_main_v15_apply, val_main_v17_apply, val_main_v14_apply, val_main_v16_apply, val_main_c_1_apply,
    val_main_c_2_apply]
  generalize val_main_v6 (F := Ideal) x1 (ix1 e) = w
  rfl

/-- The gathered source rows. -/
theorem srcRows1 (x0 : (⟨S50000x128, .f32⟩ : BufTy).Contents (Elt Ideal)) (x1 : (⟨S2x800000, .i32⟩ : BufTy).Contents (Elt Ideal)) :
    val_main_v13 (F := Ideal) x0 x1 = Cert.Graph.gatherRows x0 (val_main_v3 (F := Ideal) x1) := by
  funext j
  obtain ⟨e, f, rfl⟩ : ∃ (e : Fin 850000) (f : Fin 128), j = ix2 e f := ⟨j 0, j 1, eq_ix2 j⟩
  have e12 : idx_main_v12 (ix2 e (0 : Fin 1)) = ix1 e := funext fun a => Fin.ext (by match a with | ⟨0, _⟩ => rfl)
  unfold val_main_v13
  refine (Cert.LibRowGather.rowGather_apply (by decide) gather_S50000x128_S850000x1_S850000x128_1_0_n_n_0_1_1128
    rfl rfl rfl rfl rfl rfl rfl x0 (val_main_v12 (F := Ideal) x1) e f).trans ?_
  rw [gatherRows_apply]
  refine congrArg x0 (congrArg (fun r : Fin 50000 => ix2 r f) (Fin.ext ?_))
  show min (val_main_v12 (F := Ideal) x1 (ix2 e (0 : Fin 1))).toInt.toNat (50000 - 1)
    = min (Cert.Graph.wrap (val_main_v3 (F := Ideal) x1 (ix1 e))).toInt.toNat (50000 - 1)
  rw [val_main_v12_apply, e12, wrapSrc1]

/-- The gathered target rows. -/
theorem dstRows1 (x0 : (⟨S50000x128, .f32⟩ : BufTy).Contents (Elt Ideal)) (x1 : (⟨S2x800000, .i32⟩ : BufTy).Contents (Elt Ideal)) :
    val_main_v20 (F := Ideal) x0 x1 = Cert.Graph.gatherRows x0 (val_main_v6 (F := Ideal) x1) := by
  funext j
  obtain ⟨e, f, rfl⟩ : ∃ (e : Fin 850000) (f : Fin 128), j = ix2 e f := ⟨j 0, j 1, eq_ix2 j⟩
  have e19 : idx_main_v19 (ix2 e (0 : Fin 1)) = ix1 e := funext fun a => Fin.ext (by match a with | ⟨0, _⟩ => rfl)
  unfold val_main_v20
  refine (Cert.LibRowGather.rowGather_apply (by decide) gather_S50000x128_S850000x1_S850000x128_1_0_n_n_0_1_1128
    rfl rfl rfl rfl rfl rfl rfl x0 (val_main_v19 (F := Ideal) x1) e f).trans ?_
  rw [gatherRows_apply]
  refine congrArg x0 (congrArg (fun r : Fin 50000 => ix2 r f) (Fin.ext ?_))
  show min (val_main_v19 (F := Ideal) x1 (ix2 e (0 : Fin 1))).toInt.toNat (50000 - 1)
    = min (Cert.Graph.wrap (val_main_v6 (F := Ideal) x1 (ix1 e))).toInt.toNat (50000 - 1)
  rw [val_main_v19_apply, e19, wrapDst1]

/-- The inner product of an edge's target and source rows. -/
theorem dot1 (x0 : (⟨S50000x128, .f32⟩ : BufTy).Contents (Elt Ideal)) (x1 : (⟨S2x800000, .i32⟩ : BufTy).Contents (Elt Ideal)) (e : Fin 850000) :
    val_main_v22 (F := Ideal) x0 x1 (ix1 e)
      = ∑ k : Fin 128, val_main_v20 (F := Ideal) x0 x1 (ix2 e k) * val_main_v13 (F := Ideal) x0 x1 (ix2 e k) := by
  have e22 : ∀ k : Fin 128, idx_main_v22 (ix1 e) k = ix2 e k := fun k =>
    funext fun a => Fin.ext (by match a with | ⟨0, _⟩ => rfl | ⟨1, _⟩ => rfl)
  rw [val_main_v22_apply, val_main_cst_apply, Ideal.ofBits_def, Ideal.ofBits_zero_f32, zero_add]
  refine Finset.sum_congr rfl fun k _ => ?_
  rw [e22 k, val_main_v21_apply]
  exact Ideal.mulf_def _ _

/-- The norm of an edge's target row. -/
theorem normDst1 (x0 : (⟨S50000x128, .f32⟩ : BufTy).Contents (Elt Ideal)) (x1 : (⟨S2x800000, .i32⟩ : BufTy).Contents (Elt Ideal)) (e : Fin 850000) :
    val_main_v23 (F := Ideal) x0 x1 (ix1 e)
      = Ideal.sqrt (∑ k : Fin 128, val_main_v20 (F := Ideal) x0 x1 (ix2 e k) * val_main_v20 (F := Ideal) x0 x1 (ix2 e k)) := by
  have ec : ∀ k : Fin 128, idx_main_call0_v1 (ix1 e) k = ix2 e k := fun k =>
    funext fun a => Fin.ext (by match a with | ⟨0, _⟩ => rfl | ⟨1, _⟩ => rfl)
  rw [val_main_v23_apply, val_main_call0_v1_apply, val_main_call0_cst_apply, Ideal.ofBits_def, Ideal.ofBits_zero_f32, zero_add,
    Ideal.hostUnary_sqrt_def]
  refine congrArg Ideal.sqrt (Finset.sum_congr rfl fun k _ => ?_)
  rw [ec k, val_main_call0_v0_apply]
  exact Ideal.mulf_def _ _

/-- The norm of an edge's source row. -/
theorem normSrc1 (x0 : (⟨S50000x128, .f32⟩ : BufTy).Contents (Elt Ideal)) (x1 : (⟨S2x800000, .i32⟩ : BufTy).Contents (Elt Ideal)) (e : Fin 850000) :
    val_main_v24 (F := Ideal) x0 x1 (ix1 e)
      = Ideal.sqrt (∑ k : Fin 128, val_main_v13 (F := Ideal) x0 x1 (ix2 e k) * val_main_v13 (F := Ideal) x0 x1 (ix2 e k)) := by
  have ec : ∀ k : Fin 128, idx_main_call1_v1 (ix1 e) k = ix2 e k := fun k =>
    funext fun a => Fin.ext (by match a with | ⟨0, _⟩ => rfl | ⟨1, _⟩ => rfl)
  rw [val_main_v24_apply, val_main_call1_v1_apply, val_main_call1_cst_apply, Ideal.ofBits_def, Ideal.ofBits_zero_f32, zero_add,
    Ideal.hostUnary_sqrt_def]
  refine congrArg Ideal.sqrt (Finset.sum_congr rfl fun k _ => ?_)
  rw [ec k, val_main_call1_v0_apply]
  exact Ideal.mulf_def _ _

/-- The mask of an edge: 1 when the cosine similarity of its target and source rows exceeds one half, 0 otherwise. -/
theorem mask1 (x0 : (⟨S50000x128, .f32⟩ : BufTy).Contents (Elt Ideal)) (x1 : (⟨S2x800000, .i32⟩ : BufTy).Contents (Elt Ideal)) (e : Fin 850000) :
    val_main_v31 (F := Ideal) x0 x1 (ix1 e)
      = Cert.Graph.maskOf (val_main_v20 (F := Ideal) x0 x1) (val_main_v13 (F := Ideal) x0 x1) (ix1 e) := by
  rw [val_main_v31_apply, val_main_v30_apply, val_main_v28_apply, val_main_v27_apply, val_main_v25_apply, val_main_v26_apply, val_main_v29_apply,
    val_main_cst_3_apply, val_main_cst_4_apply, dot1, normDst1, normSrc1, uitofp_bit]
  generalize val_main_v20 (F := Ideal) x0 x1 = Xi
  generalize val_main_v13 (F := Ideal) x0 x1 = Xj
  rfl

/-- The masked source rows. -/
theorem masked1 (x0 : (⟨S50000x128, .f32⟩ : BufTy).Contents (Elt Ideal)) (x1 : (⟨S2x800000, .i32⟩ : BufTy).Contents (Elt Ideal)) (e : Fin 850000) (g : Fin 128) :
    val_main_v34 (F := Ideal) x0 x1 (ix2 e g)
      = val_main_v13 (F := Ideal) x0 x1 (ix2 e g)
        * Cert.Graph.maskOf (val_main_v20 (F := Ideal) x0 x1) (val_main_v13 (F := Ideal) x0 x1) (ix1 e) := by
  have e3233 : idx_main_v32 (idx_main_v33 (ix2 e g)) = ix1 e := funext fun a => Fin.ext (by match a with | ⟨0, _⟩ => rfl)
  rw [val_main_v34_apply, val_main_v33_apply, val_main_v32_apply, e3233, mask1]
  generalize val_main_v20 (F := Ideal) x0 x1 = Xi
  generalize val_main_v13 (F := Ideal) x0 x1 = Xj
  rfl

/-- The step as a whole: every node's sum of the masked source rows of the edges whose raw target word is that node. -/
theorem conv1 (x0 : (⟨S50000x128, .f32⟩ : BufTy).Contents (Elt Ideal)) (x1 : (⟨S2x800000, .i32⟩ : BufTy).Contents (Elt Ideal)) :
    val_main_v37 (F := Ideal) x0 x1
      = Cert.Graph.conv x0 (val_main_v3 (F := Ideal) x1) (val_main_v6 (F := Ideal) x1) := by
  funext j
  obtain ⟨n, g, rfl⟩ : ∃ (n : Fin 50000) (g : Fin 128), j = ix2 n g := ⟨j 0, j 1, eq_ix2 j⟩
  have e36 : ∀ e : Fin 850000, idx_main_v36 (ix2 e (0 : Fin 1)) = ix1 e := fun e =>
    funext fun a => Fin.ext (by match a with | ⟨0, _⟩ => rfl)
  unfold val_main_v37
  refine (Cert.LibRowScatter.rowScatterAdd_apply scatter_S50000x128_S850000x1_S850000x128_1_0_0_1 rfl rfl rfl rfl
    (val_main_v35 (F := Ideal)) (val_main_v36 (F := Ideal) x1) (val_main_v34 (F := Ideal) x0 x1) n g).trans ?_
  rw [val_main_v35_apply, val_main_cst_5_apply, Ideal.ofBits_def, Ideal.ofBits_zero_f32, zero_add]
  unfold Cert.Graph.conv Cert.Graph.agg
  refine Finset.sum_congr rfl fun e _ => ?_
  rw [val_main_v36_apply, e36, masked1, srcRows1, dstRows1]

/-! ## The second step: 256 columns, over the first layer's output -/

/-- The wrapped source word of an edge. -/
theorem wrapSrc2 (x1 : (⟨S2x800000, .i32⟩ : BufTy).Contents (Elt Ideal)) (e : Fin 850000) :
    val_main_v48 (F := Ideal) x1 (ix1 e) = Cert.Graph.wrap (val_main_v3 (F := Ideal) x1 (ix1 e)) := by
  rw [val_main_v48_apply, val_main_v45_apply, val_main_v47_apply, val_main_v44_apply, val_main_v46_apply, val_main_c_6_apply,
    val_main_c_7_apply]
  generalize val_main_v3 (F := Ideal) x1 (ix1 e) = w
  rfl

/-- The wrapped target word of an edge. -/
theorem wrapDst2 (x1 : (⟨S2x800000, .i32⟩ : BufTy).Contents (Elt Ideal)) (e : Fin 850000) :
    val_main_v55 (F := Ideal) x1 (ix1 e) = Cert.Graph.wrap (val_main_v6 (F := Ideal) x1 (ix1 e)) := by
  rw [val_main_v55_apply, val_main_v52_apply, val_main_v54_apply, val_main_v51_apply, val_main_v53_apply, val_main_c_8_apply,
    val_main_c_9_apply]
  generalize val_main_v6 (F := Ideal) x1 (ix1 e) = w
  rfl

/-- The gathered source rows. -/
theorem srcRows2 (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal)) :
    val_main_v50 (F := Ideal) x0 x1 x2 x3 = Cert.Graph.gatherRows (val_main_v43 (F := Ideal) x0 x1 x2 x3) (val_main_v3 (F := Ideal) x1) := by
  funext j
  obtain ⟨e, f, rfl⟩ : ∃ (e : Fin 850000) (f : Fin 256), j = ix2 e f := ⟨j 0, j 1, eq_ix2 j⟩
  have e12 : idx_main_v49 (ix2 e (0 : Fin 1)) = ix1 e := funext fun a => Fin.ext (by match a with | ⟨0, _⟩ => rfl)
  unfold val_main_v50
  refine (Cert.LibRowGather.rowGather_apply (by decide) gather_S50000x256_S850000x1_S850000x256_1_0_n_n_0_1_1256
    rfl rfl rfl rfl rfl rfl rfl (val_main_v43 (F := Ideal) x0 x1 x2 x3) (val_main_v49 (F := Ideal) x1) e f).trans ?_
  rw [gatherRows_apply]
  refine congrArg (val_main_v43 (F := Ideal) x0 x1 x2 x3) (congrArg (fun r : Fin 50000 => ix2 r f) (Fin.ext ?_))
  show min (val_main_v49 (F := Ideal) x1 (ix2 e (0 : Fin 1))).toInt.toNat (50000 - 1)
    = min (Cert.Graph.wrap (val_main_v3 (F := Ideal) x1 (ix1 e))).toInt.toNat (50000 - 1)
  rw [val_main_v49_apply, e12, wrapSrc2]

/-- The gathered target rows. -/
theorem dstRows2 (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal)) :
    val_main_v57 (F := Ideal) x0 x1 x2 x3 = Cert.Graph.gatherRows (val_main_v43 (F := Ideal) x0 x1 x2 x3) (val_main_v6 (F := Ideal) x1) := by
  funext j
  obtain ⟨e, f, rfl⟩ : ∃ (e : Fin 850000) (f : Fin 256), j = ix2 e f := ⟨j 0, j 1, eq_ix2 j⟩
  have e19 : idx_main_v56 (ix2 e (0 : Fin 1)) = ix1 e := funext fun a => Fin.ext (by match a with | ⟨0, _⟩ => rfl)
  unfold val_main_v57
  refine (Cert.LibRowGather.rowGather_apply (by decide) gather_S50000x256_S850000x1_S850000x256_1_0_n_n_0_1_1256
    rfl rfl rfl rfl rfl rfl rfl (val_main_v43 (F := Ideal) x0 x1 x2 x3) (val_main_v56 (F := Ideal) x1) e f).trans ?_
  rw [gatherRows_apply]
  refine congrArg (val_main_v43 (F := Ideal) x0 x1 x2 x3) (congrArg (fun r : Fin 50000 => ix2 r f) (Fin.ext ?_))
  show min (val_main_v56 (F := Ideal) x1 (ix2 e (0 : Fin 1))).toInt.toNat (50000 - 1)
    = min (Cert.Graph.wrap (val_main_v6 (F := Ideal) x1 (ix1 e))).toInt.toNat (50000 - 1)
  rw [val_main_v56_apply, e19, wrapDst2]

/-- The inner product of an edge's target and source rows. -/
theorem dot2 (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal)) (e : Fin 850000) :
    val_main_v59 (F := Ideal) x0 x1 x2 x3 (ix1 e)
      = ∑ k : Fin 256, val_main_v57 (F := Ideal) x0 x1 x2 x3 (ix2 e k) * val_main_v50 (F := Ideal) x0 x1 x2 x3 (ix2 e k) := by
  have e22 : ∀ k : Fin 256, idx_main_v59 (ix1 e) k = ix2 e k := fun k =>
    funext fun a => Fin.ext (by match a with | ⟨0, _⟩ => rfl | ⟨1, _⟩ => rfl)
  rw [val_main_v59_apply, val_main_cst_10_apply, Ideal.ofBits_def, Ideal.ofBits_zero_f32, zero_add]
  refine Finset.sum_congr rfl fun k _ => ?_
  rw [e22 k, val_main_v58_apply]
  exact Ideal.mulf_def _ _

/-- The norm of an edge's target row. -/
theorem normDst2 (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal)) (e : Fin 850000) :
    val_main_v60 (F := Ideal) x0 x1 x2 x3 (ix1 e)
      = Ideal.sqrt (∑ k : Fin 256, val_main_v57 (F := Ideal) x0 x1 x2 x3 (ix2 e k) * val_main_v57 (F := Ideal) x0 x1 x2 x3 (ix2 e k)) := by
  have ec : ∀ k : Fin 256, idx_main_call3_v1 (ix1 e) k = ix2 e k := fun k =>
    funext fun a => Fin.ext (by match a with | ⟨0, _⟩ => rfl | ⟨1, _⟩ => rfl)
  rw [val_main_v60_apply, val_main_call3_v1_apply, val_main_call3_cst_apply, Ideal.ofBits_def, Ideal.ofBits_zero_f32, zero_add,
    Ideal.hostUnary_sqrt_def]
  refine congrArg Ideal.sqrt (Finset.sum_congr rfl fun k _ => ?_)
  rw [ec k, val_main_call3_v0_apply]
  exact Ideal.mulf_def _ _

/-- The norm of an edge's source row. -/
theorem normSrc2 (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal)) (e : Fin 850000) :
    val_main_v61 (F := Ideal) x0 x1 x2 x3 (ix1 e)
      = Ideal.sqrt (∑ k : Fin 256, val_main_v50 (F := Ideal) x0 x1 x2 x3 (ix2 e k) * val_main_v50 (F := Ideal) x0 x1 x2 x3 (ix2 e k)) := by
  have ec : ∀ k : Fin 256, idx_main_call4_v1 (ix1 e) k = ix2 e k := fun k =>
    funext fun a => Fin.ext (by match a with | ⟨0, _⟩ => rfl | ⟨1, _⟩ => rfl)
  rw [val_main_v61_apply, val_main_call4_v1_apply, val_main_call4_cst_apply, Ideal.ofBits_def, Ideal.ofBits_zero_f32, zero_add,
    Ideal.hostUnary_sqrt_def]
  refine congrArg Ideal.sqrt (Finset.sum_congr rfl fun k _ => ?_)
  rw [ec k, val_main_call4_v0_apply]
  exact Ideal.mulf_def _ _

/-- The mask of an edge: 1 when the cosine similarity of its target and source rows exceeds one half, 0 otherwise. -/
theorem mask2 (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal)) (e : Fin 850000) :
    val_main_v68 (F := Ideal) x0 x1 x2 x3 (ix1 e)
      = Cert.Graph.maskOf (val_main_v57 (F := Ideal) x0 x1 x2 x3) (val_main_v50 (F := Ideal) x0 x1 x2 x3) (ix1 e) := by
  rw [val_main_v68_apply, val_main_v67_apply, val_main_v65_apply, val_main_v64_apply, val_main_v62_apply, val_main_v63_apply, val_main_v66_apply,
    val_main_cst_11_apply, val_main_cst_12_apply, dot2, normDst2, normSrc2, uitofp_bit]
  generalize val_main_v57 (F := Ideal) x0 x1 x2 x3 = Xi
  generalize val_main_v50 (F := Ideal) x0 x1 x2 x3 = Xj
  rfl

/-- The masked source rows. -/
theorem masked2 (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal)) (e : Fin 850000) (g : Fin 256) :
    val_main_v71 (F := Ideal) x0 x1 x2 x3 (ix2 e g)
      = val_main_v50 (F := Ideal) x0 x1 x2 x3 (ix2 e g)
        * Cert.Graph.maskOf (val_main_v57 (F := Ideal) x0 x1 x2 x3) (val_main_v50 (F := Ideal) x0 x1 x2 x3) (ix1 e) := by
  have e3233 : idx_main_v69 (idx_main_v70 (ix2 e g)) = ix1 e := funext fun a => Fin.ext (by match a with | ⟨0, _⟩ => rfl)
  rw [val_main_v71_apply, val_main_v70_apply, val_main_v69_apply, e3233, mask2]
  generalize val_main_v57 (F := Ideal) x0 x1 x2 x3 = Xi
  generalize val_main_v50 (F := Ideal) x0 x1 x2 x3 = Xj
  rfl

/-- The step as a whole: every node's sum of the masked source rows of the edges whose raw target word is that node. -/
theorem conv2 (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal)) :
    val_main_v74 (F := Ideal) x0 x1 x2 x3
      = Cert.Graph.conv (val_main_v43 (F := Ideal) x0 x1 x2 x3) (val_main_v3 (F := Ideal) x1) (val_main_v6 (F := Ideal) x1) := by
  funext j
  obtain ⟨n, g, rfl⟩ : ∃ (n : Fin 50000) (g : Fin 256), j = ix2 n g := ⟨j 0, j 1, eq_ix2 j⟩
  have e36 : ∀ e : Fin 850000, idx_main_v73 (ix2 e (0 : Fin 1)) = ix1 e := fun e =>
    funext fun a => Fin.ext (by match a with | ⟨0, _⟩ => rfl)
  unfold val_main_v74
  refine (Cert.LibRowScatter.rowScatterAdd_apply scatter_S50000x256_S850000x1_S850000x256_1_0_0_1 rfl rfl rfl rfl
    (val_main_v72 (F := Ideal)) (val_main_v73 (F := Ideal) x1) (val_main_v71 (F := Ideal) x0 x1 x2 x3) n g).trans ?_
  rw [val_main_v72_apply, val_main_cst_13_apply, Ideal.ofBits_def, Ideal.ofBits_zero_f32, zero_add]
  unfold Cert.Graph.conv Cert.Graph.agg
  refine Finset.sum_congr rfl fun e _ => ?_
  rw [val_main_v73_apply, e36, masked2, srcRows2, dstRows2]

end Cert.ReferenceIdeal.RefConv

end
-- ==== Proof.RefLinear.lean ====
/-
  The two dense layers of the reference, read one operation at a time: the first is the affine map followed by the
  maximum with zero, the second the affine map followed by the row-wise log-softmax.
-/
import proofs.«168896_j5385888989441_2_alg».proof.Proof.ReferenceReadP
import proofs.«168896_j5385888989441_2_alg».proof.Proof.Spec
import proofs.«168896_j5385888989441_2_alg».proof.Proof.LibRowReduce

noncomputable section

namespace Cert.ReferenceIdeal.RefLinear

open Cert.ReferenceIdeal Cert.ReferenceIdeal.Gen Cert.ReferenceIdeal.ReadP Idealize.ShloMosaic Idealize.ShloMosaic.ValueIdx

/-- The first dense layer at one entry: the inner product of a row of the aggregated features with a row of the weight,
    plus the bias, kept above zero. -/
theorem linRelu_apply (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal)) (p : Fin 50000) (o : Fin 256) :
    val_main_v43 (F := Ideal) x0 x1 x2 x3 (ix2 p o)
      = Cert.Graph.linRelu (val_main_v37 (F := Ideal) x0 x1) x2 (fun o => x3 (ix1 o)) (ix2 p o) := by
  have el : ∀ k : Fin 128, lidx_main_v39 (ix2 p o) k = ix2 p k := fun k =>
    funext fun a => Fin.ext (by match a with | ⟨0, _⟩ => rfl | ⟨1, _⟩ => rfl)
  have er : ∀ k : Fin 128, idx_main_v38 (ridx_main_v39 (ix2 p o) k) = ix2 o k := fun k =>
    funext fun a => Fin.ext (by match a with | ⟨0, _⟩ => rfl | ⟨1, _⟩ => rfl)
  have eb : idx_main_v40 (idx_main_v41 (ix2 p o)) = ix1 o :=
    funext fun a => Fin.ext (by match a with | ⟨0, _⟩ => rfl)
  rw [val_main_v43_apply, val_main_v42_apply, val_main_v39_apply, val_main_v41_apply, val_main_v40_apply,
    val_main_call2_v0_apply, val_main_call2_cst_apply, eb]
  simp only [val_main_v38_apply, el, er]
  rfl

/-- The first dense layer as a whole. -/
theorem linRelu_eq (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal)) :
    val_main_v43 (F := Ideal) x0 x1 x2 x3
      = Cert.Graph.linRelu (val_main_v37 (F := Ideal) x0 x1) x2 (fun o => x3 (ix1 o)) := by
  funext j
  obtain ⟨p, o, rfl⟩ : ∃ (p : Fin 50000) (o : Fin 256), j = ix2 p o := ⟨j 0, j 1, eq_ix2 j⟩
  exact linRelu_apply x0 x1 x2 x3 p o

/-- The second affine map at one entry. -/
theorem affine_apply (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal))
    (x4 : (⟨S64x256, .f32⟩ : BufTy).Contents (Elt Ideal)) (x5 : (⟨S64, .f32⟩ : BufTy).Contents (Elt Ideal)) (p : Fin 50000) (o : Fin 64) :
    val_main_v79 (F := Ideal) x0 x1 x2 x3 x4 x5 (ix2 p o)
      = Cert.Graph.affine (val_main_v74 (F := Ideal) x0 x1 x2 x3) x4 (fun o => x5 (ix1 o)) (ix2 p o) := by
  have el : ∀ k : Fin 256, lidx_main_v76 (ix2 p o) k = ix2 p k := fun k =>
    funext fun a => Fin.ext (by match a with | ⟨0, _⟩ => rfl | ⟨1, _⟩ => rfl)
  have er : ∀ k : Fin 256, idx_main_v75 (ridx_main_v76 (ix2 p o) k) = ix2 o k := fun k =>
    funext fun a => Fin.ext (by match a with | ⟨0, _⟩ => rfl | ⟨1, _⟩ => rfl)
  have eb : idx_main_v77 (idx_main_v78 (ix2 p o)) = ix1 o :=
    funext fun a => Fin.ext (by match a with | ⟨0, _⟩ => rfl)
  rw [val_main_v79_apply, val_main_v76_apply, val_main_v78_apply, val_main_v77_apply, eb]
  simp only [val_main_v75_apply, el, er]
  rfl

/-- The second affine map as a whole. -/
theorem affine_eq (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal))
    (x4 : (⟨S64x256, .f32⟩ : BufTy).Contents (Elt Ideal)) (x5 : (⟨S64, .f32⟩ : BufTy).Contents (Elt Ideal)) :
    val_main_v79 (F := Ideal) x0 x1 x2 x3 x4 x5
      = Cert.Graph.affine (val_main_v74 (F := Ideal) x0 x1 x2 x3) x4 (fun o => x5 (ix1 o)) := by
  funext j
  obtain ⟨p, o, rfl⟩ : ∃ (p : Fin 50000) (o : Fin 64), j = ix2 p o := ⟨j 0, j 1, eq_ix2 j⟩
  exact affine_apply x0 x1 x2 x3 x4 x5 p o

/-- The row maximum the reference shifts by: the maximum of the fold's start value with the fold is the fold, since
    a fold of max is at least its start value. -/
theorem rowMax_apply (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal))
    (x4 : (⟨S64x256, .f32⟩ : BufTy).Contents (Elt Ideal)) (x5 : (⟨S64, .f32⟩ : BufTy).Contents (Elt Ideal)) (p : Fin 50000) :
    val_main_call5_v2 (F := Ideal) x0 x1 x2 x3 x4 x5 (ix1 p)
      = Cert.Graph.rowMax (val_main_v79 (F := Ideal) x0 x1 x2 x3 x4 x5) p := by
  have h0 : val_main_call5_v0 (F := Ideal) x0 x1 x2 x3 x4 x5 (ix1 p)
      = Cert.Graph.rowMax (val_main_v79 (F := Ideal) x0 x1 x2 x3 x4 x5) p := by
    unfold val_main_call5_v0
    refine (Cert.LibRowReduce.hostReduce_max_row (φ := .f32) _ _ reducesTo_S50000x64_S50000_d1 (by decide) h_S_ p).trans ?_
    rw [val_main_call5_cst_apply]
    rfl
  rw [val_main_call5_v2_apply, val_main_call5_v1_apply, val_main_call5_cst_0_apply, h0]
  exact max_eq_right ((Finset.le_fold_max _).2 (Or.inl le_rfl))

/-- The row sum of the exponentials of the shifted row. -/
theorem expSum_apply (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal))
    (x4 : (⟨S64x256, .f32⟩ : BufTy).Contents (Elt Ideal)) (x5 : (⟨S64, .f32⟩ : BufTy).Contents (Elt Ideal)) (p : Fin 50000) :
    val_main_call5_v7 (F := Ideal) x0 x1 x2 x3 x4 x5 (ix1 p)
      = ∑ o : Fin 64, Ideal.exp (val_main_v79 (F := Ideal) x0 x1 x2 x3 x4 x5 (ix2 p o)
          - Cert.Graph.rowMax (val_main_v79 (F := Ideal) x0 x1 x2 x3 x4 x5) p) := by
  have e7 : ∀ k : Fin 64, idx_main_call5_v7 (ix1 p) k = ix2 p k := fun k =>
    funext fun a => Fin.ext (by match a with | ⟨0, _⟩ => rfl | ⟨1, _⟩ => rfl)
  have e34 : ∀ k : Fin 64, idx_main_call5_v3 (idx_main_call5_v4 (ix2 p k)) = ix1 p := fun k =>
    funext fun a => Fin.ext (by match a with | ⟨0, _⟩ => rfl)
  rw [val_main_call5_v7_apply, val_main_call5_cst_1_apply, Ideal.ofBits_def, Ideal.ofBits_zero_f32, zero_add]
  refine Finset.sum_congr rfl fun k _ => ?_
  rw [e7, val_main_call5_v6_apply, val_main_call5_v5_apply, val_main_call5_v4_apply, val_main_call5_v3_apply, e34,
    rowMax_apply]
  simp only [Ideal.hostUnary_exp_def, Ideal.subf_def]

/-- The log-softmax at one entry. -/
theorem logSoftmax_apply (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal))
    (x4 : (⟨S64x256, .f32⟩ : BufTy).Contents (Elt Ideal)) (x5 : (⟨S64, .f32⟩ : BufTy).Contents (Elt Ideal)) (p : Fin 50000) (o : Fin 64) :
    val_main_v80 (F := Ideal) x0 x1 x2 x3 x4 x5 (ix2 p o)
      = Cert.Graph.logSoftmax (val_main_v79 (F := Ideal) x0 x1 x2 x3 x4 x5) (ix2 p o) := by
  have e34 : idx_main_call5_v3 (idx_main_call5_v4 (ix2 p o)) = ix1 p :=
    funext fun a => Fin.ext (by match a with | ⟨0, _⟩ => rfl)
  have e810 : idx_main_call5_v8 (idx_main_call5_v10 (ix2 p o)) = ix1 p :=
    funext fun a => Fin.ext (by match a with | ⟨0, _⟩ => rfl)
  rw [val_main_v80_apply, val_main_call5_v5_apply, val_main_call5_v4_apply, val_main_call5_v3_apply, e34, rowMax_apply,
    val_main_call5_v10_apply, val_main_call5_v9_apply, val_main_call5_v8_apply, e810, expSum_apply]
  simp only [Ideal.hostUnary_log_def, Ideal.subf_def]
  rfl

/-- The second dense layer as a whole: the log-softmax of the affine map of the aggregated features. -/
theorem logSoftmax_eq (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal))
    (x4 : (⟨S64x256, .f32⟩ : BufTy).Contents (Elt Ideal)) (x5 : (⟨S64, .f32⟩ : BufTy).Contents (Elt Ideal)) :
    val_main_v80 (F := Ideal) x0 x1 x2 x3 x4 x5
      = Cert.Graph.logSoftmax (Cert.Graph.affine (val_main_v74 (F := Ideal) x0 x1 x2 x3) x4 (fun o => x5 (ix1 o))) := by
  rw [← affine_eq]
  funext j
  obtain ⟨p, o, rfl⟩ : ∃ (p : Fin 50000) (o : Fin 64), j = ix2 p o := ⟨j 0, j 1, eq_ix2 j⟩
  exact logSoftmax_apply x0 x1 x2 x3 x4 x5 p o

end Cert.ReferenceIdeal.RefLinear

end
-- ==== Proof.RefValue.lean ====
/-
  The reference's result, read one operation at a time, is the network of the specification over the unpadded edge list.
-/
import proofs.«168896_j5385888989441_2_alg».proof.Proof.RefConv
import proofs.«168896_j5385888989441_2_alg».proof.Proof.RefLinear

noncomputable section

namespace Cert.ReferenceIdeal.RefValue

open Cert.ReferenceIdeal Cert.ReferenceIdeal.Gen Cert.ReferenceIdeal.ReadP Idealize.ShloMosaic Idealize.ShloMosaic.ValueIdx

/-- The reference's result is the network: two message-passing steps, each followed by a dense layer, over the edge
    list the reference builds (the given edges followed by one self-loop per node). -/
theorem result_eq (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal))
    (x4 : (⟨S64x256, .f32⟩ : BufTy).Contents (Elt Ideal)) (x5 : (⟨S64, .f32⟩ : BufTy).Contents (Elt Ideal)) :
    val_main_v80 (F := Ideal) x0 x1 x2 x3 x4 x5
      = Cert.Graph.net x0 (val_main_v3 (F := Ideal) x1) (val_main_v6 (F := Ideal) x1) x2 (fun o => x3 (ix1 o)) x4
          (fun o => x5 (ix1 o)) := by
  rw [Cert.ReferenceIdeal.RefLinear.logSoftmax_eq, Cert.ReferenceIdeal.RefConv.conv2,
    Cert.ReferenceIdeal.RefLinear.linRelu_eq, Cert.ReferenceIdeal.RefConv.conv1]
  unfold Cert.Graph.net
  rfl

end Cert.ReferenceIdeal.RefValue

end
-- ==== Proof.Bridge.lean ====
/-
  The idealized kernel's network and the reference's network are one function of the arguments.

  The kernel pads the 850000 source words and the 850000 target words with 1968 zero words each; a padded vector read
  below 850000 is the vector itself. Both programs build the edge words by the same operations on the edge array (row 0,
  respectively row 1, followed by the node numbers), so the kernel's words and the reference's words are the same
  term. The network over the padded words therefore is the network over the reference's words, by the law that padding
  an edge list with masked-out entries changes no sum. The reference's result is that network, so the two results are one
  function of the six arguments.
-/
import proofs.«168896_j5385888989441_2_alg».proof.Proof.KernelHost
import proofs.«168896_j5385888989441_2_alg».proof.Proof.ReferenceReadP
import proofs.«168896_j5385888989441_2_alg».proof.Proof.LibConcatLeft
import proofs.«168896_j5385888989441_2_alg».proof.Proof.Spec
import proofs.«168896_j5385888989441_2_alg».proof.Proof.Pad
import proofs.«168896_j5385888989441_2_alg».proof.Proof.RefValue

noncomputable section
namespace Cert.Bridge
open Idealize.ShloMosaic Idealize.ShloMosaic.ValueIdx

/-- A padded index vector read below 850000 is the vector itself there. -/
theorem padW_apply (v : Cert.KernelIdeal.S850000.Idx → BitVec 32) (e : Fin 851968) (he : e.val < 850000) :
    Cert.KernelIdeal.KHost.padW v (ix1 e) = v (ix1 ⟨e.val, he⟩) := by
  unfold Cert.KernelIdeal.KHost.padW
  exact Cert.LibConcatLeft.concat2_left_apply v _ _ e he

/-- The two programs' source words are one term: row 0 of the edge array, then the node numbers. -/
theorem srcK_eq (a1 : Cert.KernelIdeal.S2x800000.Idx → BitVec 32) :
    Cert.KernelIdeal.KHost.srcK a1 = Cert.ReferenceIdeal.ReadP.val_main_v3 (F := Ideal) a1 := rfl

/-- The two programs' target words are one term: row 1 of the edge array, then the node numbers. -/
theorem dstK_eq (a1 : Cert.KernelIdeal.S2x800000.Idx → BitVec 32) :
    Cert.KernelIdeal.KHost.dstK a1 = Cert.ReferenceIdeal.ReadP.val_main_v6 (F := Ideal) a1 := rfl

/-- The network over the kernel's padded edge words is the network over the reference's edge words. -/
theorem netPad_words (x0 : Cert.Graph.Mat 50000 128) (x1 : Cert.KernelIdeal.S2x800000.Idx → BitVec 32)
    (W1 : Cert.Graph.Mat 256 128) (b1 : Fin 256 → EReal) (W2 : Cert.Graph.Mat 64 256) (b2 : Fin 64 → EReal) :
    Cert.Graph.netPad x0 (Cert.KernelIdeal.KHost.padW (Cert.KernelIdeal.KHost.srcK x1)) (Cert.KernelIdeal.KHost.padW (Cert.KernelIdeal.KHost.dstK x1)) W1 b1 W2 b2
      = Cert.Graph.net x0 (Cert.ReferenceIdeal.ReadP.val_main_v3 (F := Ideal) x1) (Cert.ReferenceIdeal.ReadP.val_main_v6 (F := Ideal) x1) W1 b1 W2 b2 := by
  rw [← srcK_eq, ← dstK_eq]
  exact Cert.Graph.netPad_eq x0 _ _ _ _ W1 b1 W2 b2 (fun e he => padW_apply _ e he) (fun e he => padW_apply _ e he)

/-- The kernel's result term and the reference's result term are one function of the six arguments. -/
theorem kernel_eq_ref (x0 : Cert.Graph.Mat 50000 128) (x1 : Cert.KernelIdeal.S2x800000.Idx → BitVec 32) (x2 : Cert.Graph.Mat 256 128)
    (x3 : Cert.KernelIdeal.S256.Idx → EReal) (x4 : Cert.Graph.Mat 64 256) (x5 : Cert.KernelIdeal.S64.Idx → EReal) :
    Cert.Graph.netPad x0 (Cert.KernelIdeal.KHost.padW (Cert.KernelIdeal.KHost.srcK x1)) (Cert.KernelIdeal.KHost.padW (Cert.KernelIdeal.KHost.dstK x1)) x2 (fun o => x3 (ix1 o)) x4 (fun o => x5 (ix1 o))
      = Cert.ReferenceIdeal.ReadP.val_main_v80 (F := Ideal) x0 x1 x2 x3 x4 x5 :=
  (netPad_words x0 x1 x2 _ x4 _).trans (Cert.ReferenceIdeal.RefValue.result_eq x0 x1 x2 x3 x4 x5).symm

end Cert.Bridge
end
-- ==== Proof.lean ====
/-
  The claim: the tiled two-layer graph network and its reference compute one function over the extended reals.

  Both programs run and leave their six argument arrays unchanged (the three frames). The idealized kernel is the
  kernel's own text read over the extended reals, no operation rewritten. At the extended reals the kernel's result
  is the network over the edge list padded to 851968 entries with the pad entries masked out, and the reference's
  result is the network over the 850000 edges; the two programs build the same edge words, and a masked-out entry adds
  zero to every sum, so from arguments that agree the two results are equal.
-/
import proofs.«168896_j5385888989441_2_alg».proof.Defs
import proofs.«168896_j5385888989441_2_alg».proof.Proof.Gen.Kernel
import proofs.«168896_j5385888989441_2_alg».proof.Proof.Gen.KernelIdeal
import proofs.«168896_j5385888989441_2_alg».proof.Proof.Gen.ReferenceIdeal
import proofs.«168896_j5385888989441_2_alg».proof.Proof.Gen.Pre_finite_inputs
import proofs.«168896_j5385888989441_2_alg».proof.Proof.KernelFrameP
import proofs.«168896_j5385888989441_2_alg».proof.Proof.KernelIdealFrameP
import proofs.«168896_j5385888989441_2_alg».proof.Proof.RefRun
import proofs.«168896_j5385888989441_2_alg».proof.Proof.KernelValue
import proofs.«168896_j5385888989441_2_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel runs and leaves its arguments unchanged. -/
theorem frame_k : Cert.frame_Kernel := fun m ρ _ => Cert.Kernel.GenP.frame m ρ

/-- The idealized kernel runs and leaves its arguments unchanged. -/
theorem frame_ki : Cert.frame_KernelIdeal := fun m ρ _ => Cert.KernelIdeal.GenP.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.RefRun.run m ρ)

/-- The idealization rewrote no operation. -/
theorem preserves : Cert.preserves_Kernel_KernelIdeal := trivial

/-- From arguments that agree, the kernel's result — the network over the padded edge list — is the reference's result. -/
theorem algebraic : Cert.algebraic_KernelIdeal_ReferenceIdeal := by
  intro m ρ m' ρ' _ hagree
  refine ⟨fun c => Cert.Graph.netPad (m ((c.tc : Thread Cert.KernelIdeal.nD Cert.KernelIdeal.τ).loc Cert.KernelIdeal.main_arg0)) (Cert.KernelIdeal.KHost.padW (Cert.KernelIdeal.KHost.srcK (m ((c.tc : Thread Cert.KernelIdeal.nD Cert.KernelIdeal.τ).loc Cert.KernelIdeal.main_arg1)))) (Cert.KernelIdeal.KHost.padW (Cert.KernelIdeal.KHost.dstK (m ((c.tc : Thread Cert.KernelIdeal.nD Cert.KernelIdeal.τ).loc Cert.KernelIdeal.main_arg1)))) (m ((c.tc : Thread Cert.KernelIdeal.nD Cert.KernelIdeal.τ).loc Cert.KernelIdeal.main_arg2)) (fun o => m ((c.tc : Thread Cert.KernelIdeal.nD Cert.KernelIdeal.τ).loc Cert.KernelIdeal.main_arg3) (ix1 o)) (m ((c.tc : Thread Cert.KernelIdeal.nD Cert.KernelIdeal.τ).loc Cert.KernelIdeal.main_arg4)) (fun o => m ((c.tc : Thread Cert.KernelIdeal.nD Cert.KernelIdeal.τ).loc Cert.KernelIdeal.main_arg5) (ix1 o)), Cert.KernelIdeal.KValue.run m ρ, ?_⟩
  refine (θ_run Cert.ReferenceIdeal.defs _ _).mono (fun _ h c => ⟨(h c).1.trans ?_, (h c).2⟩)
    (Cert.ReferenceIdeal.RefRun.run m' ρ')
  obtain ⟨a0, a1, a2, a3, a4, a5⟩ := hagree c
  rw [a0, a1, a2, a3, a4, a5]
  exact (Cert.Bridge.kernel_eq_ref _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
